-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S3072x1024 : Shape := ⟨2, ![3072, 1024]⟩
abbrev S8192x3072 : Shape := ⟨2, ![8192, 3072]⟩
abbrev S1024x3072 : Shape := ⟨2, ![1024, 3072]⟩
abbrev S4x2048x3072 : Shape := ⟨3, ![4, 2048, 3072]⟩
abbrev S1x1024 : Shape := ⟨2, ![1, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S3072x1024, .f32⟩
  | .hbm, ⟨8, _⟩ => ⟨S8192x3072, .bf16⟩
  | .hbm, ⟨9, _⟩ => ⟨S4x2048x3072, .bf16⟩
  | .hbm, ⟨10, _⟩ => ⟨S1x1024, .f32⟩
  | .hbm, ⟨11, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S3072x1024, .f32⟩
  | .local _ .vmem, ⟨3, _⟩ => ⟨S1024x3072, .bf16⟩
  | .local _ .vmem, ⟨4, _⟩ => ⟨S1024x3072, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1024x1024, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

@[reducible] def k1_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k1_mult1 (k1_t1 : Fin k1_t1_loop.trips) : BitVec 32 :=
  let c0_i32_11 : BitVec 32 := 0#32
  let c0_i32 : BitVec 32 := 0#32
  let c1_i32 : BitVec 32 := 1#32
  let arg9 : BitVec 32 := Scf.iv c0_i32 c1_i32 k1_t1
  let c1_i32_10 : BitVec 32 := 1#32
  let v12 : BitVec 32 := Scalar.muli arg9 c1_i32_10
  let v13 : BitVec 32 := Scalar.addi c0_i32_11 v12
  let c64_i32 : BitVec 32 := 64#32
  let v14 : BitVec 32 := Scalar.muli v13 c64_i32
  v14
def k1_off1 (k1_t1 : Fin k1_t1_loop.trips) : Fin 3 → Nat :=
  let c0_12 : Index := 0#32
  let c0_13 : Index := 0#32
  let c0_i32_11 : BitVec 32 := 0#32
  let c0_i32 : BitVec 32 := 0#32
  let c1_i32 : BitVec 32 := 1#32
  let arg9 : BitVec 32 := Scf.iv c0_i32 c1_i32 k1_t1
  let c1_i32_10 : BitVec 32 := 1#32
  let v12 : BitVec 32 := Scalar.muli arg9 c1_i32_10
  let v13 : BitVec 32 := Scalar.addi c0_i32_11 v12
  let c64_i32 : BitVec 32 := 64#32
  let v14 : BitVec 32 := Scalar.muli v13 c64_i32
  let v15 : BitVec 32 := v14
  let v16 : Index := Scalar.indexCast v15
  ![0, 0, v16.toNat]
def k1_off2 (k1_t1 : Fin k1_t1_loop.trips) : Fin 3 → Nat :=
  let c0_14 : Index := 0#32
  let c0_15 : Index := 0#32
  let c0_i32_11 : BitVec 32 := 0#32
  let c0_i32 : BitVec 32 := 0#32
  let c1_i32 : BitVec 32 := 1#32
  let arg9 : BitVec 32 := Scf.iv c0_i32 c1_i32 k1_t1
  let c1_i32_10 : BitVec 32 := 1#32
  let v12 : BitVec 32 := Scalar.muli arg9 c1_i32_10
  let v13 : BitVec 32 := Scalar.addi c0_i32_11 v12
  let c64_i32 : BitVec 32 := 64#32
  let v14 : BitVec 32 := Scalar.muli v13 c64_i32
  let v15 : BitVec 32 := v14
  let v21 : Index := Scalar.indexCast v15
  ![0, 0, v21.toNat]
def k1_off3 (k1_t1 : Fin k1_t1_loop.trips) : Fin 2 → Nat :=
  let c0_22 : Index := 0#32
  let c0_i32_11 : BitVec 32 := 0#32
  let c0_i32 : BitVec 32 := 0#32
  let c1_i32 : BitVec 32 := 1#32
  let arg9 : BitVec 32 := Scf.iv c0_i32 c1_i32 k1_t1
  let c1_i32_10 : BitVec 32 := 1#32
  let v12 : BitVec 32 := Scalar.muli arg9 c1_i32_10
  let v13 : BitVec 32 := Scalar.addi c0_i32_11 v12
  let c64_i32 : BitVec 32 := 64#32
  let v14 : BitVec 32 := Scalar.muli v13 c64_i32
  let v15 : BitVec 32 := v14
  let v40 : Index := Scalar.indexCast v15
  ![0, v40.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x1024_S8192x1024 : S4x2048x1024.ShapeCasts S8192x1024
  concatenates_S1024x1024_S1024x1024_S1024x1024_S3072x1024_d0 : Shape.Concatenates [S1024x1024, S1024x1024, S1024x1024] S3072x1024 0
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1024x3072_S1024x3072_0_0 : ∀ a, (![0, 0] : Fin 2 → Nat) a + S1024x3072.size a ≤ S1024x3072.size a
  h_S1024x3072 : 0 < S1024x3072.numel
  packedbf16_S1024x3072_S1024x3072_0_0 : (Rect.unit (s := S1024x3072) ![0, 0] S1024x3072.size inb_S1024x3072_S1024x3072_0_0).PackedRows (EltTy.packing .bf16)
  shapeCasts_S8192x3072_S4x2048x3072 : S8192x3072.ShapeCasts S4x2048x3072
  shapeCasts_S1024_S1x1024 : S1024.ShapeCasts S1x1024
  h_S1x512x64 : 0 < S1x512x64.numel
  shapeCasts_S1x512x64_S512x64 : S1x512x64.ShapeCasts S512x64
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  h_S512x64 : 0 < S512x64.numel
  shapeCasts_S512x64_S512x64 : S512x64.ShapeCasts S512x64
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S3072x1024_S1024x3072_1_1_0_0_n_n_wf : DotDims.WF S1024x1024 S3072x1024 S1024x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .f32 = 32 ∨ (Rect.block (s := S3072x1024) S3072x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S8192x3072.size a
  hwx0_2 : ∀ i : grid0.Coords, EltTy.bits .bf16 = 32 ∨ (Rect.block (s := S8192x3072) S1024x3072.size (cc0_transform_2 i) (hinb0_2 i)).WholeWords (EltTy.packing .bf16)
  hrank1 : 0 < grid1.rank
  k1_t1_ok : k1_t1_loop.OK
  k1_mult1_dvd : ∀ k1_t1 : Fin k1_t1_loop.trips, 64 ∣ (k1_mult1 k1_t1).toNat
  k1_off1_inb : ∀ k1_t1 : Fin k1_t1_loop.trips, ∀ a, (k1_off1 k1_t1) a + S1x512x64.size a ≤ S1x512x1024.size a
  k1_off2_inb : ∀ k1_t1 : Fin k1_t1_loop.trips, ∀ a, (k1_off2 k1_t1) a + S1x2048x64.size a ≤ S1x2048x1024.size a
  k1_off3_inb : ∀ k1_t1 : Fin k1_t1_loop.trips, ∀ a, (k1_off3 k1_t1) a + S512x64.size a ≤ S512x1024.size a
  k1_off3_packedbf16 : ∀ k1_t1 : Fin k1_t1_loop.trips, (Rect.unit (s := S512x1024) (k1_off3 k1_t1) S512x64.size (k1_off3_inb k1_t1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x3072.size a
  hwx1_0 : ∀ i : grid1.Coords, EltTy.bits .bf16 = 32 ∨ (Rect.block (s := S4x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S1024x1024_S3072x1024_S1024x3072_1_1_0_0_n_n : DotDims S1024x1024 S3072x1024 S1024x3072 where
  lhsContracting := [1]
  rhsContracting := [1]
  lhsNonContracting := [0]
  rhsNonContracting := [0]
  lhsBatch := []
  rhsBatch := []
  wf := dot_S1024x1024_S3072x1024_S1024x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x16x64, .f32⟩
  | .hbm, ⟨10, _⟩ => ⟨S4x16x2048x64, .f32⟩
  | .hbm, ⟨11, _⟩ => ⟨S4x2048x16x64, .f32⟩
  | .hbm, ⟨12, _⟩ => ⟨S4x16x2048x64, .f32⟩
  | .hbm, ⟨13, _⟩ => ⟨S4x2048x16x64, .f32⟩
  | .hbm, ⟨14, _⟩ => ⟨S4x16x2048x64, .f32⟩
  | .hbm, ⟨15, _⟩ => ⟨S4x16x2048x2048, .f32⟩
  | .hbm, ⟨16, _⟩ => ⟨S_, .f32⟩
  | .hbm, ⟨17, _⟩ => ⟨S_, .f32⟩
  | .hbm, ⟨18, _⟩ => ⟨S4x16x2048x2048, .f32⟩
  | .hbm, ⟨19, _⟩ => ⟨S4x16x2048x2048, .f32⟩
  | .hbm, ⟨20, _⟩ => ⟨S_, .f32⟩
  | .hbm, ⟨21, _⟩ => ⟨S4x16x2048, .f32⟩
  | .hbm, ⟨22, _⟩ => ⟨S_, .f32⟩
  | .hbm, ⟨23, _⟩ => ⟨S4x16x2048, .f32⟩
  | .hbm, ⟨24, _⟩ => ⟨S4x16x2048, .f32⟩
  | .hbm, ⟨25, _⟩ => ⟨S4x16x2048x1, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x16x2048, .f32⟩
  | .hbm, ⟨31, _⟩ => ⟨S4x16x2048x1, .f32⟩
  | .hbm, ⟨32, _⟩ => ⟨S4x16x2048x2048, .f32⟩
  | .hbm, ⟨33, _⟩ => ⟨S4x16x2048x2048, .f32⟩
  | .hbm, ⟨34, _⟩ => ⟨S4x16x2048x64, .f32⟩
  | .hbm, ⟨35, _⟩ => ⟨S4x2048x16x64, .f32⟩
  | .hbm, ⟨36, _⟩ => ⟨S4x2048x1024, .f32⟩
  | .hbm, ⟨37, _⟩ => ⟨S4x2048x1024, .f32⟩
  | .hbm, ⟨38, _⟩ => ⟨S1x1x1024, .f32⟩
  | .hbm, ⟨39, _⟩ => ⟨S4x2048x1024, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.BitsProjCall.lean ====
/-
  The projection call, one grid point at a time, at any float instance.

  The call runs over 8 grid points. At point `t` it is handed rows `1024 t … 1024 t + 1023` of the flattened input
  (window 0), the whole stacked weight `[Wq; Wk; Wv]` (window 1, fetched once and left in place) and a staging buffer
  for rows `1024 t …` of the result (window 2). The body loads both inputs whole, multiplies, and stores the product
  whole: the result's buffer after the body is ONE function `out0_2` of the two input blocks. The proof data below
  say so (`dat0`), at a PARAMETER `V` — what the core's buffers hold when the call is entered —, and the body's
  triple discharges the pipeline rule's obligation at every point.
-/
import proofs.«110624_j36009005809779_2_alg».proof.Proof.Gen.Kernel.Launch
import proofs.«110624_j36009005809779_2_alg».proof.Proof.Gen.Kernel.Skeleton
import proofs.«110624_j36009005809779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: the rows window moves at
    every point; the weight window's block index never moves, so the block fetched at the first point is every point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body loads and stores through. -/
abbrev r0_0 : Rect S1024x1024 := Rect.unit (s := S1024x1024) ![0, 0] S1024x1024.size inb_S1024x1024_S1024x1024_0_0
abbrev r0_1 : Rect S3072x1024 := Rect.unit (s := S3072x1024) ![0, 0] S3072x1024.size inb_S3072x1024_S3072x1024_0_0
abbrev r0_2 : Rect S1024x3072 := Rect.unit (s := S1024x3072) ![0, 0] S1024x3072.size inb_S1024x3072_S1024x3072_0_0

/-- The result's buffer after the body: the product of the two blocks, stored whole. -/
def out0_2 (x0 : Vec F S1024x1024 .f32) (x1 : Vec F S3072x1024 .f32) : Vec F S1024x3072 .bf16 :=
  View.canon [⟨r0_2, k0_pay1 (View.ld x0 r0_0) (View.ld x1 r0_1)⟩]

/-- The one store fills the buffer. -/
theorem cover0_2 (p0 : Vec F S1024x3072 .bf16) (y : S1024x3072.Idx) :
    ∃ pc ∈ ([⟨r0_2, p0⟩] : List (View.Piece (Elt F) S1024x3072 .bf16)), y ∈ pc.1.set :=
  View.cover_of_tiledL [⟨r0_2, p0⟩] S1024x3072.size (by sl_kernel_rfl) y

set_option maxHeartbeats 1000000 in
/-- The body on whole staging buffers, the inputs' at contents `x0`, `x1` and the result's at anything, runs to the
    continuation with the inputs' as they were and the result's at `out0_2 x0 x1`. -/
theorem sound_kernel0 (c : Dev nD) (E : Set ℕ) (i : grid0.Coords) (arg1 : Memref sig .tc .vmem S1024x1024 .f32) (harg1 : arg1.IsWhole) (arg2 : Memref sig .tc .vmem S3072x1024 .f32) (harg2 : arg2.IsWhole) (arg3 : Memref sig .tc .vmem S1024x3072 .bf16) (harg3 : arg3.IsWhole)
    (x0 : Vec F S1024x1024 .f32) (x1 : Vec F S3072x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_linear_kernel i arg1 harg1 arg2 harg2 arg3 harg3) K := by
  simp only [cc0__qkv_linear_kernel_eq_skeleton]; unfold cc0__qkv_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection call on core `c`: the arrays as the call finds them; after the body at point `t`
    each input's buffer at its block, the result's at the product of the blocks; the scoped buffers and the generator
    register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsAttnRun.lean ====
/-
  The attention call, one grid point at a time, at any float instance.

  The call runs over a 4 × 4 grid: batch `b` and query tile `qi`. At a point it is handed, all out of the ONE
  projected array `[4, 2048, 3072]`, the query tile (rows `512 qi …` of batch `b`, columns `0 … 1023`: window 0),
  the batch's keys (columns `1024 … 2047`: window 1) and values (columns `2048 … 3071`: window 2); the output weight
  (window 3) and the bias row (window 4), both fetched once and left in place; and a staging buffer for the tile of the
  result (window 5). The body loops over the 16 heads — each trip loads the head's 64 columns of the three blocks and
  stores the head's context into its 64 columns of a scratch buffer — and then reads the scratch whole, multiplies by
  the output weight, adds the bias and stores the tile whole. The 16 trips fill the scratch before it is read, so the
  scratch carries nothing from one grid point to the next and the invariant between points is the plain one: every
  scoped buffer at some contents. What the stores leave is found by running the body once, symbolically
  (`kernelRun1`); the proof data name it (`dat1`), at a PARAMETER `V` — what the core's buffers hold when the call is
  entered. The three windows on the projected array hold it at three shares that make up the whole.
-/
import proofs.«110624_j36009005809779_2_alg».proof.Proof.Gen.Kernel.Launch
import proofs.«110624_j36009005809779_2_alg».proof.Proof.Gen.Kernel.Skeleton
import proofs.«110624_j36009005809779_2_alg».proof.Proof.Gen.Kernel.Loops
import proofs.«110624_j36009005809779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not fetched its
    block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The scratch buffer the heads' contexts are gathered in. -/
abbrev scM1 : Memref sig .tc .vmem S512x1024 .bf16 := Memref.whole cc1_scratch0
/-- One staging buffer of the result window, through which its contents are stated (the choice does not matter). -/
abbrev VO1_5 : View sig .tc .vmem S1x512x1024 .f32 := (Memref.whole cc1_stg5_0 : Memref sig .tc .vmem S1x512x1024 .f32).view

/-- The invariant between points, with the scratch as a buffer owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

set_option maxHeartbeats 4000000 in
/-- What the body's stores leave in the result's staging buffer, as pieces (last first), WITH the proof that on whole
    buffers — the five inputs' at their contents, the result's at anything, the scratch at contents `fs` — the body
    runs to the continuation holding the inputs' as they were, the result's buffer with its pieces written and the
    scratch at some contents. The pieces are what the symbolic run finds: the loop by its invariant over a symbolic
    trip, never unrolled. They mention `fs` in writing only: the 16 trips overwrite all of the scratch before it is read. -/
noncomputable def kernelRun1 (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .f32) (x4 : Vec F S1x1024 .f32) (fs : BufTy.Contents (Elt F) arg8.view.ty) :
    { L5 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (arg8.view.loc (c : Thread nD τ) ↦[arg8.view.set]{fullShare} fs)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} f)) -∗ K ⟨⟩))
          ⊢ wp frame (wpE (defs₀ (F := F)) Variants.none c none) E (cc1__attn_outproj_kernel i arg2 harg2 arg3 harg3 arg4 harg4 arg5 harg5 arg6 harg6 arg7 harg7 arg8 harg8) K } := by
  refine ⟨?_, fun E K => ?run⟩
  case run =>
    simp only [cc1__attn_outproj_kernel_eq_skeleton]; unfold cc1__attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HS, Hk⟩
    obtain rfl := harg2.eq_unread hf0; obtain rfl := harg3.eq_unread hf1; obtain rfl := harg4.eq_unread hf2; obtain rfl := harg5.eq_unread hf3; obtain rfl := harg6.eq_unread hf4
    clear hf0 hf1 hf2 hf3 hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS

end Cert.Kernel.Hand

end
-- ==== Proof.BitsAttnValue1.lean ====
/-
  The scratch buffer after the loop over the heads, read back as one function.

  Each of the sixteen trips stores ONE block: head `k`'s payload — of the 64 columns `64 k …` of the query tile, of the
  keys and of the values — into the 64 columns `64 k …` of the scratch. The sixteen column blocks tile the scratch, so
  after the loop it reads, at row `q` and column `e`, head `e / 64`'s payload at `(q, e % 64)`: by induction over the
  trips and the reading of a buffer written by blocks of one function, never by listing the sixteen stores.
-/
import proofs.«110624_j36009005809779_2_alg».proof.Proof.Gen.Kernel.Launch
import proofs.«110624_j36009005809779_2_alg».proof.Proof.Gen.Kernel.Skeleton
import proofs.«110624_j36009005809779_2_alg».proof.Proof.Gen.Kernel.Loops
import proofs.«110624_j36009005809779_2_alg».proof.Proof.Gen.Kernel.Points
import Idealize.ShloMosaic.Lib.Pipeline.Value
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-- The loop over the heads makes sixteen trips. -/
theorem trips_eq : k1_t1_loop.trips = 16 := by decide +kernel

/-- Head `k`'s 64 columns of the query tile, -/
abbrev rectQ (k : Fin k1_t1_loop.trips) : Rect S1x512x1024 :=
  Rect.unit (s := S1x512x1024) (k1_off1 k) S1x512x64.size (k1_off1_inb k)
/-- of a key or value block, -/
abbrev rectK (k : Fin k1_t1_loop.trips) : Rect S1x2048x1024 :=
  Rect.unit (s := S1x2048x1024) (k1_off2 k) S1x2048x64.size (k1_off2_inb k)
/-- and of the scratch. -/
abbrev rectS (k : Fin k1_t1_loop.trips) : Rect S512x1024 :=
  Rect.unit (s := S512x1024) (k1_off3 k) S512x64.size (k1_off3_inb k)

/-- ONE TRIP of the loop over the heads leaves one piece: head `k`'s payload of the three blocks' columns of head `k`,
    stored into head `k`'s columns of the scratch. -/
theorem tripL_eq (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole) (X_arg2 : BufTy.Contents (Elt F) arg2.view.ty) (X_arg3 : BufTy.Contents (Elt F) arg3.view.ty) (X_arg4 : BufTy.Contents (Elt F) arg4.view.ty) (k : Fin k1_t1_loop.trips) :
    tripL_k1_t1 (F := F) 𝒱 c bd i arg2 harg2 arg3 harg3 arg4 harg4 arg5 harg5 arg6 harg6 arg7 harg7 arg8 harg8 X_arg2 X_arg3 X_arg4 k
      = [(⟨rectS k, k1_pay1 (arg2.view.readAt (Elt F) (rectQ k).toLoadRect X_arg2)
            (arg3.view.readAt (Elt F) (rectK k).toLoadRect X_arg3)
            (arg4.view.readAt (Elt F) (rectK k).toLoadRect X_arg4)⟩ : View.Piece (Elt F) S512x1024 .bf16)] := by
  unfold tripL_k1_t1 trip_k1_t1
  rfl

/-! ## Sixteen column blocks read back as one function -/

/-- The head a scratch column belongs to (column `e` is in head `e / 64`), -/
def headIx (y : S512x1024.Idx) : Fin k1_t1_loop.trips :=
  ⟨(y 1).val / 64, by rw [trips_eq]; have := idx2_lt1 y; omega⟩
/-- and the index inside the head's block (row as it is, column `e % 64`). -/
def inIx (y : S512x1024.Idx) : S512x64.Idx :=
  ix2 (⟨(y 0).val, idx2_lt0 y⟩ : Fin 512) (⟨(y 1).val % 64, Nat.mod_lt _ (by decide)⟩ : Fin 64)

/-- Where an element of head `k`'s block sits in the scratch: same row, -/
theorem rectS_emb0 (k : Fin k1_t1_loop.trips) (x : (rectS k).shape.Idx) : ((rectS k).emb x 0 : ℕ) = (x 0 : ℕ) := by
  rw [Rect.emb_apply]
  show k1_off3 k 0 + 1 * (x 0 : ℕ) = _
  rw [k1_off3_eq]
  show 0 + 1 * (x 0 : ℕ) = _
  omega
/-- column `64 k` plus its own. -/
theorem rectS_emb1 (k : Fin k1_t1_loop.trips) (x : (rectS k).shape.Idx) : ((rectS k).emb x 1 : ℕ) = 64 * k.val + (x 1 : ℕ) := by
  rw [Rect.emb_apply]
  show k1_off3 k 1 + 1 * (x 1 : ℕ) = _
  rw [k1_off3_eq]
  show 64 * k.val + 1 * (x 1 : ℕ) = _
  omega

section Heads
variable {Val : EltTy → Type}

/-- Sixteen stores, store `k` putting a block `P k` into head `k`'s columns: store `k` is among the first `n` for `k < n`. -/
theorem mem_heads (P : Fin k1_t1_loop.trips → S512x64.Idx → Val .bf16)
    (pb : ℕ → List (View.Piece Val S512x1024 .bf16))
    (hs : ∀ k : Fin k1_t1_loop.trips, pb (k.val + 1) = [(⟨rectS k, P k⟩ : View.Piece Val S512x1024 .bf16)] ++ pb k.val) :
    ∀ n, n ≤ 16 → ∀ k : Fin k1_t1_loop.trips, k.val < n →
      (⟨rectS k, P k⟩ : View.Piece Val S512x1024 .bf16) ∈ pb n := by
  intro n
  induction n with
  | zero => intro _ k hk; exact absurd hk (Nat.not_lt_zero _)
  | succ n ih =>
    intro hn k hk
    obtain ⟨kn, rfl⟩ : ∃ kn : Fin k1_t1_loop.trips, kn.val = n := ⟨⟨n, by rw [trips_eq]; omega⟩, rfl⟩
    rw [hs kn]
    by_cases hkn : k = kn
    · subst hkn
      exact List.mem_append_left _ (List.mem_singleton.mpr rfl)
    · have hne : k.val ≠ kn.val := fun h => hkn (Fin.ext h)
      exact List.mem_append_right _ (ih (by omega) k (by omega))

/-- The sixteen column blocks cover the buffer: column `e` is in head `e / 64`'s block. -/
theorem cover_heads (P : Fin k1_t1_loop.trips → S512x64.Idx → Val .bf16)
    (pb : ℕ → List (View.Piece Val S512x1024 .bf16))
    (hs : ∀ k : Fin k1_t1_loop.trips, pb (k.val + 1) = [(⟨rectS k, P k⟩ : View.Piece Val S512x1024 .bf16)] ++ pb k.val)
    (y : S512x1024.Idx) : ∃ p ∈ pb 16, y ∈ p.1.set := by
  refine ⟨⟨rectS (headIx y), P (headIx y)⟩,
    mem_heads P pb hs 16 le_rfl (headIx y) (by rw [← trips_eq]; exact (headIx y).isLt), ?_⟩
  rw [Rect.mem_set_unit]
  intro a
  have h0 : (y 0 : ℕ) < 512 := idx2_lt0 y
  have h1 : (y 1 : ℕ) < 1024 := idx2_lt1 y
  rw [k1_off3_eq]
  match a with
  | ⟨0, _⟩ => show 0 ≤ (y 0 : ℕ) ∧ (y 0 : ℕ) < 0 + 512; omega
  | ⟨1, _⟩ => show 64 * ((y 1 : ℕ) / 64) ≤ (y 1 : ℕ) ∧ (y 1 : ℕ) < 64 * ((y 1 : ℕ) / 64) + 64; omega

/-- A buffer written by sixteen stores, store `k` putting a block `P k` into head `k`'s columns, reads back at column
    `e` of row `q` as `P (e / 64)` at `(q, e % 64)`: by induction over the stores, never by listing them. -/
theorem canon_heads [∀ e, Nonempty (Val e)] (P : Fin k1_t1_loop.trips → S512x64.Idx → Val .bf16)
    (pb : ℕ → List (View.Piece Val S512x1024 .bf16)) (h0 : pb 0 = [])
    (hs : ∀ k : Fin k1_t1_loop.trips, pb (k.val + 1) = [(⟨rectS k, P k⟩ : View.Piece Val S512x1024 .bf16)] ++ pb k.val)
    (y : S512x1024.Idx) : View.canon (pb 16) y = P (headIx y) (inIx y) := by
  have key : ∀ (k : Fin k1_t1_loop.trips) (x : (rectS k).shape.Idx),
      P k x = P (headIx ((rectS k).emb x)) (inIx ((rectS k).emb x)) := fun k x => by
    have hx1 : (x 1 : ℕ) < 64 := (x 1).isLt
    have hk : headIx ((rectS k).emb x) = k := Fin.ext (by
      show ((rectS k).emb x 1 : ℕ) / 64 = k.val
      rw [rectS_emb1]; omega)
    have hx : inIx ((rectS k).emb x) = x := funext fun a => Fin.ext (by
      match a with
      | ⟨0, _⟩ => exact rectS_emb0 k x
      | ⟨1, _⟩ =>
        show ((rectS k).emb x 1 : ℕ) % 64 = (x 1 : ℕ)
        rw [rectS_emb1]; omega)
    rw [hk, hx]
  have pieces : ∀ n, n ≤ 16 → ∀ p ∈ pb n, ∀ x : p.1.shape.Idx, p.2 x = P (headIx (p.1.emb x)) (inIx (p.1.emb x)) := by
    intro n
    induction n with
    | zero => intro _ p hp; rw [h0] at hp; exact absurd hp List.not_mem_nil
    | succ n ih =>
      intro hn p hp x
      obtain ⟨kn, rfl⟩ : ∃ kn : Fin k1_t1_loop.trips, kn.val = n := ⟨⟨n, by rw [trips_eq]; omega⟩, rfl⟩
      rw [hs kn] at hp
      rcases List.mem_append.mp hp with h | h
      · obtain rfl := List.mem_singleton.mp h
        exact key _ x
      · exact ih (by omega) p h x
  exact View.canon_apply_of_pieces (fun y => P (headIx y) (inIx y)) (pb 16) (pieces 16 le_rfl) y (cover_heads P pb hs y)

end Heads

/-- So the scratch after the sixteen trips reads, at column `e` of row `q`, head `e / 64`'s payload at `(q, e % 64)`. -/
theorem canon_pb (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole) (X_arg2 : BufTy.Contents (Elt F) arg2.view.ty) (X_arg3 : BufTy.Contents (Elt F) arg3.view.ty) (X_arg4 : BufTy.Contents (Elt F) arg4.view.ty) (y : S512x1024.Idx) :
    View.canon (pb_k1_t1 (F := F) 𝒱 c bd i arg2 harg2 arg3 harg3 arg4 harg4 arg5 harg5 arg6 harg6 arg7 harg7 arg8 harg8 X_arg2 X_arg3 X_arg4 16) y
      = k1_pay1 (arg2.view.readAt (Elt F) (rectQ (headIx y)).toLoadRect X_arg2)
          (arg3.view.readAt (Elt F) (rectK (headIx y)).toLoadRect X_arg3)
          (arg4.view.readAt (Elt F) (rectK (headIx y)).toLoadRect X_arg4) (inIx y) :=
  canon_heads (Val := Elt F) (fun k => k1_pay1 (arg2.view.readAt (Elt F) (rectQ k).toLoadRect X_arg2)
      (arg3.view.readAt (Elt F) (rectK k).toLoadRect X_arg3) (arg4.view.readAt (Elt F) (rectK k).toLoadRect X_arg4))
    (pb_k1_t1 (F := F) 𝒱 c bd i arg2 harg2 arg3 harg3 arg4 harg4 arg5 harg5 arg6 harg6 arg7 harg7 arg8 harg8 X_arg2 X_arg3 X_arg4) rfl
    (fun k => (pb_k1_t1_succ (F := F) 𝒱 c bd i arg2 harg2 arg3 harg3 arg4 harg4 arg5 harg5 arg6 harg6 arg7 harg7 arg8 harg8 X_arg2 X_arg3 X_arg4 k).trans (congrArg (· ++ _) (tripL_eq 𝒱 c bd i arg2 harg2 arg3 harg3 arg4 harg4 arg5 harg5 arg6 harg6 arg7 harg7 arg8 harg8 X_arg2 X_arg3 X_arg4 k))) y

/-- The sixteen trips' pieces cover the scratch, -/
theorem cover_pb (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole) (X_arg2 : BufTy.Contents (Elt F) arg2.view.ty) (X_arg3 : BufTy.Contents (Elt F) arg3.view.ty) (X_arg4 : BufTy.Contents (Elt F) arg4.view.ty) (y : S512x1024.Idx) :
    ∃ p ∈ pb_k1_t1 (F := F) 𝒱 c bd i arg2 harg2 arg3 harg3 arg4 harg4 arg5 harg5 arg6 harg6 arg7 harg7 arg8 harg8 X_arg2 X_arg3 X_arg4 16, y ∈ p.1.set :=
  cover_heads (Val := Elt F) (fun k => k1_pay1 (arg2.view.readAt (Elt F) (rectQ k).toLoadRect X_arg2)
      (arg3.view.readAt (Elt F) (rectK k).toLoadRect X_arg3) (arg4.view.readAt (Elt F) (rectK k).toLoadRect X_arg4))
    (pb_k1_t1 (F := F) 𝒱 c bd i arg2 harg2 arg3 harg3 arg4 harg4 arg5 harg5 arg6 harg6 arg7 harg7 arg8 harg8 X_arg2 X_arg3 X_arg4)
    (fun k => (pb_k1_t1_succ (F := F) 𝒱 c bd i arg2 harg2 arg3 harg3 arg4 harg4 arg5 harg5 arg6 harg6 arg7 harg7 arg8 harg8 X_arg2 X_arg3 X_arg4 k).trans (congrArg (· ++ _) (tripL_eq 𝒱 c bd i arg2 harg2 arg3 harg3 arg4 harg4 arg5 harg5 arg6 harg6 arg7 harg7 arg8 harg8 X_arg2 X_arg3 X_arg4 k))) y
/-- the same with the number of trips written as the loop's. -/
theorem cover_pb_trips (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole) (X_arg2 : BufTy.Contents (Elt F) arg2.view.ty) (X_arg3 : BufTy.Contents (Elt F) arg3.view.ty) (X_arg4 : BufTy.Contents (Elt F) arg4.view.ty) (y : S512x1024.Idx) :
    ∃ p ∈ pb_k1_t1 (F := F) 𝒱 c bd i arg2 harg2 arg3 harg3 arg4 harg4 arg5 harg5 arg6 harg6 arg7 harg7 arg8 harg8 X_arg2 X_arg3 X_arg4 k1_t1_loop.trips, y ∈ p.1.set := by
  rw [trips_eq]; exact cover_pb 𝒱 c bd i arg2 harg2 arg3 harg3 arg4 harg4 arg5 harg5 arg6 harg6 arg7 harg7 arg8 harg8 X_arg2 X_arg3 X_arg4 y

end Cert.Kernel.Hand

end
-- ==== Proof.BitsAttnCall.lean ====
/-
  The attention call's proof data and its body obligation, at any float instance.

  After the body at grid point `t` every input window's buffer holds its block still, and the result's buffer holds
  what the symbolic run's pieces leave (`outAt1`): ONE whole-tile store, which covers the buffer. The invariant between
  points is every scoped buffer at some contents and the generator register at some state; the body borrows the
  scratch from it and gives it back at other contents.
-/
import proofs.«110624_j36009005809779_2_alg».proof.Proof.BitsAttnRun
import proofs.«110624_j36009005809779_2_alg».proof.Proof.BitsAttnValue1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The run's pieces for the result's buffer fill it. -/
theorem cover1_5 (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .f32) (x4 : Vec F S1x1024 .f32) (fs : BufTy.Contents (Elt F) arg8.view.ty) (y : S1x512x1024.Idx) :
    ∃ pc ∈ (kernelRun1 c i arg2 harg2 arg3 harg3 arg4 harg4 arg5 harg5 arg6 harg6 arg7 harg7 arg8 harg8 x0 x1 x2 x3 x4 fs).1, y ∈ pc.1.set :=
  View.cover_of_tiledL (kernelRun1 c i arg2 harg2 arg3 harg3 arg4 harg4 arg5 harg5 arg6 harg6 arg7 harg7 arg8 harg8 x0 x1 x2 x3 x4 fs).1 S1x512x1024.size (by sl_kernel_rfl) y

/-- What the run leaves in the result's staging buffer: its pieces read back over junk. -/
def out1_5 (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .f32) (x4 : Vec F S1x1024 .f32) (fs : BufTy.Contents (Elt F) arg8.view.ty) : Vec F S1x512x1024 .f32 :=
  VO1_5.read (Elt F) (VO1_5.writes (Elt F) VO1_5.junk (kernelRun1 c i arg2 harg2 arg3 harg3 arg4 harg4 arg5 harg5 arg6 harg6 arg7 harg7 arg8 harg8 x0 x1 x2 x3 x4 fs).1)

/-- A load of a buffer after writes that cover it does not depend on what the buffer held before. -/
theorem readAt_writes_indep {sig' : RefSig} {κ' : Kind} {sp' : Space} {s : Shape} {e : EltTy} (v : View sig' κ' sp' s e) (B : LoadRect s)
    (f f' : v.ty.Contents (Elt F)) (Lp : List (View.Piece (Elt F) s e)) (h : ∀ y, ∃ p ∈ Lp, y ∈ p.1.set) :
    v.readAt (Elt F) B (v.writes (Elt F) f Lp) = v.readAt (Elt F) B (v.writes (Elt F) f' Lp) :=
  funext fun j => by
    rw [View.readAt_apply, View.readAt_apply, View.read_writes_apply_eq_canon v f _ Lp (h _), View.read_writes_apply_eq_canon v f' _ Lp (h _)]

/-- The run's pieces do not depend on what the scratch held before the body: the sixteen heads' blocks tile it, so the
    whole load after the loop reads only what the trips stored. -/
theorem run1_indep (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .f32) (x4 : Vec F S1x1024 .f32) (fs fs' : BufTy.Contents (Elt F) arg8.view.ty) :
    (kernelRun1 c i arg2 harg2 arg3 harg3 arg4 harg4 arg5 harg5 arg6 harg6 arg7 harg7 arg8 harg8 x0 x1 x2 x3 x4 fs).1 = (kernelRun1 c i arg2 harg2 arg3 harg3 arg4 harg4 arg5 harg5 arg6 harg6 arg7 harg7 arg8 harg8 x0 x1 x2 x3 x4 fs').1 := by
  have hcov : ∀ y, ∃ p ∈ pb_k1_t1 (F := F) Variants.none c none i arg2 harg2 arg3 harg3 arg4 harg4 arg5 harg5 arg6 harg6 arg7 harg7 arg8 harg8 (harg2.unread x0) (harg3.unread x1) (harg4.unread x2) (Scf.trips k1_t1_loop.lb k1_t1_loop.ub k1_t1_loop.st), y ∈ p.1.set :=
    fun y => cover_pb_trips Variants.none c none i arg2 harg2 arg3 harg3 arg4 harg4 arg5 harg5 arg6 harg6 arg7 harg7 arg8 harg8 (harg2.unread x0) (harg3.unread x1) (harg4.unread x2) y
  unfold kernelRun1
  dsimp only
  unfold kernelRun1.sl.v1
  rw [readAt_writes_indep arg8.view _ fs fs' _ hcov]

/-- Nor does what they leave in the result's buffer. -/
theorem out1_5_indep (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .f32) (x4 : Vec F S1x1024 .f32) (fs fs' : BufTy.Contents (Elt F) arg8.view.ty) :
    out1_5 c i arg2 harg2 arg3 harg3 arg4 harg4 arg5 harg5 arg6 harg6 arg7 harg7 arg8 harg8 x0 x1 x2 x3 x4 fs = out1_5 c i arg2 harg2 arg3 harg3 arg4 harg4 arg5 harg5 arg6 harg6 arg7 harg7 arg8 harg8 x0 x1 x2 x3 x4 fs' := by
  unfold out1_5; rw [run1_indep c i arg2 harg2 arg3 harg3 arg4 harg4 arg5 harg5 arg6 harg6 arg7 harg7 arg8 harg8 x0 x1 x2 x3 x4 fs fs']

/-- What the result's staging buffer holds after the body at point `t`: the run's contents at the point's buffers and
    input blocks. -/
def outAt1 (c : Dev nD) (t : Fin cfg1.N) : Vec F S1x512x1024 .f32 :=
  out1_5 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (Memref.whole cc1_scratch0) (Memref.isWhole_whole _) (iblk1 V c 0 t) (iblk1 V c 1 t) (iblk1 V c 2 t) (iblk1 V c 3 t) (iblk1 V c 4 t) scM1.view.junk

/-- The proof data of the attention call on core `c`: the arrays as the call finds them; after the body at point `t`
    each input's buffer at its block, the result's at `outAt1`; the plain invariant; nothing owed; the projected array
    held by its three windows at three shares that make up the whole, every other array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' buffers hold their blocks, the invariant lends the scratch, so the run applies;
    the result's buffer ends at the run's pieces read back, which cover it; the scratch goes back at what it now holds. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outAt1
  rw [show (dat1 V c).Φ t.castSucc = Pipeline.ΦA spec1 c from rfl, PhiA1_eq]
  unfold owns
  iintro ⟨⟨⟨Hr0, Hr1, Hr2, Hr3, Hr4, ⟨%ds, %fs, -, HS⟩⟩, Hg⟩, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ _ _ (iblk1 V c 0 t) (iblk1 V c 1 t) (iblk1 V c 2 t) (iblk1 V c 3 t) (iblk1 V c 4 t) fs).2 Set.univ _)
  unfold owns
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, ⟨%es, HS⟩⟩
  isplitl [Hr0 Hr1 Hr2 Hr3 Hr4 HS Hg]
  · isplitr [Hg]
    · isplitl [Hr0]; · iexact Hr0
      isplitl [Hr1]; · iexact Hr1
      isplitl [Hr2]; · iexact Hr2
      isplitl [Hr3]; · iexact Hr3
      isplitl [Hr4]; · iexact Hr4
      iexists _, _; isplitr
      swap; · iexact HS
      ipureintro; rfl
    · iexact Hg
  isplitl [Ho]; · iexact Ho
  isplitl [H0]; · iexact H0
  isplitl [H1]; · iexact H1
  isplitl [H2]; · iexact H2
  isplitl [H3]; · iexact H3
  isplitl [H4]; · iexact H4
  iexists _; isplitr
  swap; · iexact H5
  ipureintro
  exact (View.read_writes_of_cover _ _ _ _ _ (cover1_5 c _ _ _ _ _ _ _ _ _ _ _ _ _ _ _ _ _ _ _ _ fs)).trans
    (out1_5_indep c _ _ _ _ _ _ _ _ _ _ _ _ _ _ _ _ _ _ _ _ fs _)

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsChain.lean ====
/-
  What the core's unscoped buffers hold at each boundary between the items of the main function, at any float instance:
  at launch (`W0`), after the reshape of the input and the stacking of the three weights (`W1`), after the projection
  call (`W2`: the projected array at what the call's write-backs leave, everything else as before), after the two
  reshapes (`W3`), and after the attention call (`W4`: the result at what that call's write-backs leave). No item
  writes an argument array, so each argument is found at the end as it was launched.
-/
import proofs.«110624_j36009005809779_2_alg».proof.Proof.BitsProjCall
import proofs.«110624_j36009005809779_2_alg».proof.Proof.BitsAttnCall
import proofs.«110624_j36009005809779_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first two host operations (the projection call's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the projection call's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the two reshapes (the attention call's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the attention call's exit: the result at what the pipeline leaves, every other buffer as entered (the call's
    other arrays are inputs, which it leaves as it found them). -/
def W4 (c : Dev nD) : Valuation τ sig (Elt F) :=
  Function.update (W3 m c) (Proc.devRef .tc main_v5) ((dat1 (U3 m) c).arrAt 5 cfg1.N)
theorem W4_v5 (c : Dev nD) : W4 m c (Proc.devRef .tc main_v5) = (dat1 (U3 m) c).arrAt 5 cfg1.N := by
  unfold W4; exact Function.update_self _ _ _
theorem W4_of_ne (c : Dev nD) (b : Ref sig .tc) (hb : b ≠ main_v5) :
    W4 m c (Proc.devRef .tc b) = W3 m c (Proc.devRef .tc b) := by
  unfold W4; exact Function.update_of_ne (StableHlo.devRef_ne_of_ne hb) _ _
abbrev U4 : (c : Dev nD) → (b : Ref sig .tc) → Buf (Elt F) ((c : Thread nD τ).loc b) := fun c b => W4 m c b

theorem W3_of (c : Dev nD) (r : Ref sig .tc) (h : r ∉ hostOps1_W) : W3 m c (Proc.devRef .tc r) = W2 m c (Proc.devRef .tc r) :=
  StableHlo.after_of_writes_sub hostOps1 _ hostOps1_writes h
theorem W1_of (c : Dev nD) (r : Ref sig .tc) (h : r ∉ hostOps0_W) : W1 m c (Proc.devRef .tc r) = W0 m c (Proc.devRef .tc r) :=
  StableHlo.after_of_writes_sub hostOps0 _ hostOps0_writes h

/-- An argument array is found at the end as launched. -/
theorem W4_arg (c : Dev nD) (r : Ref sig .tc) (h5 : r ≠ main_v5) (h1 : r ∉ hostOps1_W) (h2 : ∀ w, Pipeline.arrRef spec0 w ≠ r) (h0 : r ∉ hostOps0_W) :
    W4 m c (Proc.devRef .tc r) = m ((c : Thread nD τ).loc r) :=
  (W4_of_ne m c r h5).trans <| (W3_of m c r h1).trans <| (W2_of_ne m c r h2).trans <| (W1_of m c r h0).trans rfl

end Cert.Kernel.Hand

end
-- ==== Proof.BitsMainRun.lean ====
/-
  The main function's run, at any float instance: its four items — two host stretches and the two calls — as the
  segments of one run, from the launch to the return.

  Between two items a core holds every unscoped buffer whole at the boundary's contents (`W0 … W4`) beside its generator
  register and its dues, of which it has none. Each call takes its arrays out of the unscoped buffers at entry and puts
  them back at exit at what its write-backs leave. The projection call's three arrays are distinct buffers. The
  attention call reads the ONE projected array through three windows: at entry the array's full share is split in three
  among them, and at exit — the three windows having left it as they found it — joined again.
  Every weakly fair execution then terminates without a fault, and the final memory holds every unscoped buffer at `W4`.
-/
import proofs.«110624_j36009005809779_2_alg».proof.Proof.BitsChain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No call has a prefetched table. -/
abbrev admH : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W4`, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- The projection call over the thread state: entered from every unscoped buffer at `W1`, left at `W2`. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention call: one array behind three windows -/

/-- The distinct buffers behind the attention call's six windows, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v3) ↦{fullShare} V main_v3) ∗ (((c : Thread nD τ).loc main_arg4) ↦{fullShare} V main_arg4) ∗ (((c : Thread nD τ).loc main_v4) ↦{fullShare} V main_v4) ∗ (((c : Thread nD τ).loc main_v5) ↦{fullShare} V main_v5)) := by
  unfold Pipeline.arrBufs
  exact bigSep_eq_bigSepL_of_eq [main_v3, main_arg4, main_v4, main_v5] (by decide) (by decide) _

/-- The call's arrays at contents `G`, window by window: the projected array three times, at the three shares. -/
theorem arrays1_eq (c : Dev nD) (G : (w : Fin cfg1.W) → Buf (Elt F) ((cfg1.win w).arr.view.loc (c : Thread nD τ))) :
    ((dat1 (U3 m) c).arrays G : sProp 𝕄)
      = iprop((((c : Thread nD τ).loc main_v3) ↦{fullShare.left} G 0) ∗ (((c : Thread nD τ).loc main_v3) ↦{fullShare.right.left} G 1) ∗ (((c : Thread nD τ).loc main_v3) ↦{fullShare.right.right} G 2) ∗ (((c : Thread nD τ).loc main_arg4) ↦{fullShare} G 3) ∗ (((c : Thread nD τ).loc main_v4) ↦{fullShare} G 4) ∗ (((c : Thread nD τ).loc main_v5) ↦{fullShare} G 5)) := by
  unfold Dat.arrays
  rw [bigSep_W1]
  simp only [(arr_whole1 0).set_eq_univ, (arr_whole1 1).set_eq_univ, (arr_whole1 2).set_eq_univ, (arr_whole1 3).set_eq_univ, (arr_whole1 4).set_eq_univ, (arr_whole1 5).set_eq_univ]
  rfl

/-- At the attention call's exit, an input window's array is as the call found it. -/
theorem arrAt1_in (c : Dev nD) (w : Fin cfg1.W) (hw : (cfg1.win w).isOut = false) (n : ℕ) :
    (dat1 (U3 m) c).arrAt w n = U3 m c (Pipeline.arrRef spec1 w) :=
  ((dat1 (U3 m) c).arrAt_in w hw n).trans (A_eq1 (U3 m) c w)

/-- The unscoped buffers at the attention call's exit contents, from the four buffers behind its windows — the result
    at what the write-backs leave, the three others as found — and the buffers it does not touch. -/
theorem held_W4 (c : Dev nD) :
    (iprop(((((c : Thread nD τ).loc main_v3) ↦{fullShare} U3 m c main_v3) ∗ (((c : Thread nD τ).loc main_arg4) ↦{fullShare} U3 m c main_arg4) ∗ (((c : Thread nD τ).loc main_v4) ↦{fullShare} U3 m c main_v4) ∗ (((c : Thread nD τ).loc main_v5) ↦{fullShare} (dat1 (U3 m) c).arrAt 5 cfg1.N))
        ∗ Pipeline.unscopedRest (Ix := Unit) (Name := ℕ) (U := UR sig nD τ) (Lvl := ℕ) spec1 c (U3 m c)) : sProp 𝕄)
      ⊢ StableHlo.held (c : Thread nD τ) (Pipeline.ucRefs τ sig) (W4 m c) := by
  rw [← Pipeline.unscopedBufs_held c (W4 m c),
    Pipeline.unscopedBufs_split₀ (Ix := Unit) (Name := ℕ) (U := UR sig nD τ) (Lvl := ℕ) cfgs 1 winFacts₀1.arr_unscoped c (U4 m c)]
  show _ ⊢ iprop((Pipeline.arrBufs (Ix := Unit) (Name := ℕ) (U := UR sig nD τ) (Lvl := ℕ) spec1 c (U4 m c) : sProp 𝕄)
    ∗ Pipeline.unscopedRest (Ix := Unit) (Name := ℕ) (U := UR sig nD τ) (Lvl := ℕ) spec1 c (U4 m c))
  rw [arrBufs1_eq, unscopedRest1_eq, unscopedRest1_eq]
  simp only [W4_of_ne m c main_v3 (by decide), W4_of_ne m c main_arg4 (by decide), W4_of_ne m c main_v4 (by decide), W4_v5,
    W4_of_ne m c main_arg0 (by decide), W4_of_ne m c main_arg1 (by decide), W4_of_ne m c main_arg2 (by decide), W4_of_ne m c main_arg3 (by decide),
    W4_of_ne m c main_arg5 (by decide), W4_of_ne m c main_v0 (by decide), W4_of_ne m c main_v1 (by decide), W4_of_ne m c main_v2 (by decide)]
  exact .rfl

set_option backward.isDefEq.respectTransparency.types false in
/-- The attention call over the thread state: entered from every unscoped buffer at `W3`, left at `W4`. -/
def reg1 : Pipeline.RegionSeg (pcfgs (F := F)) admH (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hub : (StableHlo.held (c : Thread nD τ) (Pipeline.ucRefs τ sig) (W3 m c) : sProp 𝕄)
        = iprop((Pipeline.arrBufs (Ix := Unit) (Name := ℕ) (U := UR sig nD τ) (Lvl := ℕ) spec1 c (U3 m c) : sProp 𝕄)
          ∗ Pipeline.unscopedRest (Ix := Unit) (Name := ℕ) (U := UR sig nD τ) (Lvl := ℕ) spec1 c (U3 m c)) := by
      rw [← Pipeline.unscopedBufs_held c (W3 m c)]
      exact Pipeline.unscopedBufs_split₀ (Ix := Unit) (Name := ℕ) (U := UR sig nD τ) (Lvl := ℕ) cfgs 1 winFacts₀1.arr_unscoped c (U3 m c)
    rw [arrBufs1_eq] at hub
    rw [show ((pdats m 1 c).arrays ((pdats m 1 c).arrAt · 0) : sProp 𝕄) = (dat1 (U3 m) c).arrays (fun w => (dat1 (U3 m) c).arrAt w 0) from rfl, arrays1_eq]
    iintro ⟨⟨Hub, Hp, HO⟩, -, -⟩
    ihave H := (Entails.of_eq hub) $$ Hub
    icases H with ⟨⟨H3, H4a, H4v, H5⟩, Hrest⟩
    ihave H3s := (pointsTo_share (PosShare.mem_left_op_right fullShare)).1 $$ H3
    icases H3s with ⟨H3a, H3r⟩
    ihave H3t := (pointsTo_share (PosShare.mem_left_op_right fullShare.right)).1 $$ H3r
    icases H3t with ⟨H3b, H3c⟩
    imodintro
    isplitl [H3a H3b H3c H4a H4v H5]
    · isplitl [H3a]; · iexact H3a
      isplitl [H3b]; · iexact H3b
      isplitl [H3c]; · iexact H3c
      isplitl [H4a]; · iexact H4a
      isplitl [H4v]; · iexact H4v
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [show ((pdats m 1 c).arrays ((pdats m 1 c).arrAt · (Pipeline.pin (pcfgs (F := F)) admH 1).N) : sProp 𝕄) = (dat1 (U3 m) c).arrays (fun w => (dat1 (U3 m) c).arrAt w cfg1.N) from rfl, arrays1_eq,
      arrAt1_in m c 0 rfl, arrAt1_in m c 1 rfl, arrAt1_in m c 2 rfl, arrAt1_in m c 3 rfl, arrAt1_in m c 4 rfl]
    iintro ⟨⟨H3a, H3b, H3c, H4a, H4v, H5⟩, HO, HY, Hrest⟩
    ihave H3r := (pointsTo_share (PosShare.mem_left_op_right fullShare.right)).2 $$ [H3b H3c]
    · isplitl [H3b]; · iexact H3b
      iexact H3c
    ihave H3 := (pointsTo_share (PosShare.mem_left_op_right fullShare)).2 $$ [H3a H3r]
    · isplitl [H3a]; · iexact H3a
      iexact H3r
    imodintro
    isplitr [HO]
    · isplitr [HY]
      · iapply (held_W4 m c)
        isplitr [Hrest]
        · isplitl [H3]; · iexact H3
          isplitl [H4a]; · iexact H4a
          isplitl [H4v]; · iexact H4v
          iexact H5
        · iexact Hrest
      · iexact HY
    unfold Pipeline.Dat.owesAt Pipeline.owesWithin
    icases HO with ⟨%W, -, HO⟩; iexists W; iexact HO

/-! ## The main function as segments, and the launch -/

/-- The four segments in order. -/
abbrev segsH : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- The main function IS the run of the segments. -/
theorem main_run (c : Dev nD) : main (F := F) c = Pipeline.Seg.run (segsH m) := (main_chain c).trans (by chain_rfl)

set_option backward.isDefEq.respectTransparency.types false in
/-- From any memory with zero counters, every weakly fair execution of the main function on the TensorCores terminates,
    nothing faulting, and the final memory holds every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide)),
     (h c _ (mem_uc main_arg5 (by decide))).trans (W4_arg m c main_arg5 (by decide) (by decide) (by decide) (by decide))⟩)
    (run_all m ρ)

end Cert.Kernel.Hand

end
-- ==== Proof.ProjCall.lean ====
/-
  The projection call, one grid point at a time, at any float instance.

  The call runs over 8 grid points. At point `t` it is handed rows `1024 t … 1024 t + 1023` of the flattened input
  (window 0), the whole stacked weight `[Wq; Wk; Wv]` (window 1, fetched once and left in place) and a staging buffer
  for rows `1024 t …` of the result (window 2). The body loads both inputs whole, multiplies, and stores the product
  whole: the result's buffer after the body is ONE function `out0_2` of the two input blocks. The proof data below
  say so (`dat0`), at a PARAMETER `V` — what the core's buffers hold when the call is entered —, and the body's
  triple discharges the pipeline rule's obligation at every point.
-/
import proofs.«110624_j36009005809779_2_alg».proof.Proof.Gen.KernelIdeal.Launch
import proofs.«110624_j36009005809779_2_alg».proof.Proof.Gen.KernelIdeal.Skeleton
import proofs.«110624_j36009005809779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: the rows window moves at
    every point; the weight window's block index never moves, so the block fetched at the first point is every point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body loads and stores through. -/
abbrev r0_0 : Rect S1024x1024 := Rect.unit (s := S1024x1024) ![0, 0] S1024x1024.size inb_S1024x1024_S1024x1024_0_0
abbrev r0_1 : Rect S3072x1024 := Rect.unit (s := S3072x1024) ![0, 0] S3072x1024.size inb_S3072x1024_S3072x1024_0_0
abbrev r0_2 : Rect S1024x3072 := Rect.unit (s := S1024x3072) ![0, 0] S1024x3072.size inb_S1024x3072_S1024x3072_0_0

/-- The result's buffer after the body: the product of the two blocks, stored whole. -/
def out0_2 (x0 : Vec F S1024x1024 .f32) (x1 : Vec F S3072x1024 .f32) : Vec F S1024x3072 .bf16 :=
  View.canon [⟨r0_2, k0_pay1 (View.ld x0 r0_0) (View.ld x1 r0_1)⟩]

/-- The one store fills the buffer. -/
theorem cover0_2 (p0 : Vec F S1024x3072 .bf16) (y : S1024x3072.Idx) :
    ∃ pc ∈ ([⟨r0_2, p0⟩] : List (View.Piece (Elt F) S1024x3072 .bf16)), y ∈ pc.1.set :=
  View.cover_of_tiledL [⟨r0_2, p0⟩] S1024x3072.size (by sl_kernel_rfl) y

set_option maxHeartbeats 1000000 in
/-- The body on whole staging buffers, the inputs' at contents `x0`, `x1` and the result's at anything, runs to the
    continuation with the inputs' as they were and the result's at `out0_2 x0 x1`. -/
theorem sound_kernel0 (c : Dev nD) (E : Set ℕ) (i : grid0.Coords) (arg1 : Memref sig .tc .vmem S1024x1024 .f32) (harg1 : arg1.IsWhole) (arg2 : Memref sig .tc .vmem S3072x1024 .f32) (harg2 : arg2.IsWhole) (arg3 : Memref sig .tc .vmem S1024x3072 .bf16) (harg3 : arg3.IsWhole)
    (x0 : Vec F S1024x1024 .f32) (x1 : Vec F S3072x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_linear_kernel i arg1 harg1 arg2 harg2 arg3 harg3) K := by
  simp only [cc0__qkv_linear_kernel_eq_skeleton]; unfold cc0__qkv_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection call on core `c`: the arrays as the call finds them; after the body at point `t`
    each input's buffer at its block, the result's at the product of the blocks; the scoped buffers and the generator
    register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnRun.lean ====
/-
  The attention call, one grid point at a time, at any float instance.

  The call runs over a 4 × 4 grid: batch `b` and query tile `qi`. At a point it is handed, all out of the ONE
  projected array `[4, 2048, 3072]`, the query tile (rows `512 qi …` of batch `b`, columns `0 … 1023`: window 0),
  the batch's keys (columns `1024 … 2047`: window 1) and values (columns `2048 … 3071`: window 2); the output weight
  (window 3) and the bias row (window 4), both fetched once and left in place; and a staging buffer for the tile of the
  result (window 5). The body loops over the 16 heads — each trip loads the head's 64 columns of the three blocks and
  stores the head's context into its 64 columns of a scratch buffer — and then reads the scratch whole, multiplies by
  the output weight, adds the bias and stores the tile whole. The 16 trips fill the scratch before it is read, so the
  scratch carries nothing from one grid point to the next and the invariant between points is the plain one: every
  scoped buffer at some contents. What the stores leave is found by running the body once, symbolically
  (`kernelRun1`); the proof data name it (`dat1`), at a PARAMETER `V` — what the core's buffers hold when the call is
  entered. The three windows on the projected array hold it at three shares that make up the whole.
-/
import proofs.«110624_j36009005809779_2_alg».proof.Proof.Gen.KernelIdeal.Launch
import proofs.«110624_j36009005809779_2_alg».proof.Proof.Gen.KernelIdeal.Skeleton
import proofs.«110624_j36009005809779_2_alg».proof.Proof.Gen.KernelIdeal.Loops
import proofs.«110624_j36009005809779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not fetched its
    block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The scratch buffer the heads' contexts are gathered in. -/
abbrev scM1 : Memref sig .tc .vmem S512x1024 .bf16 := Memref.whole cc1_scratch0
/-- One staging buffer of the result window, through which its contents are stated (the choice does not matter). -/
abbrev VO1_5 : View sig .tc .vmem S1x512x1024 .f32 := (Memref.whole cc1_stg5_0 : Memref sig .tc .vmem S1x512x1024 .f32).view

/-- The invariant between points, with the scratch as a buffer owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

set_option maxHeartbeats 4000000 in
/-- What the body's stores leave in the result's staging buffer, as pieces (last first), WITH the proof that on whole
    buffers — the five inputs' at their contents, the result's at anything, the scratch at contents `fs` — the body
    runs to the continuation holding the inputs' as they were, the result's buffer with its pieces written and the
    scratch at some contents. The pieces are what the symbolic run finds: the loop by its invariant over a symbolic
    trip, never unrolled. They mention `fs` in writing only: the 16 trips overwrite all of the scratch before it is read. -/
noncomputable def kernelRun1 (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .f32) (x4 : Vec F S1x1024 .f32) (fs : BufTy.Contents (Elt F) arg8.view.ty) :
    { L5 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (arg8.view.loc (c : Thread nD τ) ↦[arg8.view.set]{fullShare} fs)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} f)) -∗ K ⟨⟩))
          ⊢ wp frame (wpE (defs₀ (F := F)) Variants.none c none) E (cc1__attn_outproj_kernel i arg2 harg2 arg3 harg3 arg4 harg4 arg5 harg5 arg6 harg6 arg7 harg7 arg8 harg8) K } := by
  refine ⟨?_, fun E K => ?run⟩
  case run =>
    simp only [cc1__attn_outproj_kernel_eq_skeleton]; unfold cc1__attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HS, Hk⟩
    obtain rfl := harg2.eq_unread hf0; obtain rfl := harg3.eq_unread hf1; obtain rfl := harg4.eq_unread hf2; obtain rfl := harg5.eq_unread hf3; obtain rfl := harg6.eq_unread hf4
    clear hf0 hf1 hf2 hf3 hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS

end Cert.KernelIdeal.Hand

end
-- ==== Proof.AttnValue1.lean ====
/-
  The scratch buffer after the loop over the heads, read back as one function.

  Each of the sixteen trips stores ONE block: head `k`'s payload — of the 64 columns `64 k …` of the query tile, of the
  keys and of the values — into the 64 columns `64 k …` of the scratch. The sixteen column blocks tile the scratch, so
  after the loop it reads, at row `q` and column `e`, head `e / 64`'s payload at `(q, e % 64)`: by induction over the
  trips and the reading of a buffer written by blocks of one function, never by listing the sixteen stores.
-/
import proofs.«110624_j36009005809779_2_alg».proof.Proof.Gen.KernelIdeal.Launch
import proofs.«110624_j36009005809779_2_alg».proof.Proof.Gen.KernelIdeal.Skeleton
import proofs.«110624_j36009005809779_2_alg».proof.Proof.Gen.KernelIdeal.Loops
import proofs.«110624_j36009005809779_2_alg».proof.Proof.Gen.KernelIdeal.Points
import Idealize.ShloMosaic.Lib.Pipeline.Value
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-- The loop over the heads makes sixteen trips. -/
theorem trips_eq : k1_t1_loop.trips = 16 := by decide +kernel

/-- Head `k`'s 64 columns of the query tile, -/
abbrev rectQ (k : Fin k1_t1_loop.trips) : Rect S1x512x1024 :=
  Rect.unit (s := S1x512x1024) (k1_off1 k) S1x512x64.size (k1_off1_inb k)
/-- of a key or value block, -/
abbrev rectK (k : Fin k1_t1_loop.trips) : Rect S1x2048x1024 :=
  Rect.unit (s := S1x2048x1024) (k1_off2 k) S1x2048x64.size (k1_off2_inb k)
/-- and of the scratch. -/
abbrev rectS (k : Fin k1_t1_loop.trips) : Rect S512x1024 :=
  Rect.unit (s := S512x1024) (k1_off3 k) S512x64.size (k1_off3_inb k)

/-- ONE TRIP of the loop over the heads leaves one piece: head `k`'s payload of the three blocks' columns of head `k`,
    stored into head `k`'s columns of the scratch. -/
theorem tripL_eq (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole) (X_arg2 : BufTy.Contents (Elt F) arg2.view.ty) (X_arg3 : BufTy.Contents (Elt F) arg3.view.ty) (X_arg4 : BufTy.Contents (Elt F) arg4.view.ty) (k : Fin k1_t1_loop.trips) :
    tripL_k1_t1 (F := F) 𝒱 c bd i arg2 harg2 arg3 harg3 arg4 harg4 arg5 harg5 arg6 harg6 arg7 harg7 arg8 harg8 X_arg2 X_arg3 X_arg4 k
      = [(⟨rectS k, k1_pay1 (arg2.view.readAt (Elt F) (rectQ k).toLoadRect X_arg2)
            (arg3.view.readAt (Elt F) (rectK k).toLoadRect X_arg3)
            (arg4.view.readAt (Elt F) (rectK k).toLoadRect X_arg4)⟩ : View.Piece (Elt F) S512x1024 .bf16)] := by
  unfold tripL_k1_t1 trip_k1_t1
  rfl

/-! ## Sixteen column blocks read back as one function -/

/-- The head a scratch column belongs to (column `e` is in head `e / 64`), -/
def headIx (y : S512x1024.Idx) : Fin k1_t1_loop.trips :=
  ⟨(y 1).val / 64, by rw [trips_eq]; have := idx2_lt1 y; omega⟩
/-- and the index inside the head's block (row as it is, column `e % 64`). -/
def inIx (y : S512x1024.Idx) : S512x64.Idx :=
  ix2 (⟨(y 0).val, idx2_lt0 y⟩ : Fin 512) (⟨(y 1).val % 64, Nat.mod_lt _ (by decide)⟩ : Fin 64)

/-- Where an element of head `k`'s block sits in the scratch: same row, -/
theorem rectS_emb0 (k : Fin k1_t1_loop.trips) (x : (rectS k).shape.Idx) : ((rectS k).emb x 0 : ℕ) = (x 0 : ℕ) := by
  rw [Rect.emb_apply]
  show k1_off3 k 0 + 1 * (x 0 : ℕ) = _
  rw [k1_off3_eq]
  show 0 + 1 * (x 0 : ℕ) = _
  omega
/-- column `64 k` plus its own. -/
theorem rectS_emb1 (k : Fin k1_t1_loop.trips) (x : (rectS k).shape.Idx) : ((rectS k).emb x 1 : ℕ) = 64 * k.val + (x 1 : ℕ) := by
  rw [Rect.emb_apply]
  show k1_off3 k 1 + 1 * (x 1 : ℕ) = _
  rw [k1_off3_eq]
  show 64 * k.val + 1 * (x 1 : ℕ) = _
  omega

section Heads
variable {Val : EltTy → Type}

/-- Sixteen stores, store `k` putting a block `P k` into head `k`'s columns: store `k` is among the first `n` for `k < n`. -/
theorem mem_heads (P : Fin k1_t1_loop.trips → S512x64.Idx → Val .bf16)
    (pb : ℕ → List (View.Piece Val S512x1024 .bf16))
    (hs : ∀ k : Fin k1_t1_loop.trips, pb (k.val + 1) = [(⟨rectS k, P k⟩ : View.Piece Val S512x1024 .bf16)] ++ pb k.val) :
    ∀ n, n ≤ 16 → ∀ k : Fin k1_t1_loop.trips, k.val < n →
      (⟨rectS k, P k⟩ : View.Piece Val S512x1024 .bf16) ∈ pb n := by
  intro n
  induction n with
  | zero => intro _ k hk; exact absurd hk (Nat.not_lt_zero _)
  | succ n ih =>
    intro hn k hk
    obtain ⟨kn, rfl⟩ : ∃ kn : Fin k1_t1_loop.trips, kn.val = n := ⟨⟨n, by rw [trips_eq]; omega⟩, rfl⟩
    rw [hs kn]
    by_cases hkn : k = kn
    · subst hkn
      exact List.mem_append_left _ (List.mem_singleton.mpr rfl)
    · have hne : k.val ≠ kn.val := fun h => hkn (Fin.ext h)
      exact List.mem_append_right _ (ih (by omega) k (by omega))

/-- The sixteen column blocks cover the buffer: column `e` is in head `e / 64`'s block. -/
theorem cover_heads (P : Fin k1_t1_loop.trips → S512x64.Idx → Val .bf16)
    (pb : ℕ → List (View.Piece Val S512x1024 .bf16))
    (hs : ∀ k : Fin k1_t1_loop.trips, pb (k.val + 1) = [(⟨rectS k, P k⟩ : View.Piece Val S512x1024 .bf16)] ++ pb k.val)
    (y : S512x1024.Idx) : ∃ p ∈ pb 16, y ∈ p.1.set := by
  refine ⟨⟨rectS (headIx y), P (headIx y)⟩,
    mem_heads P pb hs 16 le_rfl (headIx y) (by rw [← trips_eq]; exact (headIx y).isLt), ?_⟩
  rw [Rect.mem_set_unit]
  intro a
  have h0 : (y 0 : ℕ) < 512 := idx2_lt0 y
  have h1 : (y 1 : ℕ) < 1024 := idx2_lt1 y
  rw [k1_off3_eq]
  match a with
  | ⟨0, _⟩ => show 0 ≤ (y 0 : ℕ) ∧ (y 0 : ℕ) < 0 + 512; omega
  | ⟨1, _⟩ => show 64 * ((y 1 : ℕ) / 64) ≤ (y 1 : ℕ) ∧ (y 1 : ℕ) < 64 * ((y 1 : ℕ) / 64) + 64; omega

/-- A buffer written by sixteen stores, store `k` putting a block `P k` into head `k`'s columns, reads back at column
    `e` of row `q` as `P (e / 64)` at `(q, e % 64)`: by induction over the stores, never by listing them. -/
theorem canon_heads [∀ e, Nonempty (Val e)] (P : Fin k1_t1_loop.trips → S512x64.Idx → Val .bf16)
    (pb : ℕ → List (View.Piece Val S512x1024 .bf16)) (h0 : pb 0 = [])
    (hs : ∀ k : Fin k1_t1_loop.trips, pb (k.val + 1) = [(⟨rectS k, P k⟩ : View.Piece Val S512x1024 .bf16)] ++ pb k.val)
    (y : S512x1024.Idx) : View.canon (pb 16) y = P (headIx y) (inIx y) := by
  have key : ∀ (k : Fin k1_t1_loop.trips) (x : (rectS k).shape.Idx),
      P k x = P (headIx ((rectS k).emb x)) (inIx ((rectS k).emb x)) := fun k x => by
    have hx1 : (x 1 : ℕ) < 64 := (x 1).isLt
    have hk : headIx ((rectS k).emb x) = k := Fin.ext (by
      show ((rectS k).emb x 1 : ℕ) / 64 = k.val
      rw [rectS_emb1]; omega)
    have hx : inIx ((rectS k).emb x) = x := funext fun a => Fin.ext (by
      match a with
      | ⟨0, _⟩ => exact rectS_emb0 k x
      | ⟨1, _⟩ =>
        show ((rectS k).emb x 1 : ℕ) % 64 = (x 1 : ℕ)
        rw [rectS_emb1]; omega)
    rw [hk, hx]
  have pieces : ∀ n, n ≤ 16 → ∀ p ∈ pb n, ∀ x : p.1.shape.Idx, p.2 x = P (headIx (p.1.emb x)) (inIx (p.1.emb x)) := by
    intro n
    induction n with
    | zero => intro _ p hp; rw [h0] at hp; exact absurd hp List.not_mem_nil
    | succ n ih =>
      intro hn p hp x
      obtain ⟨kn, rfl⟩ : ∃ kn : Fin k1_t1_loop.trips, kn.val = n := ⟨⟨n, by rw [trips_eq]; omega⟩, rfl⟩
      rw [hs kn] at hp
      rcases List.mem_append.mp hp with h | h
      · obtain rfl := List.mem_singleton.mp h
        exact key _ x
      · exact ih (by omega) p h x
  exact View.canon_apply_of_pieces (fun y => P (headIx y) (inIx y)) (pb 16) (pieces 16 le_rfl) y (cover_heads P pb hs y)

end Heads

/-- So the scratch after the sixteen trips reads, at column `e` of row `q`, head `e / 64`'s payload at `(q, e % 64)`. -/
theorem canon_pb (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole) (X_arg2 : BufTy.Contents (Elt F) arg2.view.ty) (X_arg3 : BufTy.Contents (Elt F) arg3.view.ty) (X_arg4 : BufTy.Contents (Elt F) arg4.view.ty) (y : S512x1024.Idx) :
    View.canon (pb_k1_t1 (F := F) 𝒱 c bd i arg2 harg2 arg3 harg3 arg4 harg4 arg5 harg5 arg6 harg6 arg7 harg7 arg8 harg8 X_arg2 X_arg3 X_arg4 16) y
      = k1_pay1 (arg2.view.readAt (Elt F) (rectQ (headIx y)).toLoadRect X_arg2)
          (arg3.view.readAt (Elt F) (rectK (headIx y)).toLoadRect X_arg3)
          (arg4.view.readAt (Elt F) (rectK (headIx y)).toLoadRect X_arg4) (inIx y) :=
  canon_heads (Val := Elt F) (fun k => k1_pay1 (arg2.view.readAt (Elt F) (rectQ k).toLoadRect X_arg2)
      (arg3.view.readAt (Elt F) (rectK k).toLoadRect X_arg3) (arg4.view.readAt (Elt F) (rectK k).toLoadRect X_arg4))
    (pb_k1_t1 (F := F) 𝒱 c bd i arg2 harg2 arg3 harg3 arg4 harg4 arg5 harg5 arg6 harg6 arg7 harg7 arg8 harg8 X_arg2 X_arg3 X_arg4) rfl
    (fun k => (pb_k1_t1_succ (F := F) 𝒱 c bd i arg2 harg2 arg3 harg3 arg4 harg4 arg5 harg5 arg6 harg6 arg7 harg7 arg8 harg8 X_arg2 X_arg3 X_arg4 k).trans (congrArg (· ++ _) (tripL_eq 𝒱 c bd i arg2 harg2 arg3 harg3 arg4 harg4 arg5 harg5 arg6 harg6 arg7 harg7 arg8 harg8 X_arg2 X_arg3 X_arg4 k))) y

/-- The sixteen trips' pieces cover the scratch, -/
theorem cover_pb (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole) (X_arg2 : BufTy.Contents (Elt F) arg2.view.ty) (X_arg3 : BufTy.Contents (Elt F) arg3.view.ty) (X_arg4 : BufTy.Contents (Elt F) arg4.view.ty) (y : S512x1024.Idx) :
    ∃ p ∈ pb_k1_t1 (F := F) 𝒱 c bd i arg2 harg2 arg3 harg3 arg4 harg4 arg5 harg5 arg6 harg6 arg7 harg7 arg8 harg8 X_arg2 X_arg3 X_arg4 16, y ∈ p.1.set :=
  cover_heads (Val := Elt F) (fun k => k1_pay1 (arg2.view.readAt (Elt F) (rectQ k).toLoadRect X_arg2)
      (arg3.view.readAt (Elt F) (rectK k).toLoadRect X_arg3) (arg4.view.readAt (Elt F) (rectK k).toLoadRect X_arg4))
    (pb_k1_t1 (F := F) 𝒱 c bd i arg2 harg2 arg3 harg3 arg4 harg4 arg5 harg5 arg6 harg6 arg7 harg7 arg8 harg8 X_arg2 X_arg3 X_arg4)
    (fun k => (pb_k1_t1_succ (F := F) 𝒱 c bd i arg2 harg2 arg3 harg3 arg4 harg4 arg5 harg5 arg6 harg6 arg7 harg7 arg8 harg8 X_arg2 X_arg3 X_arg4 k).trans (congrArg (· ++ _) (tripL_eq 𝒱 c bd i arg2 harg2 arg3 harg3 arg4 harg4 arg5 harg5 arg6 harg6 arg7 harg7 arg8 harg8 X_arg2 X_arg3 X_arg4 k))) y
/-- the same with the number of trips written as the loop's. -/
theorem cover_pb_trips (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole) (X_arg2 : BufTy.Contents (Elt F) arg2.view.ty) (X_arg3 : BufTy.Contents (Elt F) arg3.view.ty) (X_arg4 : BufTy.Contents (Elt F) arg4.view.ty) (y : S512x1024.Idx) :
    ∃ p ∈ pb_k1_t1 (F := F) 𝒱 c bd i arg2 harg2 arg3 harg3 arg4 harg4 arg5 harg5 arg6 harg6 arg7 harg7 arg8 harg8 X_arg2 X_arg3 X_arg4 k1_t1_loop.trips, y ∈ p.1.set := by
  rw [trips_eq]; exact cover_pb 𝒱 c bd i arg2 harg2 arg3 harg3 arg4 harg4 arg5 harg5 arg6 harg6 arg7 harg7 arg8 harg8 X_arg2 X_arg3 X_arg4 y

end Cert.KernelIdeal.Hand

end
-- ==== Proof.AttnCall.lean ====
/-
  The attention call's proof data and its body obligation, at any float instance.

  After the body at grid point `t` every input window's buffer holds its block still, and the result's buffer holds
  what the symbolic run's pieces leave (`outAt1`): ONE whole-tile store, which covers the buffer. The invariant between
  points is every scoped buffer at some contents and the generator register at some state; the body borrows the
  scratch from it and gives it back at other contents.
-/
import proofs.«110624_j36009005809779_2_alg».proof.Proof.AttnRun
import proofs.«110624_j36009005809779_2_alg».proof.Proof.AttnValue1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The run's pieces for the result's buffer fill it. -/
theorem cover1_5 (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .f32) (x4 : Vec F S1x1024 .f32) (fs : BufTy.Contents (Elt F) arg8.view.ty) (y : S1x512x1024.Idx) :
    ∃ pc ∈ (kernelRun1 c i arg2 harg2 arg3 harg3 arg4 harg4 arg5 harg5 arg6 harg6 arg7 harg7 arg8 harg8 x0 x1 x2 x3 x4 fs).1, y ∈ pc.1.set :=
  View.cover_of_tiledL (kernelRun1 c i arg2 harg2 arg3 harg3 arg4 harg4 arg5 harg5 arg6 harg6 arg7 harg7 arg8 harg8 x0 x1 x2 x3 x4 fs).1 S1x512x1024.size (by sl_kernel_rfl) y

/-- What the run leaves in the result's staging buffer: its pieces read back over junk. -/
def out1_5 (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .f32) (x4 : Vec F S1x1024 .f32) (fs : BufTy.Contents (Elt F) arg8.view.ty) : Vec F S1x512x1024 .f32 :=
  VO1_5.read (Elt F) (VO1_5.writes (Elt F) VO1_5.junk (kernelRun1 c i arg2 harg2 arg3 harg3 arg4 harg4 arg5 harg5 arg6 harg6 arg7 harg7 arg8 harg8 x0 x1 x2 x3 x4 fs).1)

/-- A load of a buffer after writes that cover it does not depend on what the buffer held before. -/
theorem readAt_writes_indep {sig' : RefSig} {κ' : Kind} {sp' : Space} {s : Shape} {e : EltTy} (v : View sig' κ' sp' s e) (B : LoadRect s)
    (f f' : v.ty.Contents (Elt F)) (Lp : List (View.Piece (Elt F) s e)) (h : ∀ y, ∃ p ∈ Lp, y ∈ p.1.set) :
    v.readAt (Elt F) B (v.writes (Elt F) f Lp) = v.readAt (Elt F) B (v.writes (Elt F) f' Lp) :=
  funext fun j => by
    rw [View.readAt_apply, View.readAt_apply, View.read_writes_apply_eq_canon v f _ Lp (h _), View.read_writes_apply_eq_canon v f' _ Lp (h _)]

/-- The run's pieces do not depend on what the scratch held before the body: the sixteen heads' blocks tile it, so the
    whole load after the loop reads only what the trips stored. -/
theorem run1_indep (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .f32) (x4 : Vec F S1x1024 .f32) (fs fs' : BufTy.Contents (Elt F) arg8.view.ty) :
    (kernelRun1 c i arg2 harg2 arg3 harg3 arg4 harg4 arg5 harg5 arg6 harg6 arg7 harg7 arg8 harg8 x0 x1 x2 x3 x4 fs).1 = (kernelRun1 c i arg2 harg2 arg3 harg3 arg4 harg4 arg5 harg5 arg6 harg6 arg7 harg7 arg8 harg8 x0 x1 x2 x3 x4 fs').1 := by
  have hcov : ∀ y, ∃ p ∈ pb_k1_t1 (F := F) Variants.none c none i arg2 harg2 arg3 harg3 arg4 harg4 arg5 harg5 arg6 harg6 arg7 harg7 arg8 harg8 (harg2.unread x0) (harg3.unread x1) (harg4.unread x2) (Scf.trips k1_t1_loop.lb k1_t1_loop.ub k1_t1_loop.st), y ∈ p.1.set :=
    fun y => cover_pb_trips Variants.none c none i arg2 harg2 arg3 harg3 arg4 harg4 arg5 harg5 arg6 harg6 arg7 harg7 arg8 harg8 (harg2.unread x0) (harg3.unread x1) (harg4.unread x2) y
  unfold kernelRun1
  dsimp only
  unfold kernelRun1.sl.v1
  rw [readAt_writes_indep arg8.view _ fs fs' _ hcov]

/-- Nor does what they leave in the result's buffer. -/
theorem out1_5_indep (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .f32) (x4 : Vec F S1x1024 .f32) (fs fs' : BufTy.Contents (Elt F) arg8.view.ty) :
    out1_5 c i arg2 harg2 arg3 harg3 arg4 harg4 arg5 harg5 arg6 harg6 arg7 harg7 arg8 harg8 x0 x1 x2 x3 x4 fs = out1_5 c i arg2 harg2 arg3 harg3 arg4 harg4 arg5 harg5 arg6 harg6 arg7 harg7 arg8 harg8 x0 x1 x2 x3 x4 fs' := by
  unfold out1_5; rw [run1_indep c i arg2 harg2 arg3 harg3 arg4 harg4 arg5 harg5 arg6 harg6 arg7 harg7 arg8 harg8 x0 x1 x2 x3 x4 fs fs']

/-- What the result's staging buffer holds after the body at point `t`: the run's contents at the point's buffers and
    input blocks. -/
def outAt1 (c : Dev nD) (t : Fin cfg1.N) : Vec F S1x512x1024 .f32 :=
  out1_5 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (Memref.whole cc1_scratch0) (Memref.isWhole_whole _) (iblk1 V c 0 t) (iblk1 V c 1 t) (iblk1 V c 2 t) (iblk1 V c 3 t) (iblk1 V c 4 t) scM1.view.junk

/-- The proof data of the attention call on core `c`: the arrays as the call finds them; after the body at point `t`
    each input's buffer at its block, the result's at `outAt1`; the plain invariant; nothing owed; the projected array
    held by its three windows at three shares that make up the whole, every other array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' buffers hold their blocks, the invariant lends the scratch, so the run applies;
    the result's buffer ends at the run's pieces read back, which cover it; the scratch goes back at what it now holds. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outAt1
  rw [show (dat1 V c).Φ t.castSucc = Pipeline.ΦA spec1 c from rfl, PhiA1_eq]
  unfold owns
  iintro ⟨⟨⟨Hr0, Hr1, Hr2, Hr3, Hr4, ⟨%ds, %fs, -, HS⟩⟩, Hg⟩, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ _ _ (iblk1 V c 0 t) (iblk1 V c 1 t) (iblk1 V c 2 t) (iblk1 V c 3 t) (iblk1 V c 4 t) fs).2 Set.univ _)
  unfold owns
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, ⟨%es, HS⟩⟩
  isplitl [Hr0 Hr1 Hr2 Hr3 Hr4 HS Hg]
  · isplitr [Hg]
    · isplitl [Hr0]; · iexact Hr0
      isplitl [Hr1]; · iexact Hr1
      isplitl [Hr2]; · iexact Hr2
      isplitl [Hr3]; · iexact Hr3
      isplitl [Hr4]; · iexact Hr4
      iexists _, _; isplitr
      swap; · iexact HS
      ipureintro; rfl
    · iexact Hg
  isplitl [Ho]; · iexact Ho
  isplitl [H0]; · iexact H0
  isplitl [H1]; · iexact H1
  isplitl [H2]; · iexact H2
  isplitl [H3]; · iexact H3
  isplitl [H4]; · iexact H4
  iexists _; isplitr
  swap; · iexact H5
  ipureintro
  exact (View.read_writes_of_cover _ _ _ _ _ (cover1_5 c _ _ _ _ _ _ _ _ _ _ _ _ _ _ _ _ _ _ _ _ fs)).trans
    (out1_5_indep c _ _ _ _ _ _ _ _ _ _ _ _ _ _ _ _ _ _ _ _ fs _)

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Chain.lean ====
/-
  What the core's unscoped buffers hold at each boundary between the items of the main function, at any float instance:
  at launch (`W0`), after the reshape of the input and the stacking of the three weights (`W1`), after the projection
  call (`W2`: the projected array at what the call's write-backs leave, everything else as before), after the two
  reshapes (`W3`), and after the attention call (`W4`: the result at what that call's write-backs leave). No item
  writes an argument array, so each argument is found at the end as it was launched.
-/
import proofs.«110624_j36009005809779_2_alg».proof.Proof.ProjCall
import proofs.«110624_j36009005809779_2_alg».proof.Proof.AttnCall
import proofs.«110624_j36009005809779_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first two host operations (the projection call's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the projection call's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the two reshapes (the attention call's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the attention call's exit: the result at what the pipeline leaves, every other buffer as entered (the call's
    other arrays are inputs, which it leaves as it found them). -/
def W4 (c : Dev nD) : Valuation τ sig (Elt F) :=
  Function.update (W3 m c) (Proc.devRef .tc main_v5) ((dat1 (U3 m) c).arrAt 5 cfg1.N)
theorem W4_v5 (c : Dev nD) : W4 m c (Proc.devRef .tc main_v5) = (dat1 (U3 m) c).arrAt 5 cfg1.N := by
  unfold W4; exact Function.update_self _ _ _
theorem W4_of_ne (c : Dev nD) (b : Ref sig .tc) (hb : b ≠ main_v5) :
    W4 m c (Proc.devRef .tc b) = W3 m c (Proc.devRef .tc b) := by
  unfold W4; exact Function.update_of_ne (StableHlo.devRef_ne_of_ne hb) _ _
abbrev U4 : (c : Dev nD) → (b : Ref sig .tc) → Buf (Elt F) ((c : Thread nD τ).loc b) := fun c b => W4 m c b

theorem W3_of (c : Dev nD) (r : Ref sig .tc) (h : r ∉ hostOps1_W) : W3 m c (Proc.devRef .tc r) = W2 m c (Proc.devRef .tc r) :=
  StableHlo.after_of_writes_sub hostOps1 _ hostOps1_writes h
theorem W1_of (c : Dev nD) (r : Ref sig .tc) (h : r ∉ hostOps0_W) : W1 m c (Proc.devRef .tc r) = W0 m c (Proc.devRef .tc r) :=
  StableHlo.after_of_writes_sub hostOps0 _ hostOps0_writes h

/-- An argument array is found at the end as launched. -/
theorem W4_arg (c : Dev nD) (r : Ref sig .tc) (h5 : r ≠ main_v5) (h1 : r ∉ hostOps1_W) (h2 : ∀ w, Pipeline.arrRef spec0 w ≠ r) (h0 : r ∉ hostOps0_W) :
    W4 m c (Proc.devRef .tc r) = m ((c : Thread nD τ).loc r) :=
  (W4_of_ne m c r h5).trans <| (W3_of m c r h1).trans <| (W2_of_ne m c r h2).trans <| (W1_of m c r h0).trans rfl

end Cert.KernelIdeal.Hand

end
-- ==== Proof.MainRun.lean ====
/-
  The main function's run, at any float instance: its four items — two host stretches and the two calls — as the
  segments of one run, from the launch to the return.

  Between two items a core holds every unscoped buffer whole at the boundary's contents (`W0 … W4`) beside its generator
  register and its dues, of which it has none. Each call takes its arrays out of the unscoped buffers at entry and puts
  them back at exit at what its write-backs leave. The projection call's three arrays are distinct buffers. The
  attention call reads the ONE projected array through three windows: at entry the array's full share is split in three
  among them, and at exit — the three windows having left it as they found it — joined again.
  Every weakly fair execution then terminates without a fault, and the final memory holds every unscoped buffer at `W4`.
-/
import proofs.«110624_j36009005809779_2_alg».proof.Proof.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No call has a prefetched table. -/
abbrev admH : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W4`, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- The projection call over the thread state: entered from every unscoped buffer at `W1`, left at `W2`. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention call: one array behind three windows -/

/-- The distinct buffers behind the attention call's six windows, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v3) ↦{fullShare} V main_v3) ∗ (((c : Thread nD τ).loc main_arg4) ↦{fullShare} V main_arg4) ∗ (((c : Thread nD τ).loc main_v4) ↦{fullShare} V main_v4) ∗ (((c : Thread nD τ).loc main_v5) ↦{fullShare} V main_v5)) := by
  unfold Pipeline.arrBufs
  exact bigSep_eq_bigSepL_of_eq [main_v3, main_arg4, main_v4, main_v5] (by decide) (by decide) _

/-- The call's arrays at contents `G`, window by window: the projected array three times, at the three shares. -/
theorem arrays1_eq (c : Dev nD) (G : (w : Fin cfg1.W) → Buf (Elt F) ((cfg1.win w).arr.view.loc (c : Thread nD τ))) :
    ((dat1 (U3 m) c).arrays G : sProp 𝕄)
      = iprop((((c : Thread nD τ).loc main_v3) ↦{fullShare.left} G 0) ∗ (((c : Thread nD τ).loc main_v3) ↦{fullShare.right.left} G 1) ∗ (((c : Thread nD τ).loc main_v3) ↦{fullShare.right.right} G 2) ∗ (((c : Thread nD τ).loc main_arg4) ↦{fullShare} G 3) ∗ (((c : Thread nD τ).loc main_v4) ↦{fullShare} G 4) ∗ (((c : Thread nD τ).loc main_v5) ↦{fullShare} G 5)) := by
  unfold Dat.arrays
  rw [bigSep_W1]
  simp only [(arr_whole1 0).set_eq_univ, (arr_whole1 1).set_eq_univ, (arr_whole1 2).set_eq_univ, (arr_whole1 3).set_eq_univ, (arr_whole1 4).set_eq_univ, (arr_whole1 5).set_eq_univ]
  rfl

/-- At the attention call's exit, an input window's array is as the call found it. -/
theorem arrAt1_in (c : Dev nD) (w : Fin cfg1.W) (hw : (cfg1.win w).isOut = false) (n : ℕ) :
    (dat1 (U3 m) c).arrAt w n = U3 m c (Pipeline.arrRef spec1 w) :=
  ((dat1 (U3 m) c).arrAt_in w hw n).trans (A_eq1 (U3 m) c w)

/-- The unscoped buffers at the attention call's exit contents, from the four buffers behind its windows — the result
    at what the write-backs leave, the three others as found — and the buffers it does not touch. -/
theorem held_W4 (c : Dev nD) :
    (iprop(((((c : Thread nD τ).loc main_v3) ↦{fullShare} U3 m c main_v3) ∗ (((c : Thread nD τ).loc main_arg4) ↦{fullShare} U3 m c main_arg4) ∗ (((c : Thread nD τ).loc main_v4) ↦{fullShare} U3 m c main_v4) ∗ (((c : Thread nD τ).loc main_v5) ↦{fullShare} (dat1 (U3 m) c).arrAt 5 cfg1.N))
        ∗ Pipeline.unscopedRest (Ix := Unit) (Name := ℕ) (U := UR sig nD τ) (Lvl := ℕ) spec1 c (U3 m c)) : sProp 𝕄)
      ⊢ StableHlo.held (c : Thread nD τ) (Pipeline.ucRefs τ sig) (W4 m c) := by
  rw [← Pipeline.unscopedBufs_held c (W4 m c),
    Pipeline.unscopedBufs_split₀ (Ix := Unit) (Name := ℕ) (U := UR sig nD τ) (Lvl := ℕ) cfgs 1 winFacts₀1.arr_unscoped c (U4 m c)]
  show _ ⊢ iprop((Pipeline.arrBufs (Ix := Unit) (Name := ℕ) (U := UR sig nD τ) (Lvl := ℕ) spec1 c (U4 m c) : sProp 𝕄)
    ∗ Pipeline.unscopedRest (Ix := Unit) (Name := ℕ) (U := UR sig nD τ) (Lvl := ℕ) spec1 c (U4 m c))
  rw [arrBufs1_eq, unscopedRest1_eq, unscopedRest1_eq]
  simp only [W4_of_ne m c main_v3 (by decide), W4_of_ne m c main_arg4 (by decide), W4_of_ne m c main_v4 (by decide), W4_v5,
    W4_of_ne m c main_arg0 (by decide), W4_of_ne m c main_arg1 (by decide), W4_of_ne m c main_arg2 (by decide), W4_of_ne m c main_arg3 (by decide),
    W4_of_ne m c main_arg5 (by decide), W4_of_ne m c main_v0 (by decide), W4_of_ne m c main_v1 (by decide), W4_of_ne m c main_v2 (by decide)]
  exact .rfl

set_option backward.isDefEq.respectTransparency.types false in
/-- The attention call over the thread state: entered from every unscoped buffer at `W3`, left at `W4`. -/
def reg1 : Pipeline.RegionSeg (pcfgs (F := F)) admH (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hub : (StableHlo.held (c : Thread nD τ) (Pipeline.ucRefs τ sig) (W3 m c) : sProp 𝕄)
        = iprop((Pipeline.arrBufs (Ix := Unit) (Name := ℕ) (U := UR sig nD τ) (Lvl := ℕ) spec1 c (U3 m c) : sProp 𝕄)
          ∗ Pipeline.unscopedRest (Ix := Unit) (Name := ℕ) (U := UR sig nD τ) (Lvl := ℕ) spec1 c (U3 m c)) := by
      rw [← Pipeline.unscopedBufs_held c (W3 m c)]
      exact Pipeline.unscopedBufs_split₀ (Ix := Unit) (Name := ℕ) (U := UR sig nD τ) (Lvl := ℕ) cfgs 1 winFacts₀1.arr_unscoped c (U3 m c)
    rw [arrBufs1_eq] at hub
    rw [show ((pdats m 1 c).arrays ((pdats m 1 c).arrAt · 0) : sProp 𝕄) = (dat1 (U3 m) c).arrays (fun w => (dat1 (U3 m) c).arrAt w 0) from rfl, arrays1_eq]
    iintro ⟨⟨Hub, Hp, HO⟩, -, -⟩
    ihave H := (Entails.of_eq hub) $$ Hub
    icases H with ⟨⟨H3, H4a, H4v, H5⟩, Hrest⟩
    ihave H3s := (pointsTo_share (PosShare.mem_left_op_right fullShare)).1 $$ H3
    icases H3s with ⟨H3a, H3r⟩
    ihave H3t := (pointsTo_share (PosShare.mem_left_op_right fullShare.right)).1 $$ H3r
    icases H3t with ⟨H3b, H3c⟩
    imodintro
    isplitl [H3a H3b H3c H4a H4v H5]
    · isplitl [H3a]; · iexact H3a
      isplitl [H3b]; · iexact H3b
      isplitl [H3c]; · iexact H3c
      isplitl [H4a]; · iexact H4a
      isplitl [H4v]; · iexact H4v
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [show ((pdats m 1 c).arrays ((pdats m 1 c).arrAt · (Pipeline.pin (pcfgs (F := F)) admH 1).N) : sProp 𝕄) = (dat1 (U3 m) c).arrays (fun w => (dat1 (U3 m) c).arrAt w cfg1.N) from rfl, arrays1_eq,
      arrAt1_in m c 0 rfl, arrAt1_in m c 1 rfl, arrAt1_in m c 2 rfl, arrAt1_in m c 3 rfl, arrAt1_in m c 4 rfl]
    iintro ⟨⟨H3a, H3b, H3c, H4a, H4v, H5⟩, HO, HY, Hrest⟩
    ihave H3r := (pointsTo_share (PosShare.mem_left_op_right fullShare.right)).2 $$ [H3b H3c]
    · isplitl [H3b]; · iexact H3b
      iexact H3c
    ihave H3 := (pointsTo_share (PosShare.mem_left_op_right fullShare)).2 $$ [H3a H3r]
    · isplitl [H3a]; · iexact H3a
      iexact H3r
    imodintro
    isplitr [HO]
    · isplitr [HY]
      · iapply (held_W4 m c)
        isplitr [Hrest]
        · isplitl [H3]; · iexact H3
          isplitl [H4a]; · iexact H4a
          isplitl [H4v]; · iexact H4v
          iexact H5
        · iexact Hrest
      · iexact HY
    unfold Pipeline.Dat.owesAt Pipeline.owesWithin
    icases HO with ⟨%W, -, HO⟩; iexists W; iexact HO

/-! ## The main function as segments, and the launch -/

/-- The four segments in order. -/
abbrev segsH : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- The main function IS the run of the segments. -/
theorem main_run (c : Dev nD) : main (F := F) c = Pipeline.Seg.run (segsH m) := (main_chain c).trans (by chain_rfl)

set_option backward.isDefEq.respectTransparency.types false in
/-- From any memory with zero counters, every weakly fair execution of the main function on the TensorCores terminates,
    nothing faulting, and the final memory holds every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide)),
     (h c _ (mem_uc main_arg5 (by decide))).trans (W4_arg m c main_arg5 (by decide) (by decide) (by decide) (by decide))⟩)
    (run_all m ρ)

end Cert.KernelIdeal.Hand

end
-- ==== Proof.HostRead.lean ====
/-
  The four host operations around the two calls, read at an index, for any contents `W` of the core's buffers.

  Before the first call the input `[4, 2048, 1024]` is flattened to `[8192, 1024]` (row `2048 b + s` is row `s` of
  batch `b`) and the three weights `Wq`, `Wk`, `Wv` are stacked along the rows into one `[3072, 1024]` array
  (rows `0 …`, `1024 …`, `2048 …`). Between the calls the projected array `[8192, 3072]` is unflattened to
  `[4, 2048, 3072]` and the bias `[1024]` is read as one row `[1, 1024]`.
-/
import proofs.«110624_j36009005809779_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem

/-! ## The arrays as whole terms -/

/-- The flattened input is the reshape of the input. -/
theorem v0_eq (W : Valuation τ sig (Elt Ideal)) :
    (StableHlo.after (hostOps0 (F := Ideal)) W (Proc.devRef .tc main_v0) : S8192x1024.Idx → EReal)
      = shapeCast S8192x1024 (W (Proc.devRef .tc main_arg0)) shapeCasts_S4x2048x1024_S8192x1024 := by
  simp only [hostOps0]
  after_results
  rfl

/-- The three weights, in the order they are stacked. -/
abbrev stacked (W : Valuation τ sig (Elt Ideal)) : List ((s : Shape) × (s.Idx → EReal)) :=
  [⟨S1024x1024, W (Proc.devRef .tc main_arg1)⟩, ⟨S1024x1024, W (Proc.devRef .tc main_arg2)⟩, ⟨S1024x1024, W (Proc.devRef .tc main_arg3)⟩]

/-- The stacked weight is the concatenation of the three weights along the rows. -/
theorem v1_eq (W : Valuation τ sig (Elt Ideal)) :
    (StableHlo.after (hostOps0 (F := Ideal)) W (Proc.devRef .tc main_v1) : S3072x1024.Idx → EReal)
      = concatenate S3072x1024 0 (stacked W) concatenates_S1024x1024_S1024x1024_S1024x1024_S3072x1024_d0 := by
  simp only [hostOps0]
  after_results
  -- the three operands are read after the reshape, which writes none of them
  show concatenate S3072x1024 0
      [⟨S1024x1024, (StableHlo.reshape main_arg0 main_v0 rfl shapeCasts_S4x2048x1024_S8192x1024 : HloOp τ sig (Elt Ideal)).result W (Proc.devRef .tc main_arg1)⟩,
        ⟨S1024x1024, (StableHlo.reshape main_arg0 main_v0 rfl shapeCasts_S4x2048x1024_S8192x1024 : HloOp τ sig (Elt Ideal)).result W (Proc.devRef .tc main_arg2)⟩,
        ⟨S1024x1024, (StableHlo.reshape main_arg0 main_v0 rfl shapeCasts_S4x2048x1024_S8192x1024 : HloOp τ sig (Elt Ideal)).result W (Proc.devRef .tc main_arg3)⟩]
      concatenates_S1024x1024_S1024x1024_S1024x1024_S3072x1024_d0 = _
  rw [StableHlo.reshape_result_ne _ _ _ _ _ _ W (show main_arg1 ≠ main_v0 by decide),
    StableHlo.reshape_result_ne _ _ _ _ _ _ W (show main_arg2 ≠ main_v0 by decide),
    StableHlo.reshape_result_ne _ _ _ _ _ _ W (show main_arg3 ≠ main_v0 by decide)]

/-- The unflattened projected array is the reshape of the projected array. -/
theorem v3_eq (W : Valuation τ sig (Elt Ideal)) :
    (StableHlo.after (hostOps1 (F := Ideal)) W (Proc.devRef .tc main_v3) : S4x2048x3072.Idx → EReal)
      = shapeCast S4x2048x3072 (W (Proc.devRef .tc main_v2)) shapeCasts_S8192x3072_S4x2048x3072 := by
  simp only [hostOps1]
  after_results
  rfl

/-- The bias row is the reshape of the bias. -/
theorem v4_eq (W : Valuation τ sig (Elt Ideal)) :
    (StableHlo.after (hostOps1 (F := Ideal)) W (Proc.devRef .tc main_v4) : S1x1024.Idx → EReal)
      = shapeCast S1x1024 (W (Proc.devRef .tc main_arg5)) shapeCasts_S1024_S1x1024 := by
  simp only [hostOps1]
  after_results
  rfl

/-! ## Read at an index -/

/-- Row `r` of the flattened input is row `r % 2048` of batch `r / 2048`. -/
theorem v0_apply (W : Valuation τ sig (Elt Ideal)) (r : Fin 8192) (e : Fin 1024) :
    StableHlo.after (hostOps0 (F := Ideal)) W (Proc.devRef .tc main_v0) (ix2 r e) = W (Proc.devRef .tc main_arg0) (ix3 (⟨r.val / 2048, by omega⟩ : Fin 4) (⟨r.val % 2048, by omega⟩ : Fin 2048) e) := by
  refine (congrFun (v0_eq W) (ix2 r e)).trans ?_
  refine shapeCast_apply _ _ _ _ ?_
  show (S4x2048x1024.rowMajor _).val = (S8192x1024.rowMajor _).val
  rw [Shape.rowMajor_val_three, Shape.rowMajor_val_two]
  show (r.val / 2048 * 2048 + r.val % 2048) * 1024 + e.val = r.val * 1024 + e.val
  omega

/-- A concatenation's piece along axis 0 of a rank-2 array keeps the column. -/
private theorem off_axis {n0 n0' n1 : Nat} (j : Fin n0) (j' : Fin n0') (e : Fin n1) :
    ∀ b : Fin (⟨2, ![n0, n1]⟩ : Shape).rank, b.cast (rfl : (2 : Nat) = 2) ≠ (0 : Fin 2) →
      ((ix2 j e : (⟨2, ![n0, n1]⟩ : Shape).Idx) b).val = ((ix2 j' e : (⟨2, ![n0', n1]⟩ : Shape).Idx) (b.cast rfl)).val
  | ⟨0, _⟩, h => absurd rfl h
  | ⟨1, _⟩, _ => rfl

/-- Rows `0 … 1023` of the stacked weight are the query weight. -/
theorem v1_q (W : Valuation τ sig (Elt Ideal)) (j e : Fin 1024) : StableHlo.after (hostOps0 (F := Ideal)) W (Proc.devRef .tc main_v1) (ix2 (⟨j.val, by omega⟩ : Fin 3072) e) = W (Proc.devRef .tc main_arg1) (ix2 j e) := by
  refine (congrFun (v1_eq W) _).trans ?_
  exact concatenate_apply_piece (t := S3072x1024) (0 : Fin 2) (stacked W) concatenates_S1024x1024_S1024x1024_S1024x1024_S3072x1024_d0 _ 0 (by show 0 < 3; omega) S1024x1024 _ rfl rfl 0 rfl (ix2 j e)
    (off_axis j _ e) (by show 0 + j.val = j.val; omega)

/-- Rows `1024 … 2047` of the stacked weight are the key weight. -/
theorem v1_k (W : Valuation τ sig (Elt Ideal)) (j e : Fin 1024) : StableHlo.after (hostOps0 (F := Ideal)) W (Proc.devRef .tc main_v1) (ix2 (⟨1024 + j.val, by omega⟩ : Fin 3072) e) = W (Proc.devRef .tc main_arg2) (ix2 j e) := by
  refine (congrFun (v1_eq W) _).trans ?_
  exact concatenate_apply_piece (t := S3072x1024) (0 : Fin 2) (stacked W) concatenates_S1024x1024_S1024x1024_S1024x1024_S3072x1024_d0 _ 1 (by show 1 < 3; omega) S1024x1024 _ rfl rfl 1024 rfl (ix2 j e)
    (off_axis j _ e) rfl

/-- Rows `2048 … 3071` of the stacked weight are the value weight. -/
theorem v1_v (W : Valuation τ sig (Elt Ideal)) (j e : Fin 1024) : StableHlo.after (hostOps0 (F := Ideal)) W (Proc.devRef .tc main_v1) (ix2 (⟨2048 + j.val, by omega⟩ : Fin 3072) e) = W (Proc.devRef .tc main_arg3) (ix2 j e) := by
  refine (congrFun (v1_eq W) _).trans ?_
  exact concatenate_apply_piece (t := S3072x1024) (0 : Fin 2) (stacked W) concatenates_S1024x1024_S1024x1024_S1024x1024_S3072x1024_d0 _ 2 (by show 2 < 3; omega) S1024x1024 _ rfl rfl 2048 rfl (ix2 j e)
    (off_axis j _ e) rfl

/-- Row `s` of batch `b` of the unflattened projected array is row `2048 b + s` of the projected array. -/
theorem v3_apply (W : Valuation τ sig (Elt Ideal)) (b : Fin 4) (s : Fin 2048) (f : Fin 3072) :
    StableHlo.after (hostOps1 (F := Ideal)) W (Proc.devRef .tc main_v3) (ix3 b s f) = W (Proc.devRef .tc main_v2) (ix2 (⟨2048 * b.val + s.val, by omega⟩ : Fin 8192) f) := by
  refine (congrFun (v3_eq W) (ix3 b s f)).trans ?_
  refine shapeCast_apply _ _ _ _ ?_
  show (S8192x3072.rowMajor _).val = (S4x2048x3072.rowMajor _).val
  rw [Shape.rowMajor_val_three, Shape.rowMajor_val_two]
  show (2048 * b.val + s.val) * 3072 + f.val = (b.val * 2048 + s.val) * 3072 + f.val
  omega

/-- The bias row's entry `f` is the bias's entry `f`. -/
theorem v4_apply (W : Valuation τ sig (Elt Ideal)) (f : Fin 1024) :
    StableHlo.after (hostOps1 (F := Ideal)) W (Proc.devRef .tc main_v4) (ix2 (0 : Fin 1) f) = W (Proc.devRef .tc main_arg5) (ix1 f) := by
  refine (congrFun (v4_eq W) (ix2 (0 : Fin 1) f)).trans ?_
  refine shapeCast_apply _ _ _ _ ?_
  show (S1024.rowMajor _).val = (S1x1024.rowMajor _).val
  rw [Shape.rowMajor_val_one, Shape.rowMajor_val_two]
  show f.val = 0 * 1024 + f.val
  omega

end Cert.KernelIdeal.Hand

end
-- ==== Proof.Spec.lean ====
/-
  The attention layer both programs compute, index by index, on the extended reals.

  For an input `x : [4, 2048, 1024]` and four square weights, the three projections are
  `P W (b, s, f) = ∑ e, x (b, s, e) * W (f, e)`. The 1024 columns are 16 heads of 64: column `col h d = 64 h + d`.
  Given a score `sc b h q j` of query row `q` against key row `j` in head `h`, a row's weights are the softmax
  `exp (sc j − M) / ∑ j', exp (sc j' − M)` with `M` the row's maximum, the head's context is the weighted sum of the
  value rows, the heads are laid side by side again, and the output projection with its bias closes the layer.
  Everything after the scores is ONE function `layer` of the score; the two programs differ only in the score:
  the kernel scales the query by the bf16 word of 1/8 before the product (`scoreK`), the reference divides the
  product by `√64` (`scoreR`).
-/
import Idealize.ShloMosaic.PureOps.Ideal
import Idealize.ShloMosaic.Lib.ValueIdx

noncomputable section

namespace Cert.Attn

open Idealize.ShloMosaic Idealize.ShloMosaic.ValueIdx

/-- The input, a weight matrix, the bias: arrays of extended reals over literal shapes. -/
abbrev Act : Type := (⟨3, ![4, 2048, 1024]⟩ : Shape).Idx → EReal
abbrev Mat : Type := (⟨2, ![1024, 1024]⟩ : Shape).Idx → EReal
abbrev Bias : Type := (⟨1, ![1024]⟩ : Shape).Idx → EReal

/-- Column `64 h + d` of the 1024: entry `d` of head `h`. -/
def col (h : Fin 16) (d : Fin 64) : Fin 1024 := ⟨64 * h.val + d.val, by omega⟩
/-- The head a column belongs to, and its place inside the head. -/
def headOf (e : Fin 1024) : Fin 16 := ⟨e.val / 64, by omega⟩
def inHead (e : Fin 1024) : Fin 64 := ⟨e.val % 64, by omega⟩

theorem col_headOf_inHead (e : Fin 1024) : col (headOf e) (inHead e) = e := by
  apply Fin.ext; simp only [col, headOf, inHead]; omega

/-- A projection `x Wᵀ`: row `(b, s)` of the input against row `f` of the weight. -/
def proj (x : Act) (W : Mat) (b : Fin 4) (s : Fin 2048) (f : Fin 1024) : EReal :=
  ∑ e : Fin 1024, x (ix3 b s e) * W (ix2 f e)

/-- The kernel's score: the query entries scaled by the bf16 word `0x3E00` (one eighth) before the product. -/
def scoreK (x : Act) (Wq Wk : Mat) (b : Fin 4) (h : Fin 16) (q j : Fin 2048) : EReal :=
  ∑ d : Fin 64, (proj x Wq b q (col h d) * Ideal.ofBits .bf16 0x3E00#16) * proj x Wk b j (col h d)

/-- The reference's score: the product divided by the square root of the f32 word of 64. -/
def scoreR (x : Act) (Wq Wk : Mat) (b : Fin 4) (h : Fin 16) (q j : Fin 2048) : EReal :=
  Ideal.div (∑ d : Fin 64, proj x Wq b q (col h d) * proj x Wk b j (col h d)) (Ideal.sqrt (Ideal.ofBits .f32 0x42800000#32))

/-- A row's maximum, from `−∞`. -/
def rowMax (r : Fin 2048 → EReal) : EReal := Finset.univ.fold max ⊥ r
/-- A row's unnormalised weights and their sum. -/
def rowExp (r : Fin 2048 → EReal) (j : Fin 2048) : EReal := Ideal.exp (r j - rowMax r)
def rowSum (r : Fin 2048 → EReal) : EReal := ∑ j : Fin 2048, rowExp r j
/-- A row's softmax weights. -/
def softmax (r : Fin 2048 → EReal) (j : Fin 2048) : EReal := Ideal.div (rowExp r j) (rowSum r)

/-- Head `h`'s context at query row `q`, entry `d`: the softmax-weighted sum of the value rows. -/
def ctxHead (sc : Fin 4 → Fin 16 → Fin 2048 → Fin 2048 → EReal) (v : Fin 4 → Fin 2048 → Fin 1024 → EReal)
    (b : Fin 4) (h : Fin 16) (q : Fin 2048) (d : Fin 64) : EReal :=
  ∑ j : Fin 2048, softmax (sc b h q) j * v b j (col h d)

/-- The heads side by side: column `e` of the context is entry `e % 64` of head `e / 64`. -/
def ctx (sc : Fin 4 → Fin 16 → Fin 2048 → Fin 2048 → EReal) (v : Fin 4 → Fin 2048 → Fin 1024 → EReal)
    (b : Fin 4) (q : Fin 2048) (e : Fin 1024) : EReal :=
  ctxHead sc v b (headOf e) q (inHead e)

/-- The layer from the scores on: contexts, output projection, bias. -/
def layer (sc : Fin 4 → Fin 16 → Fin 2048 → Fin 2048 → EReal) (x : Act) (Wv Wo : Mat) (bo : Bias) : Act :=
  fun i => (∑ e : Fin 1024, ctx sc (proj x Wv) (i 0) (i 1) e * Wo (ix2 (i 2) e)) + bo (ix1 (i 2))

/-- What the kernel computes. -/
def specK (x : Act) (Wq Wk Wv Wo : Mat) (bo : Bias) : Act := layer (scoreK x Wq Wk) x Wv Wo bo
/-- What the reference computes. -/
def specR (x : Act) (Wq Wk Wv Wo : Mat) (bo : Bias) : Act := layer (scoreR x Wq Wk) x Wv Wo bo

end Cert.Attn

end
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibColumns.lean ====
/-
  Columns of a two-axis array.

  Three readings at explicit coordinates `(p, k)` (row `p`, column `k`), for arrays of any height `a`:
  a single column cut out of an `[a, b]` array and flattened to an `[a]` vector is the array's column; nine `[a, 1]`
  columns laid side by side form an `[a, 9]` array whose column `j` is the `j`-th of them; and the sum of an `[a, b]` array
  along its rows is, at row `p`, the sum over the `b` columns of the entries of that row.
-/
import Idealize.ShloMosaic.Lib.Pipeline.Value
import Idealize.ShloMosaic.Lib.ValueIdx
import Idealize.ShloMosaic.Lib.ValueLayout
import Idealize.ShloMosaic.PureOps.Ideal.Laws

namespace Cert.LibColumns

open Idealize.ShloMosaic Idealize.ShloMosaic.ValueIdx

variable {α : Type}

/-- Column `k` of an `[a, b]` array, cut out as an `[a, 1]` slice at column offset `o = k` and flattened to an `[a]`
    vector, reads at row `p` the array's entry `(p, k)`. -/
theorem col_apply {a b : ℕ} (o : ℕ) (v : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (p : Fin a) (k : Fin b) (hk : k.val = o) :
    shapeCast ⟨1, ![a]⟩ (extractStridedSlice ⟨2, ![a, 1]⟩ ![0, o] v hs) hc (ix1 p) = v (ix2 p k) :=
  (shapeCast_apply _ hc (ix1 p) (ix2 p (0 : Fin 1)) (by
    rw [Shape.rowMajor_val_two, Shape.rowMajor_val_one]
    show p.val * 1 + 0 = p.val
    omega)).trans (slice2_axis1_apply o v hs p (0 : Fin 1) k (by show k.val = o + 0; omega))

/-- One of nine things, chosen by a number below nine. -/
def pick9 {β : Type} (c0 c1 c2 c3 c4 c5 c6 c7 c8 : β) (j : Fin 9) : β :=
  match j with
  | ⟨0, _⟩ => c0
  | ⟨1, _⟩ => c1
  | ⟨2, _⟩ => c2
  | ⟨3, _⟩ => c3
  | ⟨4, _⟩ => c4
  | ⟨5, _⟩ => c5
  | ⟨6, _⟩ => c6
  | ⟨7, _⟩ => c7
  | ⟨8, _⟩ => c8
  | ⟨_ + 9, h⟩ => absurd h (Nat.not_lt.2 (Nat.le_add_left _ _))

/-- Choosing among nine functions and applying the chosen one is choosing among the nine values. -/
theorem pick9_app {β γ : Type} (c0 c1 c2 c3 c4 c5 c6 c7 c8 : β → γ) (j : Fin 9) (x : β) :
    pick9 c0 c1 c2 c3 c4 c5 c6 c7 c8 j x = pick9 (c0 x) (c1 x) (c2 x) (c3 x) (c4 x) (c5 x) (c6 x) (c7 x) (c8 x) j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, hn⟩ => exact absurd hn (Nat.not_lt.2 (Nat.le_add_left _ _))

/-- Two choices among nine agree when the nine things agree one by one. -/
theorem pick9_congr {β : Type} {a0 a1 a2 a3 a4 a5 a6 a7 a8 b0 b1 b2 b3 b4 b5 b6 b7 b8 : β}
    (h0 : a0 = b0) (h1 : a1 = b1) (h2 : a2 = b2) (h3 : a3 = b3) (h4 : a4 = b4) (h5 : a5 = b5) (h6 : a6 = b6)
    (h7 : a7 = b7) (h8 : a8 = b8) (j : Fin 9) :
    pick9 a0 a1 a2 a3 a4 a5 a6 a7 a8 j = pick9 b0 b1 b2 b3 b4 b5 b6 b7 b8 j := by
  rw [h0, h1, h2, h3, h4, h5, h6, h7, h8]

/-- Nine `[a, 1]` columns as the list of pieces a concatenation takes. -/
abbrev cols9 {a : ℕ} (c0 c1 c2 c3 c4 c5 c6 c7 c8 : (⟨2, ![a, 1]⟩ : Shape).Idx → α) : List ((s : Shape) × (s.Idx → α)) :=
  [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩,
    ⟨⟨2, ![a, 1]⟩, c5⟩, ⟨⟨2, ![a, 1]⟩, c6⟩, ⟨⟨2, ![a, 1]⟩, c7⟩, ⟨⟨2, ![a, 1]⟩, c8⟩]

/-- Nine `[a, 1]` columns joined along the column axis: the entry `(p, j)` of the `[a, 9]` result is the entry `(p, 0)`
    of the `j`-th column (the columns before it take up exactly `j` positions of the joined axis). -/
theorem concat9_apply {a : ℕ} (c0 c1 c2 c3 c4 c5 c6 c7 c8 : (⟨2, ![a, 1]⟩ : Shape).Idx → α)
    (h : Shape.Concatenates ((cols9 c0 c1 c2 c3 c4 c5 c6 c7 c8).map (·.1)) ⟨2, ![a, 9]⟩ 1)
    (p : Fin a) (j : Fin 9) :
    concatenate ⟨2, ![a, 9]⟩ 1 (cols9 c0 c1 c2 c3 c4 c5 c6 c7 c8) h (ix2 p j)
      = pick9 c0 c1 c2 c3 c4 c5 c6 c7 c8 j (ix2 p (0 : Fin 1)) := by
  have hi : ∀ (j : Fin 9) (b : Fin 2), b.cast (rfl : (2 : ℕ) = 2) ≠ (1 : Fin 2) →
      ((ix2 p (0 : Fin 1) : (⟨2, ![a, 1]⟩ : Shape).Idx) b).val
        = ((ix2 p j : (⟨2, ![a, 9]⟩ : Shape).Idx) (b.cast rfl)).val := by
    intro j b hb
    match b with
    | ⟨0, _⟩ => rfl
    | ⟨1, _⟩ => exact absurd rfl hb
  match j with
  | ⟨0, hj⟩ =>
    exact concatenate_apply_piece (t := ⟨2, ![a, 9]⟩) (1 : Fin 2) (cols9 c0 c1 c2 c3 c4 c5 c6 c7 c8) h (ix2 p (⟨0, hj⟩ : Fin 9)) 0
      (by show (0 : ℕ) < 9; decide) ⟨2, ![a, 1]⟩ c0 rfl rfl 0 rfl (ix2 p (0 : Fin 1)) (hi _) rfl
  | ⟨1, hj⟩ =>
    exact concatenate_apply_piece (t := ⟨2, ![a, 9]⟩) (1 : Fin 2) (cols9 c0 c1 c2 c3 c4 c5 c6 c7 c8) h (ix2 p (⟨1, hj⟩ : Fin 9)) 1
      (by show (1 : ℕ) < 9; decide) ⟨2, ![a, 1]⟩ c1 rfl rfl 1 rfl (ix2 p (0 : Fin 1)) (hi _) rfl
  | ⟨2, hj⟩ =>
    exact concatenate_apply_piece (t := ⟨2, ![a, 9]⟩) (1 : Fin 2) (cols9 c0 c1 c2 c3 c4 c5 c6 c7 c8) h (ix2 p (⟨2, hj⟩ : Fin 9)) 2
      (by show (2 : ℕ) < 9; decide) ⟨2, ![a, 1]⟩ c2 rfl rfl 2 rfl (ix2 p (0 : Fin 1)) (hi _) rfl
  | ⟨3, hj⟩ =>
    exact concatenate_apply_piece (t := ⟨2, ![a, 9]⟩) (1 : Fin 2) (cols9 c0 c1 c2 c3 c4 c5 c6 c7 c8) h (ix2 p (⟨3, hj⟩ : Fin 9)) 3
      (by show (3 : ℕ) < 9; decide) ⟨2, ![a, 1]⟩ c3 rfl rfl 3 rfl (ix2 p (0 : Fin 1)) (hi _) rfl
  | ⟨4, hj⟩ =>
    exact concatenate_apply_piece (t := ⟨2, ![a, 9]⟩) (1 : Fin 2) (cols9 c0 c1 c2 c3 c4 c5 c6 c7 c8) h (ix2 p (⟨4, hj⟩ : Fin 9)) 4
      (by show (4 : ℕ) < 9; decide) ⟨2, ![a, 1]⟩ c4 rfl rfl 4 rfl (ix2 p (0 : Fin 1)) (hi _) rfl
  | ⟨5, hj⟩ =>
    exact concatenate_apply_piece (t := ⟨2, ![a, 9]⟩) (1 : Fin 2) (cols9 c0 c1 c2 c3 c4 c5 c6 c7 c8) h (ix2 p (⟨5, hj⟩ : Fin 9)) 5
      (by show (5 : ℕ) < 9; decide) ⟨2, ![a, 1]⟩ c5 rfl rfl 5 rfl (ix2 p (0 : Fin 1)) (hi _) rfl
  | ⟨6, hj⟩ =>
    exact concatenate_apply_piece (t := ⟨2, ![a, 9]⟩) (1 : Fin 2) (cols9 c0 c1 c2 c3 c4 c5 c6 c7 c8) h (ix2 p (⟨6, hj⟩ : Fin 9)) 6
      (by show (6 : ℕ) < 9; decide) ⟨2, ![a, 1]⟩ c6 rfl rfl 6 rfl (ix2 p (0 : Fin 1)) (hi _) rfl
  | ⟨7, hj⟩ =>
    exact concatenate_apply_piece (t := ⟨2, ![a, 9]⟩) (1 : Fin 2) (cols9 c0 c1 c2 c3 c4 c5 c6 c7 c8) h (ix2 p (⟨7, hj⟩ : Fin 9)) 7
      (by show (7 : ℕ) < 9; decide) ⟨2, ![a, 1]⟩ c7 rfl rfl 7 rfl (ix2 p (0 : Fin 1)) (hi _) rfl
  | ⟨8, hj⟩ =>
    exact concatenate_apply_piece (t := ⟨2, ![a, 9]⟩) (1 : Fin 2) (cols9 c0 c1 c2 c3 c4 c5 c6 c7 c8) h (ix2 p (⟨8, hj⟩ : Fin 9)) 8
      (by show (8 : ℕ) < 9; decide) ⟨2, ![a, 1]⟩ c8 rfl rfl 8 rfl (ix2 p (0 : Fin 1)) (hi _) rfl
  | ⟨n + 9, hn⟩ => exact absurd hn (Nat.not_lt.2 (Nat.le_add_left _ _))

/-- The sum of an `[a, b]` array of extended reals along its rows (a lane reduction with the additive neutral element
    as accumulator), read at row `p`: the sum over the columns `k` of the entries `(p, k)`. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

end Cert.LibColumns
-- ==== Proof.Payload.lean ====
/-
  The kernel's three pure payloads, read at an index, on the extended reals.

  On the extended reals a change of float format is the identity, a cast of a shape to itself is the identity, and a
  product accumulated into the zero array is the plain sum of products. So: the first launch's payload at `(r, f)` is
  row `r` of the input against row `f` of the stacked weights; one attention head's payload at `(q, d)` is the softmax
  of query row `q`'s scores against the key rows — the query entries scaled by the bf16 word `0x3E00` (one eighth)
  before the product, the row maximum taken from `-∞`, the row sum from `0` — weighting entry `d` of the value rows;
  and the closing payload at `(0, q, f)` is row `q` of the contexts against row `f` of the output weights plus entry
  `f` of the bias.
-/
import proofs.«110624_j36009005809779_2_alg».proof.Proof.Gen.KernelIdeal.Skeleton
import proofs.«110624_j36009005809779_2_alg».proof.Proof.Spec
import proofs.«110624_j36009005809779_2_alg».proof.Proof.LibPlain
import proofs.«110624_j36009005809779_2_alg».proof.Proof.LibKeepdims
import proofs.«110624_j36009005809779_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

variable [Cert.KernelIdeal.Facts]

/-- A product of an `M × K` matrix by the transpose of an `N × K` one (both operands contracted on their axis 1, no
    batch axis), accumulated into the zero array, is at `(a, b)` the sum over `c` of the entries `(a, c)` and `(b, c)`:
    whatever proof the record of dimension numbers carries for its side conditions. -/
theorem matmulNT_zero_apply {M K N : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims ⟨2, ![M, K]⟩ ⟨2, ![N, K]⟩ ⟨2, ![M, N]⟩) prec A B
        (constant (F := Ideal) ⟨2, ![M, N]⟩ .f32 0x00000000#32) (ix2 a b)
      = ∑ c : Fin K, A (ix2 a c) * B (ix2 b c) := by
  refine (Ideal.matmul_constant_zero_apply _ prec A B (ix2 a b)).trans ?_
  rw [← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The first launch's payload at `(r, f)`: row `r` of the input against row `f` of the stacked weights. The format
    changes and the casts of a shape to itself are the identity on extended reals. -/
theorem pay0_apply (v0 : Vec Ideal S1024x1024 .f32) (v3 : Vec Ideal S3072x1024 .f32) (r : Fin 1024) (f : Fin 3072) :
    k0_pay1 (F := Ideal) v0 v3 (ix2 r f) = ∑ e : Fin 1024, v0 (ix2 r e) * v3 (ix2 f e) := by
  unfold k0_pay1
  refine (matmulNT_zero_apply Facts₀.dot_S1024x1024_S3072x1024_S1024x3072_1_1_0_0_n_n_wf none _ _ r f).trans ?_
  refine Finset.sum_congr rfl fun e _ => ?_
  rw [truncf_apply, truncf_apply, shapeCast_self, shapeCast_self]

/-- The second launch's closing payload at `(0, q, f)`: row `q` of the contexts against row `f` of the output weights,
    plus entry `f` of the bias (its one row read on every row), under a leading unit axis. -/
theorem pay2_apply (v1 : Vec Ideal S512x1024 .bf16) (v2 : Vec Ideal S1024x1024 .f32) (v5 : Vec Ideal S1x1024 .f32)
    (q : Fin 512) (f : Fin 1024) :
    k1_pay2 (F := Ideal) v1 v2 v5 (ix3 0 q f) = (∑ e : Fin 1024, v1 (ix2 q e) * v2 (ix2 f e)) + v5 (ix2 0 f) := by
  unfold k1_pay2
  refine (shapeCast_ab_1ab_apply _ Facts₀.shapeCasts_S512x1024_S1x512x1024 (0 : Fin 1) q f).trans ?_
  refine (addf_apply _ _ (ix2 q f)).trans ?_
  refine congrArg₂ (· + ·) ?_ ?_
  · refine (matmulNT_zero_apply Facts₀.dot_S512x1024_S1024x1024_S512x1024_1_1_0_0_n_n_wf none _ _ q f).trans ?_
    refine Finset.sum_congr rfl fun e _ => ?_
    rw [truncf_apply]
  · refine (broadcastTo_1b_ab_apply _ Facts₀.broadcasts_S1x1024_S512x1024 q f).trans ?_
    rw [shapeCast_self]

/-- A row's maximum from `-∞`, kept as a unit column and spread back over the row: at `(q, j)` it is the maximum of
    row `q`, whatever `j`. -/
theorem rowMaxSpread_apply (S : FVec Ideal S512x2048 .f32) (h : S512x2048.Reduces [1] S512) (hφ : FKind.Formats .f32)
    (hacc : (0xFF800000#32 : BitVec 32) = FKind.maximumf.neutral .f32 hφ)
    (hc : S512.ShapeCasts S512x1) (hb : S512x1.Broadcasts S512x2048) (q : Fin 512) (j : Fin 2048) :
    broadcastTo S512x2048 (shapeCast S512x1 (multiReduction .maximumf [1] S512 S 0xFF800000#32 h hφ hacc) hc) hb (ix2 q j)
      = Cert.Attn.rowMax (fun j' => S (ix2 q j')) :=
  (Cert.LibKeepdims.broadcastTo_a1_ab_apply _ hb q j).trans
    ((Cert.LibKeepdims.shapeCast_a_a1_apply _ hc q (0 : Fin 1)).trans (Cert.LibPlain.rowMax_apply S h hφ hacc q))

/-- A row's sum from `0`, kept as a unit column and spread back over the row: at `(q, j)` it is the sum of row `q`. -/
theorem rowSumSpread_apply (E : FVec Ideal S512x2048 .f32) (h : S512x2048.Reduces [1] S512) (hφ : FKind.Formats .f32)
    (hacc : (0x00000000#32 : BitVec 32) = FKind.add.neutral .f32 hφ)
    (hc : S512.ShapeCasts S512x1) (hb : S512x1.Broadcasts S512x2048) (q : Fin 512) (j : Fin 2048) :
    broadcastTo S512x2048 (shapeCast S512x1 (multiReduction .add [1] S512 E 0x00000000#32 h hφ hacc) hc) hb (ix2 q j)
      = ∑ k : Fin 2048, E (ix2 q k) :=
  (Cert.LibKeepdims.broadcastTo_a1_ab_apply _ hb q j).trans
    ((Cert.LibKeepdims.shapeCast_a_a1_apply _ hc q (0 : Fin 1)).trans (Cert.LibColumns.rowSum_apply E h hφ hacc q))

/-- The exponential of a score minus its row's maximum, at `(q, k)`, for an array of scores whose row `q` is `r`. -/
theorem expRow_apply (S : FVec Ideal S512x2048 .f32) (h : S512x2048.Reduces [1] S512) (hφ : FKind.Formats .f32)
    (hacc : (0xFF800000#32 : BitVec 32) = FKind.maximumf.neutral .f32 hφ)
    (hc : S512.ShapeCasts S512x1) (hb : S512x1.Broadcasts S512x2048) (q : Fin 512) (r : Fin 2048 → EReal)
    (hS : ∀ j : Fin 2048, S (ix2 q j) = r j) (k : Fin 2048) :
    exp (subf S (broadcastTo S512x2048 (shapeCast S512x1 (multiReduction .maximumf [1] S512 S 0xFF800000#32 h hφ hacc) hc) hb))
        (ix2 q k)
      = Ideal.exp (r k - Cert.Attn.rowMax r) := by
  show Ideal.exp (S (ix2 q k) - broadcastTo S512x2048 (shapeCast S512x1
    (multiReduction .maximumf [1] S512 S 0xFF800000#32 h hφ hacc) hc) hb (ix2 q k)) = _
  rw [rowMaxSpread_apply S h hφ hacc hc hb q k, hS k, show (fun j' => S (ix2 q j')) = r from funext hS]

/-- One head's payload at `(q, d)`: the softmax of query row `q`'s scores against the 2048 key rows (the query entries
    scaled by the bf16 word of one eighth before the product), weighting entry `d` of the value rows. -/
theorem pay1_apply (v17 : Vec Ideal S1x512x64 .bf16) (v22 v25 : Vec Ideal S1x2048x64 .bf16) (q : Fin 512) (d : Fin 64) :
    k1_pay1 (F := Ideal) v17 v22 v25 (ix2 q d)
      = ∑ j : Fin 2048, Cert.Attn.softmax (fun j' : Fin 2048 => ∑ d' : Fin 64,
          (v17 (ix3 0 q d') * Ideal.ofBits .bf16 0x3E00#16) * v22 (ix3 0 j' d')) j * v25 (ix3 0 j d) := by
  unfold k1_pay1
  refine (congrFun (shapeCast_self _ Facts₀.shapeCasts_S512x64_S512x64) (ix2 q d)).trans ?_
  refine (truncf_apply (φ := .f32) (ψ := .bf16) _ Facts₀.bitsLt_bf16_f32 (ix2 q d)).trans ?_
  refine (Cert.LibPlain.matmul_zero_apply dot_S512x2048_S2048x64_S512x64_1_0_0_1_n_n rfl none _ _ q d).trans ?_
  refine Finset.sum_congr rfl fun j _ => ?_
  refine congrArg₂ (· * ·) ?_ (shapeCast_1ab_ab_apply _ Facts₀.shapeCasts_S1x2048x64_S2048x64 j d)
  refine (truncf_apply (φ := .f32) (ψ := .bf16) _ Facts₀.bitsLt_bf16_f32 (ix2 q j)).trans ?_
  refine (divf_apply (φ := .f32) _ _ (ix2 q j)).trans ?_
  have hS : ∀ j' : Fin 2048,
      matmul dot_S512x64_S2048x64_S512x2048_1_1_0_0_n_n none
        (mulf (shapeCast S512x64 v17 Facts₀.shapeCasts_S1x512x64_S512x64 : FVec Ideal S512x64 .bf16)
          (broadcast S512x64 (Scalar.ofBits (F := Ideal) .bf16 0x3E00#16)))
        (shapeCast S2048x64 v22 Facts₀.shapeCasts_S1x2048x64_S2048x64 : FVec Ideal S2048x64 .bf16)
        (constant (F := Ideal) S512x2048 .f32 0x00000000#32) (ix2 q j')
      = ∑ d' : Fin 64, (v17 (ix3 0 q d') * Ideal.ofBits .bf16 0x3E00#16) * v22 (ix3 0 j' d') := fun j' => by
    refine (matmulNT_zero_apply Facts₀.dot_S512x64_S2048x64_S512x2048_1_1_0_0_n_n_wf none _ _ q j').trans ?_
    refine Finset.sum_congr rfl fun d' _ => ?_
    refine congrArg₂ (· * ·) ?_ (shapeCast_1ab_ab_apply _ Facts₀.shapeCasts_S1x2048x64_S2048x64 j' d')
    refine (mulf_apply (φ := .bf16) _ _ (ix2 q d')).trans ?_
    exact congrArg₂ (· * ·) (shapeCast_1ab_ab_apply _ Facts₀.shapeCasts_S1x512x64_S512x64 q d') rfl
  unfold Cert.Attn.softmax Cert.Attn.rowSum Cert.Attn.rowExp
  refine congrArg₂ Ideal.div ?_ ?_
  · exact expRow_apply _ Facts₀.reduces_S512x2048_S512 (.inl rfl) rfl Facts₀.shapeCasts_S512_S512x1
      Facts₀.broadcasts_S512x1_S512x2048 q _ hS j
  · refine (rowSumSpread_apply _ Facts₀.reduces_S512x2048_S512 (.inl rfl) rfl Facts₀.shapeCasts_S512_S512x1
      Facts₀.broadcasts_S512x1_S512x2048 q j).trans ?_
    exact Finset.sum_congr rfl fun k _ => expRow_apply _ Facts₀.reduces_S512x2048_S512 (.inl rfl) rfl
      Facts₀.shapeCasts_S512_S512x1 Facts₀.broadcasts_S512x1_S512x2048 q _ hS k

end Cert.KernelIdeal.Pay

end
-- ==== Proof.ProjValue.lean ====
/-
  The projected array after the first call, as ONE function of the arrays the call finds.

  At point `t` the call writes back the product of rows `1024 t …` of the flattened input with the whole stacked
  weight; the eight blocks tile the `[8192, 3072]` result, so after the call entry `(r, f)` of the result is row
  `r` of the flattened input against row `f` of the stacked weight.
-/
import proofs.«110624_j36009005809779_2_alg».proof.Proof.ProjCall
import proofs.«110624_j36009005809779_2_alg».proof.Proof.Payload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)

variable (V : (c : Dev nD) → (b : Ref sig .tc) → Buf (Elt Ideal) ((c : Thread nD τ).loc b))

/-! ## The projected array after the call -/

theorem hz2 : (![0, 0] : Fin 2 → Nat) = fun _ => 0 := funext fun a => by fin_cases a <;> rfl

/-- The flattened input and the stacked weight as the call finds them, read as arrays of extended reals. -/
abbrev rowsIn (c : Dev nD) : S8192x1024.Idx → EReal := V c main_v0
abbrev weightIn (c : Dev nD) : S3072x1024.Idx → EReal := V c main_v1

/-- Entry `(r, f)` of the projection: row `r` of the flattened input against row `f` of the stacked weight. -/
def projAt (c : Dev nD) (r : Fin 8192) (f : Fin 3072) : EReal :=
  ∑ e : Fin 1024, rowsIn V c (ix2 r e) * weightIn V c (ix2 f e)

/-- The projection as one array over `[8192, 3072]`. -/
def projArr (c : Dev nD) : S8192x3072.Idx → EReal := fun i => projAt V c (i 0) (i 1)

/-- The printed index maps, decided over the 8 points: the rows windows (input and result) sit at block `t` of the
    rows and block 0 of the columns; the weight window never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows window's block at point `t` is rows `1024 t …` of the flattened input. -/
theorem rows_block (c : Dev nD) (t : Fin cfg0.N) (p e : Fin 1024) (r : Fin 8192) (hr : r.val = 1024 * t.val + p.val) :
    (iblk0 V c 0 t : S1024x1024.Idx → EReal) (ix2 p e) = rowsIn V c (ix2 r e) := by
  obtain ⟨e0, e1, -, -, -, -⟩ := idx_facts t
  unfold iblk0
  rw [View.read_apply]
  show rowsIn V c _ = _
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * e.val = e.val; omega

/-- The weight window's block, at every point, is the whole stacked weight. -/
theorem weight_block (c : Dev nD) (t : Fin cfg0.N) (q : Fin 3072) (e : Fin 1024) :
    (iblk0 V c 1 t : S3072x1024.Idx → EReal) (ix2 q e) = weightIn V c (ix2 q e) := by
  obtain ⟨-, -, e2, e3, -, -⟩ := idx_facts t
  unfold iblk0
  rw [View.read_apply]
  show weightIn V c _ = _
  refine congrArg _ (funext fun a => Fin.ext ?_)
  match a with
  | ⟨0, _⟩ => show win0_1.index t (0 : Fin 2) * 3072 + 1 * q.val = q.val; omega
  | ⟨1, _⟩ => show win0_1.index t (1 : Fin 2) * 1024 + 1 * e.val = e.val; omega

/-- What point `t` writes back is block `t` of the projection of the arrays as the call finds them. -/
theorem flushed_eq (c : Dev nD) (t : Fin cfg0.N) :
    (dat0 V c).flushed 2 t = ((cfg0.win 2).blk t).view.read (Elt Ideal) (projArr V c) := by
  show (cfg0.win 2).cut (grid0.coords t) ((dat0 V c).after 2 t) = _
  rw [after0_2]
  unfold out0_2
  rw [View.canon_unit_zero hz2]
  simp only [View.ld_unit_zero (S := S1024x1024) hz2, View.ld_unit_zero (S := S3072x1024) hz2]
  obtain ⟨-, -, -, -, e4, e5⟩ := idx_facts t
  have ht : t.val < 8 := lt_of_lt_of_eq t.isLt N_0
  funext j
  have hp : (j 0).val < 1024 := (j 0).isLt
  have hq : (j 1).val < 3072 := (j 1).isLt
  -- the block's coordinates, and where they sit in the array
  have hx : (win0 2).xinj (grid0.coords t) j = (ix2 (⟨(j 0).val, hp⟩ : Fin 1024) (⟨(j 1).val, hq⟩ : Fin 3072) : S1024x3072.Idx) := by
    funext a; apply Fin.ext
    match a with
    | ⟨0, _⟩ => rfl
    | ⟨1, _⟩ => rfl
  have hemb : ((cfg0.win 2).blk t).view.emb j
      = (ix2 (⟨1024 * t.val + (j 0).val, by omega⟩ : Fin 8192) (⟨(j 1).val, hq⟩ : Fin 3072) : S8192x3072.Idx) := by
    funext a; apply Fin.ext
    match a with
    | ⟨0, _⟩ => show win0_2.index t (0 : Fin 2) * 1024 + 1 * (j 0).val = 1024 * t.val + (j 0).val; omega
    | ⟨1, _⟩ => show win0_2.index t (1 : Fin 2) * 3072 + 1 * (j 1).val = (j 1).val; omega
  show k0_pay1 (F := Ideal) (iblk0 V c 0 t) (iblk0 V c 1 t) ((win0 2).xinj (grid0.coords t) j)
    = projArr V c (((cfg0.win 2).blk t).view.emb j)
  rw [hx, Pay.pay0_apply, hemb]
  show _ = projAt V c (⟨1024 * t.val + (j 0).val, by omega⟩ : Fin 8192) (⟨(j 1).val, hq⟩ : Fin 3072)
  unfold projAt
  refine Finset.sum_congr rfl fun e _ => ?_
  rw [rows_block V c t ⟨(j 0).val, hp⟩ e ⟨1024 * t.val + (j 0).val, by omega⟩ rfl, weight_block V c t ⟨(j 1).val, hq⟩ e]

/-- An index of the array is in point `t`'s block iff each coordinate is in the block's range on its axis. -/
theorem mem_blk (t : Fin cfg0.N) (i : S8192x3072.Idx) :
    i ∈ ((cfg0.win 2).blk t).view.set ↔ ∀ a : Fin 2, win0_2.index t a * S1024x3072.size a ≤ (i a).val ∧ (i a).val < win0_2.index t a * S1024x3072.size a + S1024x3072.size a := by
  show i ∈ ((View.whole main_v2).slice (win0_2.rect t)).set ↔ _
  rw [View.set_slice_whole, Rect.mem_set_unit]
  exact Iff.rfl

/-- Every index of the array is in the block of the point its row names: row `r` in block `r / 1024`. -/
theorem covered (i : S8192x3072.Idx) :
    ∃ t : Fin cfg0.N, (cfg0.win 2).flush t = true ∧ i ∈ ((cfg0.win 2).blk t).view.set := by
  have hi0 : (i 0).val < 8192 := (i 0).isLt
  have hi1 : (i 1).val < 3072 := (i 1).isLt
  let t : Fin cfg0.N := ⟨(i 0).val / 1024, lt_of_lt_of_eq (show (i 0).val / 1024 < 8 by omega) N_0.symm⟩
  obtain ⟨-, -, -, -, e4, e5⟩ := idx_facts t
  have e4' : win0_2.index t (0 : Fin 2) = (i 0).val / 1024 := e4
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 3072 ≤ (i 1).val ∧ (i 1).val < win0_2.index t (1 : Fin 2) * 3072 + 3072; omega

/-- The projected array after the call is the projection of the arrays as the call finds them. -/
theorem final (c : Dev nD) : (dat0 V c).arrAt 2 cfg0.N = projArr V c :=
  (dat0 V c).arrAt_eq_of_cover 2 (projArr V c) (fun t _ => flushed_eq V c t) covered

/-- The projected array after the call at `(r, f)`: row `r` of the flattened input against row `f` of the stacked weight. -/
theorem proj_final (c : Dev nD) (r : Fin 8192) (f : Fin 3072) :
    ((dat0 (F := Ideal) V c).arrAt 2 cfg0.N : S8192x3072.Idx → EReal) (ix2 r f) = ∑ e : Fin 1024, rowsIn V c (ix2 r e) * weightIn V c (ix2 f e) := by
  rw [final V c]
  rfl

end Cert.KernelIdeal.Hand

end
-- ==== Proof.Spec2.lean ====
/-
  The attention layer from the three projected arrays on: what the second call computes of its operands.

  `scoreOf Qf Kf` is the kernel's score with the projections as parameters, and `outOf` the layer's output from the
  three projections, the output weight and the bias row; at the projections of the input they are `scoreK` and `specK`.
-/
import proofs.«110624_j36009005809779_2_alg».proof.Proof.Spec

noncomputable section

namespace Cert.Attn

open Idealize.ShloMosaic Idealize.ShloMosaic.ValueIdx

/-- The kernel's score from a query array and a key array: the query entries scaled by the bf16 word of one eighth. -/
def scoreOf (Qf Kf : Fin 4 → Fin 2048 → Fin 1024 → EReal) (b : Fin 4) (h : Fin 16) (q j : Fin 2048) : EReal :=
  ∑ d : Fin 64, (Qf b q (col h d) * Ideal.ofBits .bf16 0x3E00#16) * Kf b j (col h d)

theorem scoreK_eq_scoreOf (x : Act) (Wq Wk : Mat) : scoreK x Wq Wk = scoreOf (proj x Wq) (proj x Wk) := rfl

/-- The layer's output at `(b, s, f)` from the three projections, the output weight and the bias as a row. -/
def outOf (Qf Kf Vf : Fin 4 → Fin 2048 → Fin 1024 → EReal) (Wo : Mat) (bo1 : Fin 1024 → EReal)
    (b : Fin 4) (s : Fin 2048) (f : Fin 1024) : EReal :=
  (∑ e : Fin 1024, ctx (scoreOf Qf Kf) Vf b s e * Wo (ix2 f e)) + bo1 f

theorem specK_apply (x : Act) (Wq Wk Wv Wo : Mat) (bo : Bias) (b : Fin 4) (s : Fin 2048) (f : Fin 1024) :
    specK x Wq Wk Wv Wo bo (ix3 b s f) = outOf (proj x Wq) (proj x Wk) (proj x Wv) Wo (fun f => bo (ix1 f)) b s f := rfl

end Cert.Attn

end
-- ==== Proof.AttnValue2.lean ====
/-
  What the attention body leaves at one grid point, as a function of the five blocks it is handed, and its value on
  the extended reals.

  The body gathers the sixteen heads' contexts side by side in a scratch — column `e` of row `q` is head `e / 64`'s
  context at `(q, e % 64)` — and multiplies the scratch by the output weight and adds the bias row. On the extended
  reals, whenever the five blocks read the layer's operands (the query tile's row `q` the query row `s` of batch `b`, …)
  the result at `(0, q, f)` is the layer's output at `(b, s, f)`: column `64 (e / 64) + d` of a block is column
  `col (headOf e) d` of the operand.
-/
import proofs.«110624_j36009005809779_2_alg».proof.Proof.AttnValue1
import proofs.«110624_j36009005809779_2_alg».proof.Proof.Payload
import proofs.«110624_j36009005809779_2_alg».proof.Proof.Spec2
import Idealize.ShloMosaic.Lib.Pipeline.Value
import Idealize.ShloMosaic.Lib.Pipeline.Frame
import Idealize.ShloMosaic.Lib.Pipeline.FrameBody
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

section AnyFloat
variable {F : FTy → Type} [FloatOps F]

/-- Head `k`'s context block, from the query tile and the batch's key and value blocks: the head's payload of the
    three blocks' columns `64 k …`. -/
def headOut (x0 : Vec F S1x512x1024 .bf16) (x1 x2 : Vec F S1x2048x1024 .bf16) (k : Fin k1_t1_loop.trips) :
    FVec F S512x64 .bf16 :=
  k1_pay1 (View.ld x0 (rectQ k)) (View.ld x1 (rectK k)) (View.ld x2 (rectK k))

/-- The scratch after the sixteen heads: column `e` of row `q` is head `e / 64`'s context at `(q, e % 64)`. -/
def scrOf (x0 : Vec F S1x512x1024 .bf16) (x1 x2 : Vec F S1x2048x1024 .bf16) : Vec F S512x1024 .bf16 :=
  fun y => headOut x0 x1 x2 (headIx y) (inIx y)

/-- What the body leaves in the result's tile, as a function of the five blocks it is handed. -/
def pointOut (x0 : Vec F S1x512x1024 .bf16) (x1 x2 : Vec F S1x2048x1024 .bf16) (x3 : Vec F S1024x1024 .f32)
    (x4 : Vec F S1x1024 .f32) : Vec F S1x512x1024 .f32 :=
  k1_pay2 (scrOf x0 x1 x2) x3 x4

/-- The scratch after the sixteen trips, run on whole buffers holding the three blocks, is the function `scrOf` of the
    blocks: each trip's loads read the blocks through the head's rectangles. -/
theorem canon_pb_blocks (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 x2 : Vec F S1x2048x1024 .bf16) :
    View.canon (pb_k1_t1 (F := F) 𝒱 c bd i arg2 harg2 arg3 harg3 arg4 harg4 arg5 harg5 arg6 harg6 arg7 harg7 arg8 harg8
      (harg2.unread x0) (harg3.unread x1) (harg4.unread x2) 16) = scrOf x0 x1 x2 := by
  funext y
  rw [canon_pb]
  unfold scrOf headOut
  simp only [View.readAt_eq_ld, Memref.IsWhole.read_unread]

end AnyFloat

/-! ## At the extended reals -/

/-- Entry `d` of head `k`'s columns of the query tile is column `64 k + d` of the tile, -/
theorem rectQ_idx (k : Fin k1_t1_loop.trips) (q : Fin 512) (d : Fin 64) (hc : 64 * k.val + d.val < 1024) :
    (rectQ k).idx (ix3 (0 : Fin 1) q d : S1x512x64.Idx) = ix3 (0 : Fin 1) q (⟨64 * k.val + d.val, hc⟩ : Fin 1024) :=
  funext fun a => Fin.ext (by
    rw [LoadRect.idx_apply]
    show k1_off1 k a + 1 * ((ix3 (0 : Fin 1) q d : S1x512x64.Idx) a : ℕ) = _
    rw [k1_off1_eq]
    match a with
    | ⟨0, _⟩ => show 0 + 1 * 0 = 0; rfl
    | ⟨1, _⟩ => show 0 + 1 * q.val = q.val; omega
    | ⟨2, _⟩ => show 64 * k.val + 1 * d.val = 64 * k.val + d.val; omega)
/-- and likewise of a key or value block. -/
theorem rectK_idx (k : Fin k1_t1_loop.trips) (j : Fin 2048) (d : Fin 64) (hc : 64 * k.val + d.val < 1024) :
    (rectK k).idx (ix3 (0 : Fin 1) j d : S1x2048x64.Idx) = ix3 (0 : Fin 1) j (⟨64 * k.val + d.val, hc⟩ : Fin 1024) :=
  funext fun a => Fin.ext (by
    rw [LoadRect.idx_apply]
    show k1_off2 k a + 1 * ((ix3 (0 : Fin 1) j d : S1x2048x64.Idx) a : ℕ) = _
    rw [k1_off2_eq]
    match a with
    | ⟨0, _⟩ => show 0 + 1 * 0 = 0; rfl
    | ⟨1, _⟩ => show 0 + 1 * j.val = j.val; omega
    | ⟨2, _⟩ => show 64 * k.val + 1 * d.val = 64 * k.val + d.val; omega)

/-- THE BODY'S RESULT AT ONE ELEMENT is the attention layer's output there, whenever the five blocks read the layer's
    operands: the query tile's row `q` the query row `s` of batch `b`, the key and value blocks the batch's key and value
    rows, the fourth block the output weight and the fifth the bias row. -/
theorem pointOut_eq_outOf (Qf Kf Vf : Fin 4 → Fin 2048 → Fin 1024 → EReal) (Wo : Cert.Attn.Mat) (bo1 : Fin 1024 → EReal)
    (b : Fin 4) (s : Fin 2048) (q : Fin 512)
    (x0 : Vec Ideal S1x512x1024 .bf16) (x1 x2 : Vec Ideal S1x2048x1024 .bf16) (x3 : Vec Ideal S1024x1024 .f32)
    (x4 : Vec Ideal S1x1024 .f32)
    (h0 : ∀ e : Fin 1024, x0 (ix3 (0 : Fin 1) q e) = Qf b s e)
    (h1 : ∀ (j : Fin 2048) (e : Fin 1024), x1 (ix3 (0 : Fin 1) j e) = Kf b j e)
    (h2 : ∀ (j : Fin 2048) (e : Fin 1024), x2 (ix3 (0 : Fin 1) j e) = Vf b j e)
    (h3 : ∀ f e : Fin 1024, x3 (ix2 f e) = Wo (ix2 f e))
    (h4 : ∀ f : Fin 1024, x4 (ix2 (0 : Fin 1) f) = bo1 f) (f : Fin 1024) :
    pointOut (F := Ideal) x0 x1 x2 x3 x4 (ix3 (0 : Fin 1) q f) = Cert.Attn.outOf Qf Kf Vf Wo bo1 b s f := by
  unfold pointOut
  refine (Cert.KernelIdeal.Pay.pay2_apply _ x3 x4 q f).trans ?_
  unfold Cert.Attn.outOf
  refine congrArg₂ (· + ·) (Finset.sum_congr rfl fun e _ => ?_) (h4 f)
  refine congrArg₂ (· * ·) ?_ (h3 f e)
  -- column `e` of the scratch is head `e / 64`'s context at `(q, e % 64)`
  have hk : (headIx (ix2 q e : S512x1024.Idx)).val = (Cert.Attn.headOf e).val := rfl
  have hin : inIx (ix2 q e : S512x1024.Idx) = ix2 q (Cert.Attn.inHead e) := rfl
  show headOut x0 x1 x2 (headIx (ix2 q e : S512x1024.Idx)) (inIx (ix2 q e : S512x1024.Idx)) = _
  rw [hin]
  unfold headOut
  refine (Cert.KernelIdeal.Pay.pay1_apply _ _ _ q (Cert.Attn.inHead e)).trans ?_
  unfold Cert.Attn.ctx Cert.Attn.ctxHead
  have hcol : ∀ d : Fin 64, 64 * (headIx (ix2 q e : S512x1024.Idx)).val + d.val < 1024 := fun d => by
    rw [hk]; have := (Cert.Attn.headOf e).isLt; have := d.isLt; omega
  have hcolEq : ∀ d : Fin 64, (⟨64 * (headIx (ix2 q e : S512x1024.Idx)).val + d.val, hcol d⟩ : Fin 1024)
      = Cert.Attn.col (Cert.Attn.headOf e) d := fun d => Fin.ext (show 64 * (headIx (ix2 q e : S512x1024.Idx)).val + d.val = 64 * (Cert.Attn.headOf e).val + d.val from rfl)
  refine Finset.sum_congr rfl fun j _ => ?_
  refine congrArg₂ (· * ·) ?_ ?_
  · refine congrArg (fun r => Cert.Attn.softmax r j) (funext fun j' => ?_)
    show _ = Cert.Attn.scoreOf Qf Kf b (Cert.Attn.headOf e) s j'
    unfold Cert.Attn.scoreOf
    refine Finset.sum_congr rfl fun d' _ => ?_
    show (x0 ((rectQ _).idx (ix3 (0 : Fin 1) q d' : S1x512x64.Idx)) * _) * x1 ((rectK _).idx (ix3 (0 : Fin 1) j' d' : S1x2048x64.Idx)) = _
    rw [rectQ_idx _ q d' (hcol d'), rectK_idx _ j' d' (hcol d'), hcolEq d', h0, h1]
  · show x2 ((rectK _).idx (ix3 (0 : Fin 1) j (Cert.Attn.inHead e) : S1x2048x64.Idx)) = _
    rw [rectK_idx _ j (Cert.Attn.inHead e) (hcol _), hcolEq, h2]

end Cert.KernelIdeal.Hand

end
-- ==== Proof.AttnValue3.lean ====
/-
  The attention call's windows, read at coordinates.

  The grid is 4 × 4: point `t` is batch `t / 4`, query tile `t % 4`. At point `t` the query tile is rows `512 (t % 4) …`
  of batch `t / 4`, columns `0 … 1023` of the projected array; the key and value blocks are all 2048 rows of the batch,
  columns `1024 …` and `2048 …`; the output weight and the bias row are whole; and the result's tile is rows
  `512 (t % 4) …` of batch `t / 4` of the result array. An element of a block sits, on each axis, at the block index
  times the block's size plus its own coordinate; the block indices are decided once over the sixteen points. The
  sixteen tiles cover the result array.
-/
import proofs.«110624_j36009005809779_2_alg».proof.Proof.Gen.KernelIdeal.Launch
import proofs.«110624_j36009005809779_2_alg».proof.Proof.Gen.KernelIdeal.Skeleton
import proofs.«110624_j36009005809779_2_alg».proof.Proof.Gen.KernelIdeal.Loops
import proofs.«110624_j36009005809779_2_alg».proof.Proof.Gen.KernelIdeal.Points
import Idealize.ShloMosaic.Lib.Pipeline.Value
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable {F : FTy → Type} [FloatOps F]
variable (V : (c : Dev nD) → (b : Ref sig .tc) → Buf (Elt F) ((c : Thread nD τ).loc b))

/-- The windows' block indices at grid point `t` = (batch `t / 4`, query tile `t % 4`), decided over the sixteen points. -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 1
    ∧ win1_2.index t (0 : Fin 3) = t.val / 4 ∧ win1_2.index t (1 : Fin 3) = 0 ∧ win1_2.index t (2 : Fin 3) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 4 ∧ win1_5.index t (1 : Fin 3) = t.val % 4 ∧ win1_5.index t (2 : Fin 3) = 0 :=
  (by decide +kernel : ∀ t : Fin grid1.N, _)

theorem N1_eq : cfg1.N = 16 := by decide +kernel

/-- The batch and the global row of a tile's row at point `t`. -/
theorem pt_lt (t : Fin cfg1.N) : t.val < 16 := lt_of_lt_of_eq t.isLt N1_eq

/-- The query tile at point `t` reads the projected array at batch `t / 4`, row `512 (t % 4) + q`, column `e`. -/
theorem read1_0 (c : Dev nD) (t : Fin cfg1.N) (q : Fin 512) (e : Fin 1024) (hb : t.val / 4 < 4) (hs : 512 * (t.val % 4) + q.val < 2048)
    (he : e.val < 3072) :
    ((cfg1.win 0).blk t).view.read (Elt F) (V c (Pipeline.arrRef spec1 0)) (ix3 (0 : Fin 1) q e)
      = V c main_v3 (ix3 (⟨t.val / 4, hb⟩ : Fin 4) (⟨512 * (t.val % 4) + q.val, hs⟩ : Fin 2048) (⟨e.val, he⟩ : Fin 3072)) := by
  obtain ⟨e0, e1, e2, -⟩ := idx_facts1 t
  rw [View.read_apply]
  show V c main_v3 _ = V c main_v3 _
  congr 1
  funext a
  apply Fin.ext
  match a with
  | ⟨0, _⟩ => show win1_0.index t (0 : Fin 3) * 1 + 1 * 0 = t.val / 4; rw [e0]; omega
  | ⟨1, _⟩ => show win1_0.index t (1 : Fin 3) * 512 + 1 * q.val = 512 * (t.val % 4) + q.val; rw [e1]; omega
  | ⟨2, _⟩ => show win1_0.index t (2 : Fin 3) * 1024 + 1 * e.val = e.val; rw [e2]; omega

/-- The key block at point `t` reads the projected array at batch `t / 4`, row `j`, column `1024 + e`. -/
theorem read1_1 (c : Dev nD) (t : Fin cfg1.N) (j : Fin 2048) (e : Fin 1024) (hb : t.val / 4 < 4) (he : 1024 + e.val < 3072) :
    ((cfg1.win 1).blk t).view.read (Elt F) (V c (Pipeline.arrRef spec1 1)) (ix3 (0 : Fin 1) j e)
      = V c main_v3 (ix3 (⟨t.val / 4, hb⟩ : Fin 4) j (⟨1024 + e.val, he⟩ : Fin 3072)) := by
  obtain ⟨-, -, -, e0, e1, e2, -⟩ := idx_facts1 t
  rw [View.read_apply]
  show V c main_v3 _ = V c main_v3 _
  congr 1
  funext a
  apply Fin.ext
  match a with
  | ⟨0, _⟩ => show win1_1.index t (0 : Fin 3) * 1 + 1 * 0 = t.val / 4; rw [e0]; omega
  | ⟨1, _⟩ => show win1_1.index t (1 : Fin 3) * 2048 + 1 * j.val = j.val; rw [e1]; omega
  | ⟨2, _⟩ => show win1_1.index t (2 : Fin 3) * 1024 + 1 * e.val = 1024 + e.val; rw [e2]; omega

/-- The value block at point `t` reads the projected array at batch `t / 4`, row `j`, column `2048 + e`. -/
theorem read1_2 (c : Dev nD) (t : Fin cfg1.N) (j : Fin 2048) (e : Fin 1024) (hb : t.val / 4 < 4) (he : 2048 + e.val < 3072) :
    ((cfg1.win 2).blk t).view.read (Elt F) (V c (Pipeline.arrRef spec1 2)) (ix3 (0 : Fin 1) j e)
      = V c main_v3 (ix3 (⟨t.val / 4, hb⟩ : Fin 4) j (⟨2048 + e.val, he⟩ : Fin 3072)) := by
  obtain ⟨-, -, -, -, -, -, e0, e1, e2, -⟩ := idx_facts1 t
  rw [View.read_apply]
  show V c main_v3 _ = V c main_v3 _
  congr 1
  funext a
  apply Fin.ext
  match a with
  | ⟨0, _⟩ => show win1_2.index t (0 : Fin 3) * 1 + 1 * 0 = t.val / 4; rw [e0]; omega
  | ⟨1, _⟩ => show win1_2.index t (1 : Fin 3) * 2048 + 1 * j.val = j.val; rw [e1]; omega
  | ⟨2, _⟩ => show win1_2.index t (2 : Fin 3) * 1024 + 1 * e.val = 2048 + e.val; rw [e2]; omega

/-- The fourth block is the output weight, whole. -/
theorem read1_3 (c : Dev nD) (t : Fin cfg1.N) (f e : Fin 1024) :
    ((cfg1.win 3).blk t).view.read (Elt F) (V c (Pipeline.arrRef spec1 3)) (ix2 f e) = V c main_arg4 (ix2 f e) := by
  obtain ⟨-, -, -, -, -, -, -, -, -, e0, e1, -⟩ := idx_facts1 t
  rw [View.read_apply]
  show V c main_arg4 _ = V c main_arg4 _
  congr 1
  funext a
  apply Fin.ext
  match a with
  | ⟨0, _⟩ => show win1_3.index t (0 : Fin 2) * 1024 + 1 * f.val = f.val; rw [e0]; omega
  | ⟨1, _⟩ => show win1_3.index t (1 : Fin 2) * 1024 + 1 * e.val = e.val; rw [e1]; omega

/-- The fifth block is the bias row, whole. -/
theorem read1_4 (c : Dev nD) (t : Fin cfg1.N) (f : Fin 1024) :
    ((cfg1.win 4).blk t).view.read (Elt F) (V c (Pipeline.arrRef spec1 4)) (ix2 (0 : Fin 1) f) = V c main_v4 (ix2 (0 : Fin 1) f) := by
  obtain ⟨-, -, -, -, -, -, -, -, -, -, -, e0, e1, -⟩ := idx_facts1 t
  rw [View.read_apply]
  show V c main_v4 _ = V c main_v4 _
  congr 1
  funext a
  apply Fin.ext
  match a with
  | ⟨0, _⟩ => show win1_4.index t (0 : Fin 2) * 1 + 1 * 0 = 0; rw [e0]
  | ⟨1, _⟩ => show win1_4.index t (1 : Fin 2) * 1024 + 1 * f.val = f.val; rw [e1]; omega

/-- Where an element of the result's tile at point `t` sits in the result array: batch `t / 4`, row `512 (t % 4) + q`. -/
theorem emb1_5 (t : Fin cfg1.N) (u : Fin 1) (q : Fin 512) (f : Fin 1024) (hb : t.val / 4 < 4)
    (hs : 512 * (t.val % 4) + q.val < 2048) :
    ((cfg1.win 5).blk t).view.emb (ix3 u q f)
      = (ix3 (⟨t.val / 4, hb⟩ : Fin 4) (⟨512 * (t.val % 4) + q.val, hs⟩ : Fin 2048) f : S4x2048x1024.Idx) := by
  obtain ⟨-, -, -, -, -, -, -, -, -, -, -, -, -, e0, e1, e2⟩ := idx_facts1 t
  have hu : u.val = 0 := by omega
  funext a
  apply Fin.ext
  match a with
  | ⟨0, _⟩ => show win1_5.index t (0 : Fin 3) * 1 + 1 * u.val = t.val / 4; rw [e0, hu]; omega
  | ⟨1, _⟩ => show win1_5.index t (1 : Fin 3) * 512 + 1 * q.val = 512 * (t.val % 4) + q.val; rw [e1]; omega
  | ⟨2, _⟩ => show win1_5.index t (2 : Fin 3) * 1024 + 1 * f.val = f.val; rw [e2]; omega

/-- An index of the result array is in point `t`'s tile iff each coordinate is in the tile's range on its axis. -/
theorem mem_blk1_5 (t : Fin cfg1.N) (i : S4x2048x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v5).slice (win1_5.rect t)).set ↔ _
  rw [View.set_slice_whole, Rect.mem_set_unit]
  exact Iff.rfl

/-- Every index of the result array is in the tile of the point (batch, query tile) = (its batch, its row / 512). -/
theorem cover1 (i : S4x2048x1024.Idx) : ∃ t : Fin cfg1.N, (cfg1.win 5).flush t = true ∧ i ∈ ((cfg1.win 5).blk t).view.set := by
  have h0 : (i 0).val < 4 := (i 0).isLt
  have h1 : (i 1).val < 2048 := (i 1).isLt
  have h2 : (i 2).val < 1024 := (i 2).isLt
  refine ⟨⟨4 * (i 0).val + (i 1).val / 512, by rw [N1_eq]; omega⟩, flush1_5 _, ?_⟩
  rw [mem_blk1_5]
  obtain ⟨-, -, -, -, -, -, -, -, -, -, -, -, -, e0, e1, e2⟩ :=
    idx_facts1 ⟨4 * (i 0).val + (i 1).val / 512, by rw [N1_eq]; omega⟩
  intro a
  match a with
  | ⟨0, _⟩ =>
    show win1_5.index _ (0 : Fin 3) * 1 ≤ (i 0).val ∧ (i 0).val < win1_5.index _ (0 : Fin 3) * 1 + 1
    rw [e0]; dsimp only; omega
  | ⟨1, _⟩ =>
    show win1_5.index _ (1 : Fin 3) * 512 ≤ (i 1).val ∧ (i 1).val < win1_5.index _ (1 : Fin 3) * 512 + 512
    rw [e1]; dsimp only; omega
  | ⟨2, _⟩ =>
    show win1_5.index _ (2 : Fin 3) * 1024 ≤ (i 2).val ∧ (i 2).val < win1_5.index _ (2 : Fin 3) * 1024 + 1024
    rw [e2]; omega

/-- A tile's contents `X`, cut to what the write-back at point `t` moves (all of it), is tile `t` of an array `G` as soon
    as `X` at `(0, q, f)` is `G` at batch `t / 4`, row `512 (t % 4) + q`, column `f`. -/
theorem cut_eq_read1_5 (c : Dev nD) (t : Fin cfg1.N) (X : Vec F S1x512x1024 .f32)
    (G : Buf (Elt F) ((cfg1.win 5).arr.view.loc (c.tc : Thread nD τ)))
    (hX : ∀ (q : Fin 512) (f : Fin 1024) (hb : t.val / 4 < 4) (hs : 512 * (t.val % 4) + q.val < 2048),
      X (ix3 (0 : Fin 1) q f) = G (ix3 (⟨t.val / 4, hb⟩ : Fin 4) (⟨512 * (t.val % 4) + q.val, hs⟩ : Fin 2048) f : S4x2048x1024.Idx)) :
    (cfg1.win 5).cut (grid1.coords t) X = ((cfg1.win 5).blk t).view.read (Elt F) G := by
  funext j
  obtain ⟨u, q, f, rfl⟩ : ∃ (u : Fin 1) (q : Fin 512) (f : Fin 1024), j = ix3 u q f := ⟨j 0, j 1, j 2, eq_ix3 j⟩
  obtain rfl : u = 0 := Subsingleton.elim _ _
  have hb : t.val / 4 < 4 := by have := pt_lt t; omega
  have hs : 512 * (t.val % 4) + q.val < 2048 := by have := q.isLt; omega
  rw [View.read_apply]
  show X (ix3 (0 : Fin 1) q f) = G (((cfg1.win 5).blk t).view.emb (ix3 (0 : Fin 1) q f))
  rw [emb1_5 t 0 q f hb hs]
  exact hX q f hb hs

end Cert.KernelIdeal.Hand

end
-- ==== Proof.AttnValue.lean ====
/-
  The attention call's result array, as one function of what the call finds, on the extended reals.

  At a grid point the body's one whole-tile store leaves, in the result's tile, the closing payload of the scratch —
  the sixteen heads' contexts side by side — of the output weight and of the bias row: a function `pointOut` of the five
  blocks the point is handed, whatever the scratch held before. The blocks read the projected array's three column
  bands at the point's batch and rows, the output weight and the bias row; so what point `t` writes back is tile `t` of
  ONE array, the layer's output index by index, and the sixteen tiles cover the result array.
-/
import proofs.«110624_j36009005809779_2_alg».proof.Proof.AttnCall
import proofs.«110624_j36009005809779_2_alg».proof.Proof.AttnValue1
import proofs.«110624_j36009005809779_2_alg».proof.Proof.AttnValue2
import proofs.«110624_j36009005809779_2_alg».proof.Proof.AttnValue3
import proofs.«110624_j36009005809779_2_alg».proof.Proof.Payload
import proofs.«110624_j36009005809779_2_alg».proof.Proof.Spec2
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

section AnyFloat
variable {F : FTy → Type} [FloatOps F]

theorem attn_hz3 : (![0, 0, 0] : Fin 3 → Nat) = fun _ => 0 := funext fun a => by fin_cases a <;> rfl
theorem attn_hz2 : (![0, 0] : Fin 2 → Nat) = fun _ => 0 := funext fun a => by fin_cases a <;> rfl

/-- WHAT THE BODY LEAVES in the result's tile is `pointOut` of the five blocks, whatever the scratch held: the run's one
    whole-tile store writes the closing payload of the scratch read back whole — which, the sixteen trips covering it,
    is the function `scrOf` of the three blocks — and of the output weight and the bias row as loaded. -/
theorem out1_5_eq (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .f32) (x4 : Vec F S1x1024 .f32) (fs : BufTy.Contents (Elt F) arg8.view.ty) :
    out1_5 c i arg2 harg2 arg3 harg3 arg4 harg4 arg5 harg5 arg6 harg6 arg7 harg7 arg8 harg8 x0 x1 x2 x3 x4 fs = pointOut x0 x1 x2 x3 x4 := by
  unfold out1_5
  rw [View.read_writes_junk_eq_canon]
  unfold kernelRun1
  dsimp only
  sl_unfold_words
  rw [View.canon_unit_zero attn_hz3]
  unfold pointOut
  rw [show Scf.trips k1_t1_loop.lb k1_t1_loop.ub k1_t1_loop.st = 16 from trips_eq]
  simp only [View.readAt_eq_ld, Memref.IsWhole.read_unread, View.ld_unit_zero (S := S512x1024) attn_hz2,
    View.ld_unit_zero (S := S1024x1024) attn_hz2, View.ld_unit_zero (S := S1x1024) attn_hz2]
  rw [View.read_writes_eq_canon _ _ _ (cover_pb Variants.none c none i arg2 harg2 arg3 harg3 arg4 harg4 arg5 harg5
    arg6 harg6 arg7 harg7 arg8 harg8 (harg2.unread x0) (harg3.unread x1) (harg4.unread x2)), canon_pb_blocks]

end AnyFloat

/-! ## The result array -/

variable (V : (c : Dev nD) → (b : Ref sig .tc) → Buf (Elt Ideal) ((c : Thread nD τ).loc b))

/-- The result array as ONE function of what the call finds in the projected array, the output weight and the bias
    row: the layer's output, index by index. -/
def attnOut (c : Dev nD) : Buf (Elt Ideal) ((c : Thread nD τ).loc main_v5) := fun i =>
  Cert.Attn.outOf (fun b s e => V c main_v3 (ix3 b s (⟨e.val, by omega⟩ : Fin 3072)))
    (fun b s e => V c main_v3 (ix3 b s (⟨1024 + e.val, by omega⟩ : Fin 3072)))
    (fun b s e => V c main_v3 (ix3 b s (⟨2048 + e.val, by omega⟩ : Fin 3072)))
    (V c main_arg4) (fun f => V c main_v4 (ix2 (0 : Fin 1) f))
    (⟨(i 0).val, (i 0).isLt⟩ : Fin 4) (⟨(i 1).val, (i 1).isLt⟩ : Fin 2048) (⟨(i 2).val, (i 2).isLt⟩ : Fin 1024)

/-- WHAT POINT `t` WRITES BACK is tile `t` of that function. -/
theorem flushed1_5_eq (c : Dev nD) (t : Fin cfg1.N) (hf : (cfg1.win 5).flush t = true) :
    (dat1 (F := Ideal) V c).flushed 5 t = ((cfg1.win 5).blk t).view.read (Elt Ideal) (attnOut V c) := by
  show (cfg1.win 5).cut (grid1.coords t) ((dat1 (F := Ideal) V c).after 5 t) = _
  rw [after1_5]
  unfold outAt1
  rw [out1_5_eq]
  refine cut_eq_read1_5 c t _ (attnOut V c) fun q f hb hs => ?_
  exact pointOut_eq_outOf _ _ _ (V c main_arg4) _ (⟨t.val / 4, hb⟩ : Fin 4) (⟨512 * (t.val % 4) + q.val, hs⟩ : Fin 2048) q
    _ _ _ _ _ (fun e => read1_0 V c t q e hb hs (by omega)) (fun j e => read1_1 V c t j e hb (by omega))
    (fun j e => read1_2 V c t j e hb (by omega)) (fun f e => read1_3 V c t f e) (fun f => read1_4 V c t f) f

/-- THE RESULT ARRAY after the call: the layer's output from the three column bands of the projected array, the output
    weight and the bias row, index by index — the sixteen tiles cover it. -/
theorem attn_final (V : (c : Dev nD) → (b : Ref sig .tc) → Buf (Elt Ideal) ((c : Thread nD τ).loc b)) (c : Dev nD) (b : Fin 4) (s : Fin 2048) (f : Fin 1024) :
    (dat1 (F := Ideal) V c).arrAt 5 cfg1.N (ix3 b s f)
      = Cert.Attn.outOf (fun b s e => V c main_v3 (ix3 b s (⟨e.val, by omega⟩ : Fin 3072))) (fun b s e => V c main_v3 (ix3 b s (⟨1024 + e.val, by omega⟩ : Fin 3072))) (fun b s e => V c main_v3 (ix3 b s (⟨2048 + e.val, by omega⟩ : Fin 3072))) (V c main_arg4) (fun f => V c main_v4 (ix2 (0 : Fin 1) f)) b s f := by
  rw [(dat1 (F := Ideal) V c).arrAt_eq_of_cover 5 (attnOut V c) (flushed1_5_eq V c) (fun i => cover1 i)]
  rfl

end Cert.KernelIdeal.Hand

end
-- ==== Proof.KernelValue.lean ====
/-
  The kernel's value at the extended reals: what its program leaves in the result buffer is the layer `specK` of the
  launch contents.

  The program is two host operations (the input flattened to [8192, 1024]; the three weights stacked to [3072, 1024]),
  the projection call, two reshapes (the projected array back to [4, 2048, 3072]; the bias to a row), and the attention
  call. The attention call leaves the layer's output of the three column blocks 0…1023, 1024…2047, 2048…3071 of the
  projected array, the output weight and the bias row. The projection call leaves, at (r, f), row r of the flattened
  input against row f of the stacked weight. Row 2048 b + s of the flattened input is row (b, s) of the input, and rows
  e, 1024 + e, 2048 + e of the stacked weight are row e of the query, key and value weights: so the three column blocks
  are the three projections of the input, and the output is `specK`. No item of the program writes the output weight or
  the bias, so both are read as launched.
-/
import proofs.«110624_j36009005809779_2_alg».proof.Proof.Chain
import proofs.«110624_j36009005809779_2_alg».proof.Proof.HostRead
import proofs.«110624_j36009005809779_2_alg».proof.Proof.ProjValue
import proofs.«110624_j36009005809779_2_alg».proof.Proof.AttnValue
import proofs.«110624_j36009005809779_2_alg».proof.Proof.Spec2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! ## The three projected arrays, the output weight and the bias row, read back to the launch contents -/

/-- Row r of a [8192, 1024] array against row f of a [3072, 1024] array: what the projection call leaves at (r, f). -/
def rowsTimes (X : (⟨2, ![8192, 1024]⟩ : Shape).Idx → EReal) (Wt : (⟨2, ![3072, 1024]⟩ : Shape).Idx → EReal)
    (r : Fin 8192) (f : Fin 3072) : EReal :=
  ∑ e : Fin 1024, X (ix2 r e) * Wt (ix2 f e)

/-- With the core's buffers `A` at launch and `B` after the projection call (the projected array at the sum over the
    1024 input columns of the flattened input's row against the stacked weight's row): column `f` of the projected array
    at (b, s), when row `f` of the stacked weight is row `e` of the weight `w`, is the projection by `w`. -/
theorem stacked_at (A B : Valuation τ sig (Elt Ideal))
    (hB : ∀ (r : Fin 8192) (f : Fin 3072), B (Proc.devRef .tc main_v2) (ix2 r f)
      = rowsTimes (StableHlo.after (hostOps0 (F := Ideal)) A (Proc.devRef .tc main_v0))
          (StableHlo.after (hostOps0 (F := Ideal)) A (Proc.devRef .tc main_v1)) r f)
    (b : Fin 4) (s : Fin 2048) (f : Fin 3072) (w : Cert.Attn.Mat) (e : Fin 1024)
    (hw : ∀ k : Fin 1024, StableHlo.after (hostOps0 (F := Ideal)) A (Proc.devRef .tc main_v1) (ix2 f k) = w (ix2 e k)) :
    StableHlo.after (hostOps1 (F := Ideal)) B (Proc.devRef .tc main_v3) (ix3 b s f)
      = Cert.Attn.proj (A (Proc.devRef .tc main_arg0)) w b s e := by
  refine (v3_apply B b s f).trans ?_
  refine (hB _ f).trans ?_
  show @Eq EReal _ _
  unfold rowsTimes Cert.Attn.proj
  refine Finset.sum_congr rfl fun k _ => ?_
  rw [hw k]
  refine congrArg (· * w (ix2 e k)) ?_
  refine (v0_apply A _ k).trans ?_
  have e0 : ∀ (p : Fin 4) (t : Fin 2048), p = b → t = s →
      A (Proc.devRef .tc main_arg0) (ix3 p t k) = A (Proc.devRef .tc main_arg0) (ix3 b s k) := by
    rintro _ _ rfl rfl; rfl
  have hb := b.isLt; have hs := s.isLt
  exact e0 _ _ (Fin.ext (by show (2048 * b.val + s.val) / 2048 = b.val; omega))
    (Fin.ext (by show (2048 * b.val + s.val) % 2048 = s.val; omega))

/-- The value the second call leaves is the kernel's layer of the launch contents. -/
theorem kernel_value_of (A B : Valuation τ sig (Elt Ideal)) (out : Cert.Attn.Act)
    (hB : ∀ (r : Fin 8192) (f : Fin 3072), B (Proc.devRef .tc main_v2) (ix2 r f)
      = rowsTimes (StableHlo.after (hostOps0 (F := Ideal)) A (Proc.devRef .tc main_v0))
          (StableHlo.after (hostOps0 (F := Ideal)) A (Proc.devRef .tc main_v1)) r f)
    (hout : ∀ (b : Fin 4) (s : Fin 2048) (f : Fin 1024), out (ix3 b s f)
      = Cert.Attn.outOf
          (fun b s e => StableHlo.after (hostOps1 (F := Ideal)) B (Proc.devRef .tc main_v3) (ix3 b s (⟨e.val, by omega⟩ : Fin 3072)))
          (fun b s e => StableHlo.after (hostOps1 (F := Ideal)) B (Proc.devRef .tc main_v3) (ix3 b s (⟨1024 + e.val, by omega⟩ : Fin 3072)))
          (fun b s e => StableHlo.after (hostOps1 (F := Ideal)) B (Proc.devRef .tc main_v3) (ix3 b s (⟨2048 + e.val, by omega⟩ : Fin 3072)))
          (StableHlo.after (hostOps1 (F := Ideal)) B (Proc.devRef .tc main_arg4))
          (fun f => StableHlo.after (hostOps1 (F := Ideal)) B (Proc.devRef .tc main_v4) (ix2 (0 : Fin 1) f)) b s f)
    (h4 : StableHlo.after (hostOps1 (F := Ideal)) B (Proc.devRef .tc main_arg4) = A (Proc.devRef .tc main_arg4))
    (h5 : B (Proc.devRef .tc main_arg5) = A (Proc.devRef .tc main_arg5)) :
    out = Cert.Attn.specK (A (Proc.devRef .tc main_arg0)) (A (Proc.devRef .tc main_arg1)) (A (Proc.devRef .tc main_arg2))
      (A (Proc.devRef .tc main_arg3)) (A (Proc.devRef .tc main_arg4)) (A (Proc.devRef .tc main_arg5)) := by
  funext i
  obtain ⟨b, s, f, rfl⟩ : ∃ (b : Fin 4) (s : Fin 2048) (f : Fin 1024), i = ix3 b s f := ⟨i 0, i 1, i 2, eq_ix3 i⟩
  refine (hout b s f).trans ?_
  rw [Cert.Attn.specK_apply]
  have hQ : (fun (b : Fin 4) (s : Fin 2048) (e : Fin 1024) =>
        StableHlo.after (hostOps1 (F := Ideal)) B (Proc.devRef .tc main_v3) (ix3 b s (⟨e.val, by omega⟩ : Fin 3072)))
      = Cert.Attn.proj (A (Proc.devRef .tc main_arg0)) (A (Proc.devRef .tc main_arg1)) :=
    funext fun b => funext fun s => funext fun e =>
      stacked_at A B hB b s _ (A (Proc.devRef .tc main_arg1)) e (fun k => v1_q A e k)
  have hK : (fun (b : Fin 4) (s : Fin 2048) (e : Fin 1024) =>
        StableHlo.after (hostOps1 (F := Ideal)) B (Proc.devRef .tc main_v3) (ix3 b s (⟨1024 + e.val, by omega⟩ : Fin 3072)))
      = Cert.Attn.proj (A (Proc.devRef .tc main_arg0)) (A (Proc.devRef .tc main_arg2)) :=
    funext fun b => funext fun s => funext fun e =>
      stacked_at A B hB b s _ (A (Proc.devRef .tc main_arg2)) e (fun k => v1_k A e k)
  have hV : (fun (b : Fin 4) (s : Fin 2048) (e : Fin 1024) =>
        StableHlo.after (hostOps1 (F := Ideal)) B (Proc.devRef .tc main_v3) (ix3 b s (⟨2048 + e.val, by omega⟩ : Fin 3072)))
      = Cert.Attn.proj (A (Proc.devRef .tc main_arg0)) (A (Proc.devRef .tc main_arg3)) :=
    funext fun b => funext fun s => funext fun e =>
      stacked_at A B hB b s _ (A (Proc.devRef .tc main_arg3)) e (fun k => v1_v A e k)
  have hb : (fun f : Fin 1024 => StableHlo.after (hostOps1 (F := Ideal)) B (Proc.devRef .tc main_v4) (ix2 (0 : Fin 1) f))
      = fun f : Fin 1024 => A (Proc.devRef .tc main_arg5) (ix1 f) :=
    funext fun f => (v4_apply B f).trans (congrFun h5 (ix1 f))
  rw [hQ, hK, hV, h4, hb]

/-! ## The kernel's value -/

/-- The kernel's program leaves, in the result buffer, the kernel's layer of the launch contents: the second call's
    result is the layer's output of the three column blocks of the projected array, which the first call leaves at
    the flattened input against the stacked weights, that is, at the three projections of the input. -/
theorem kernel_value (m : (ℓ : Loc nD τ sig) → Buf (Elt Ideal) ℓ) (c : Dev nD) :
    W4 (F := Ideal) m c (Proc.devRef .tc main_v5) = Cert.Attn.specK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  kernel_value_of (W0 m c) (W2 m c) (W4 m c (Proc.devRef .tc main_v5))
    (fun r f => (congrFun (W2_arr m c 2) (ix2 r f)).trans (proj_final (U1 m) c r f))
    (fun b s f => (congrFun (W4_v5 m c) (ix3 b s f)).trans (attn_final (U3 m) c b s f))
    ((W3_of m c main_arg4 (by decide)).trans ((W2_of_ne m c main_arg4 (by decide)).trans (W1_of m c main_arg4 (by decide))))
    ((W2_of_ne m c main_arg5 (by decide)).trans (W1_of m c main_arg5 (by decide)))

end Cert.KernelIdeal.Hand

end
-- ==== Proof.RefSide.lean ====
/-
  The reference program read index by index, and its run stated with the layer's function.

  A projection is read at (b, s, f) as the sum over the 1024 input columns. The reshape [4,2048,1024] → [4,2048,16,64]
  followed by the transpose to [4,16,2048,64] reads, at (b, h, s, d), the projection at (b, s, 64 h + d): the row-major
  position ((b·2048 + s)·16 + h)·64 + d is (b·2048 + s)·1024 + (64 h + d). The batched product over the 64 entries of a
  head, divided by the square root of the word of 64, is the reference's score; the reduce with a maximum body from the
  word of −∞, followed by a maximum with −∞ again, is the row's maximum.

  The row maximum is broadcast back along the last axis, so the subtracted, exponentiated entry at (b, h, q, j) is the
  row's unnormalised weight; the sum-reduce from the zero word is the row's sum, broadcast back the same way, and the
  quotient is the softmax weight. The batched product with the value heads is the head's context. The transpose to
  [4,2048,16,64] followed by the reshape to [4,2048,1024] reads, at (b, q, e), head e / 64 at place e % 64: the
  row-major position (b·2048 + q)·1024 + e is ((b·2048 + q)·16 + e / 64)·64 + e % 64. The output projection and the
  broadcast bias close the layer.
-/
import proofs.«110624_j36009005809779_2_alg».proof.Proof.Gen.ReferenceIdeal.Read
import proofs.«110624_j36009005809779_2_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.Read Cert.Attn

/-- The input and a weight, as the reference's buffers hold them. -/
abbrev ActC : Type := (⟨S4x2048x1024, .f32⟩ : BufTy).Contents (Elt Ideal)
abbrev MatC : Type := (⟨S1024x1024, .f32⟩ : BufTy).Contents (Elt Ideal)

/-! ## The projections -/

/-- The first product of the program at (b, s, f) is the projection. -/
theorem v0_at (x : ActC) (w : MatC) (b : Fin 4) (s : Fin 2048) (f : Fin 1024) :
    val_main_v0 (F := Ideal) x w (ix3 b s f) = proj x w b s f := by
  rw [val_main_v0_apply]
  unfold proj
  refine Finset.sum_congr rfl fun e _ => ?_
  have el : lidx_main_v0 (ix3 b s f) e = ix3 b s e :=
    funext fun a => Fin.ext (by match a with | ⟨0, _⟩ => rfl | ⟨1, _⟩ => rfl | ⟨2, _⟩ => rfl)
  have er : ridx_main_v0 (ix3 b s f) e = ix2 f e :=
    funext fun a => Fin.ext (by match a with | ⟨0, _⟩ => rfl | ⟨1, _⟩ => rfl)
  rw [el, er]

/-- The three products are one function of the input and the weight. -/
theorem v1_eq_v0 (x : ActC) (w : MatC) : val_main_v1 (F := Ideal) x w = val_main_v0 (F := Ideal) x w := rfl
theorem v2_eq_v0 (x : ActC) (w : MatC) : val_main_v2 (F := Ideal) x w = val_main_v0 (F := Ideal) x w := rfl

/-! ## The heads -/

/-- Position (b, h, s, d) of the head arrangement is position (b, s, 64 h + d) of the projection. -/
theorem heads_idx (b : Fin 4) (h : Fin 16) (s : Fin 2048) (d : Fin 64) :
    idx_main_v3 (idx_main_v4 (ix4 b h s d)) = ix3 b s (col h d) := by
  have hb := b.isLt; have hh := h.isLt; have hs := s.isLt; have hd := d.isLt
  funext a; apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = 64 * h.val + d.val; omega

/-- The query heads at (b, h, s, d). -/
theorem v4_at (x : ActC) (w : MatC) (b : Fin 4) (h : Fin 16) (s : Fin 2048) (d : Fin 64) :
    val_main_v4 (F := Ideal) x w (ix4 b h s d) = proj x w b s (col h d) := by
  rw [val_main_v4_apply, val_main_v3_apply, heads_idx, v0_at]

theorem v6_eq_v4 (x : ActC) (w : MatC) : val_main_v6 (F := Ideal) x w = val_main_v4 (F := Ideal) x w := rfl
theorem v8_eq_v4 (x : ActC) (w : MatC) : val_main_v8 (F := Ideal) x w = val_main_v4 (F := Ideal) x w := rfl

/-! ## The scores -/

/-- The batched product at (b, h, q, j): query row q against key row j over the 64 entries of head h. -/
theorem v9_at (x : ActC) (wq wk : MatC) (b : Fin 4) (h : Fin 16) (q j : Fin 2048) :
    val_main_v9 (F := Ideal) x wq wk (ix4 b h q j)
      = ∑ d : Fin 64, proj x wq b q (col h d) * proj x wk b j (col h d) := by
  rw [val_main_v9_apply]
  refine Finset.sum_congr rfl fun d _ => ?_
  have el : lidx_main_v9 (ix4 b h q j) d = ix4 b h q d :=
    funext fun a => Fin.ext (by match a with | ⟨0, _⟩ => rfl | ⟨1, _⟩ => rfl | ⟨2, _⟩ => rfl | ⟨3, _⟩ => rfl)
  have er : ridx_main_v9 (ix4 b h q j) d = ix4 b h j d :=
    funext fun a => Fin.ext (by match a with | ⟨0, _⟩ => rfl | ⟨1, _⟩ => rfl | ⟨2, _⟩ => rfl | ⟨3, _⟩ => rfl)
  rw [el, er, v6_eq_v4, v4_at, v4_at]

/-- The divided product is the reference's score. -/
theorem v12_at (x : ActC) (wq wk : MatC) (b : Fin 4) (h : Fin 16) (q j : Fin 2048) :
    val_main_v12 (F := Ideal) x wq wk (ix4 b h q j) = scoreR x wq wk b h q j := by
  rw [val_main_v12_apply, v9_at, val_main_v11_apply, val_main_v10_apply, val_main_cst_apply]
  rfl

/-! ## The row maximum -/

/-- The word 0xFF800000 is −∞, the bottom of the extended reals. -/
theorem ofBits_neg_inf : Ideal.ofBits .f32 0xFF800000#32 = (⊥ : EReal) := by
  simp [Ideal.ofBits, Ideal.ieee]

theorem reduces_last : S4x16x2048x2048.Reduces [3] S4x16x2048 := by decide

/-- The reduced index (b, h, q) with coordinate k put back on the last axis is (b, h, q, k). -/
theorem lift_last (hr : S4x16x2048x2048.Reduces [3] S4x16x2048) (b : Fin 4) (h : Fin 16) (q : Fin 2048)
    (k : Fin (S4x16x2048x2048.size 3)) :
    hr.lift (ix3 b h q) k = ix4 b h q (⟨k.val, k.isLt⟩ : Fin 2048) := by
  funext c; apply Fin.ext
  fin_cases c <;> rfl

/-- The reduce with a maximum body from −∞ over the last axis, at (b, h, q), is the maximum of the score row. -/
theorem v13_at (x : ActC) (wq wk : MatC) (b : Fin 4) (h : Fin 16) (q : Fin 2048) :
    val_main_v13 (F := Ideal) x wq wk (ix3 b h q) = rowMax (scoreR x wq wk b h q) := by
  unfold val_main_v13
  have hf : ((val_main_v12 (F := Ideal) x wq wk) ∘ reduces_last.lift (ix3 b h q))
      = fun k : Fin 2048 => scoreR x wq wk b h q k := funext fun k => by
    show val_main_v12 (F := Ideal) x wq wk (reduces_last.lift (ix3 b h q) k) = _
    rw [lift_last, v12_at]
    rfl
  generalize val_main_v12 (F := Ideal) x wq wk = y at hf ⊢
  refine (Host.reduce_eq_fold_single (FloatOps.maximumf (F := Ideal) (φ := .f32)) y (val_main_cst_0 (F := Ideal))
    reducesTo_S4x16x2048x2048_S4x16x2048_d3 reduces_last h_S_ (ix3 b h q)).trans ?_
  have hi : val_main_cst_0 (F := Ideal) (Shape.Idx.first h_S_) = (⊥ : EReal) := ofBits_neg_inf
  rw [hi]
  unfold rowMax
  exact congrArg (fun f => Finset.fold max (⊥ : EReal) f (Finset.univ : Finset (Fin 2048))) hf

/-- The maximum with −∞ changes nothing: the row maximum as the program subtracts it. -/
theorem v15_at (x : ActC) (wq wk : MatC) (b : Fin 4) (h : Fin 16) (q : Fin 2048) :
    val_main_v15 (F := Ideal) x wq wk (ix3 b h q) = rowMax (scoreR x wq wk b h q) := by
  rw [val_main_v15_apply, v13_at, val_main_v14_apply, val_main_cst_1_apply]
  show max (Ideal.ofBits .f32 0xFF800000#32) _ = _
  rw [ofBits_neg_inf]
  exact bot_sup_eq _

/-! ## The softmax weights -/

/-- A row statistic at (b, h, q), broadcast to [4,16,2048,1] and then along the last axis, is read at (b, h, q). -/
theorem back_idx (b : Fin 4) (h : Fin 16) (q j : Fin 2048) :
    idx_main_v16 (idx_main_v17 (ix4 b h q j)) = ix3 b h q :=
  funext fun a => Fin.ext (by match a with | ⟨0, _⟩ => rfl | ⟨1, _⟩ => rfl | ⟨2, _⟩ => rfl)

theorem back_idx' (b : Fin 4) (h : Fin 16) (q j : Fin 2048) :
    idx_main_v21 (idx_main_v22 (ix4 b h q j)) = ix3 b h q :=
  funext fun a => Fin.ext (by match a with | ⟨0, _⟩ => rfl | ⟨1, _⟩ => rfl | ⟨2, _⟩ => rfl)

/-- The score less its row's maximum. -/
theorem v18_at (x : ActC) (wq wk : MatC) (b : Fin 4) (h : Fin 16) (q j : Fin 2048) :
    val_main_v18 (F := Ideal) x wq wk (ix4 b h q j)
      = scoreR x wq wk b h q j - rowMax (scoreR x wq wk b h q) := by
  rw [val_main_v18_apply, v12_at, val_main_v17_apply, val_main_v16_apply, back_idx, v15_at]
  rfl

/-- The unnormalised weight. -/
theorem v19_at (x : ActC) (wq wk : MatC) (b : Fin 4) (h : Fin 16) (q j : Fin 2048) :
    val_main_v19 (F := Ideal) x wq wk (ix4 b h q j) = rowExp (scoreR x wq wk b h q) j := by
  rw [val_main_v19_apply, v18_at]
  rfl

/-- The row's sum: the zero word adds nothing. -/
theorem v20_at (x : ActC) (wq wk : MatC) (b : Fin 4) (h : Fin 16) (q : Fin 2048) :
    val_main_v20 (F := Ideal) x wq wk (ix3 b h q) = rowSum (scoreR x wq wk b h q) := by
  rw [val_main_v20_apply, val_main_cst_2_apply]
  show Ideal.ofBits .f32 0x00000000#32 + _ = _
  rw [Ideal.ofBits_zero_f32, zero_add]
  unfold rowSum
  refine Finset.sum_congr rfl fun k _ => ?_
  have e : idx_main_v20 (ix3 b h q) k = ix4 b h q k :=
    funext fun a => Fin.ext (by match a with | ⟨0, _⟩ => rfl | ⟨1, _⟩ => rfl | ⟨2, _⟩ => rfl | ⟨3, _⟩ => rfl)
  rw [e, v19_at]

/-- The softmax weight. -/
theorem v23_at (x : ActC) (wq wk : MatC) (b : Fin 4) (h : Fin 16) (q j : Fin 2048) :
    val_main_v23 (F := Ideal) x wq wk (ix4 b h q j) = softmax (scoreR x wq wk b h q) j := by
  rw [val_main_v23_apply, v19_at, val_main_v22_apply, val_main_v21_apply, back_idx', v20_at]
  rfl

/-! ## The contexts -/

/-- Head h's context at query row q, entry d. -/
theorem v24_at (x : ActC) (wq wk wv : MatC) (b : Fin 4) (h : Fin 16) (q : Fin 2048) (d : Fin 64) :
    val_main_v24 (F := Ideal) x wq wk wv (ix4 b h q d) = ctxHead (scoreR x wq wk) (proj x wv) b h q d := by
  rw [val_main_v24_apply]
  unfold ctxHead
  refine Finset.sum_congr rfl fun j _ => ?_
  have el : lidx_main_v24 (ix4 b h q d) j = ix4 b h q j :=
    funext fun a => Fin.ext (by match a with | ⟨0, _⟩ => rfl | ⟨1, _⟩ => rfl | ⟨2, _⟩ => rfl | ⟨3, _⟩ => rfl)
  have er : ridx_main_v24 (ix4 b h q d) j = ix4 b h j d :=
    funext fun a => Fin.ext (by match a with | ⟨0, _⟩ => rfl | ⟨1, _⟩ => rfl | ⟨2, _⟩ => rfl | ⟨3, _⟩ => rfl)
  rw [el, er, v23_at, v8_eq_v4, v4_at]

/-- Position (b, q, e) of the joined heads is position (b, e / 64, q, e % 64) of the head contexts. -/
theorem join_idx (b : Fin 4) (q : Fin 2048) (e : Fin 1024) :
    idx_main_v25 (idx_main_v26 (ix3 b q e)) = ix4 b (headOf e) q (inHead e) := by
  have hb := b.isLt; have hq := q.isLt; have he := e.isLt
  funext a; apply Fin.ext
  match a with
  | ⟨0, _⟩ => show ((b.val * 2048 + q.val) * 1024 + e.val) / 2097152 = b.val; omega
  | ⟨1, _⟩ => show ((b.val * 2048 + q.val) * 1024 + e.val) / 64 % 16 = e.val / 64; omega
  | ⟨2, _⟩ => show ((b.val * 2048 + q.val) * 1024 + e.val) / 1024 % 2048 = q.val; omega
  | ⟨3, _⟩ => show ((b.val * 2048 + q.val) * 1024 + e.val) % 64 = e.val % 64; omega

/-- The heads side by side at (b, q, e). -/
theorem v26_at (x : ActC) (wq wk wv : MatC) (b : Fin 4) (q : Fin 2048) (e : Fin 1024) :
    val_main_v26 (F := Ideal) x wq wk wv (ix3 b q e) = ctx (scoreR x wq wk) (proj x wv) b q e := by
  rw [val_main_v26_apply, val_main_v25_apply, join_idx, v24_at]
  rfl

/-! ## The layer -/

/-- The reference's result is the layer of the reference's score. -/
theorem ref_eq (x0 : (⟨S4x2048x1024, .f32⟩ : BufTy).Contents (Elt Ideal)) (x1 x2 x3 x4 : (⟨S1024x1024, .f32⟩ : BufTy).Contents (Elt Ideal)) (x5 : (⟨S1024, .f32⟩ : BufTy).Contents (Elt Ideal)) :
    Cert.ReferenceIdeal.Read.val_main_v30 (F := Ideal) x0 x1 x2 x3 x4 x5 = Cert.Attn.specR x0 x1 x2 x3 x4 x5 := by
  funext i
  obtain ⟨b, q, f, rfl⟩ : ∃ (b : Fin 4) (q : Fin 2048) (f : Fin 1024), i = ix3 b q f := ⟨i 0, i 1, i 2, eq_ix3 i⟩
  rw [val_main_v30_apply, val_main_v27_apply, val_main_v29_apply, val_main_v28_apply]
  show (∑ k : Fin 1024, val_main_v26 (F := Ideal) x0 x1 x2 x3 (lidx_main_v27 (ix3 b q f) k) * x4 (ridx_main_v27 (ix3 b q f) k))
      + x5 (idx_main_v28 (idx_main_v29 (ix3 b q f)))
    = (∑ e : Fin 1024, ctx (scoreR x0 x1 x2) (proj x0 x3) b q e * x4 (ix2 f e)) + x5 (ix1 f)
  have eb : idx_main_v28 (idx_main_v29 (ix3 b q f)) = ix1 f :=
    funext fun a => Fin.ext (by match a with | ⟨0, _⟩ => rfl)
  rw [eb]
  refine congrArg (· + x5 (ix1 f)) (Finset.sum_congr rfl fun e _ => ?_)
  have el : lidx_main_v27 (ix3 b q f) e = ix3 b q e :=
    funext fun a => Fin.ext (by match a with | ⟨0, _⟩ => rfl | ⟨1, _⟩ => rfl | ⟨2, _⟩ => rfl)
  have er : ridx_main_v27 (ix3 b q f) e = ix2 f e :=
    funext fun a => Fin.ext (by match a with | ⟨0, _⟩ => rfl | ⟨1, _⟩ => rfl)
  rw [el, er, v26_at]

/-- Every run of the reference ends with the layer of the reference's score in the result buffer and the six
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30) = Cert.Attn.specR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((Read.val_main_v30_eq m c).trans (ref_eq _ _ _ _ _ _)), (h c).2⟩)
    (Cert.ReferenceIdeal.Value.run (F := Ideal) m ρ)

end Cert.ReferenceIdeal.RefValue

end
-- ==== Proof.Algebra.lean ====
/-
  The one algebraic law joining the two programs: with every input entry a real, scaling each query
  entry by one eighth before the product over a head's 64 entries gives the same score as dividing
  the finished product by the square root of 64.
-/
import proofs.«110624_j36009005809779_2_alg».proof.Proof.Spec

noncomputable section

namespace Cert.Attn

open Idealize.ShloMosaic Idealize.ShloMosaic.ValueIdx

/-- The coercion from the reals to the extended reals commutes with a finite sum. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The bf16 word `0x3E00` (sign 0, exponent 124, fraction 0) denotes `2⁻³ = 1/8`. -/
theorem ofBits_eighth : Ideal.ofBits .bf16 0x3E00#16 = ((1 / 8 : ℝ) : EReal) := by
  simp [Ideal.ofBits, Ideal.ieee, -EReal.coe_mul]; norm_num

/-- The f32 word `0x42800000` (sign 0, exponent 133, fraction 0) denotes `2⁶ = 64`. -/
theorem ofBits_sixtyfour : Ideal.ofBits .f32 0x42800000#32 = ((64 : ℝ) : EReal) := by
  simp [Ideal.ofBits, Ideal.ieee, -EReal.coe_mul]; norm_num

/-- The square root of 64 is 8. -/
theorem sqrt_sixtyfour : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- A projection entry of real inputs is a real: a finite sum of products of reals. -/
theorem proj_real (x : Act) (W : Mat) (hx : ∀ i, ∃ r : ℝ, x i = (r : EReal))
    (hW : ∀ i, ∃ r : ℝ, W i = (r : EReal)) (b : Fin 4) (s : Fin 2048) (f : Fin 1024) :
    ∃ r : ℝ, proj x W b s f = (r : EReal) := by
  choose xr hxr using hx
  choose wr hwr using hW
  refine ⟨∑ e : Fin 1024, xr (ix3 b s e) * wr (ix2 f e), ?_⟩
  unfold proj
  rw [coe_finset_sum]
  refine Finset.sum_congr rfl fun e _ => ?_
  rw [hxr, hwr, EReal.coe_mul]

/-- The two scores agree on real inputs: `∑ d, (a d * (1/8)) * k d = (∑ d, a d * k d) * (1/8)` over the reals,
    and division by `√64 = 8` is multiplication by `1/8`. -/
theorem scoreK_eq_scoreR (x : Act) (Wq Wk : Mat) (hx : ∀ i, ∃ r : ℝ, x i = (r : EReal))
    (hq : ∀ i, ∃ r : ℝ, Wq i = (r : EReal)) (hk : ∀ i, ∃ r : ℝ, Wk i = (r : EReal)) :
    scoreK x Wq Wk = scoreR x Wq Wk := by
  funext b h q j
  unfold scoreK scoreR
  rw [ofBits_eighth, ofBits_sixtyfour, sqrt_sixtyfour, Ideal.div_coe (by norm_num : (8 : ℝ) ≠ 0)]
  choose a ha using fun d : Fin 64 => proj_real x Wq hx hq b q (col h d)
  choose k hk' using fun d : Fin 64 => proj_real x Wk hx hk b j (col h d)
  simp only [ha, hk', ← EReal.coe_mul]
  rw [← coe_finset_sum, ← coe_finset_sum, ← EReal.coe_mul]
  congr 1
  rw [Finset.sum_mul]
  refine Finset.sum_congr rfl fun d _ => ?_
  ring

/-- The two programs' layers agree on real inputs: they differ only in the score. -/
theorem specK_eq_specR (x : Act) (Wq Wk Wv Wo : Mat) (bo : Bias) (hx : ∀ i, ∃ r : ℝ, x i = (r : EReal))
    (hq : ∀ i, ∃ r : ℝ, Wq i = (r : EReal)) (hk : ∀ i, ∃ r : ℝ, Wk i = (r : EReal)) :
    specK x Wq Wk Wv Wo bo = specR x Wq Wk Wv Wo bo := by
  unfold specK specR
  rw [scoreK_eq_scoreR x Wq Wk hx hq hk]

end Cert.Attn

end
-- ==== Proof.Finite.lean ====
/-
  Finiteness of the inputs from the precondition: the printed predicate is the conjunction of six
  `all (|a| < +∞)`, one per argument array; each conjunct gives, entry by entry, that the entry is a real.
-/
import proofs.«110624_j36009005809779_2_alg».proof.Defs
import proofs.«110624_j36009005809779_2_alg».proof.Proof.Gen.Pre_finite_inputs
import Idealize.ShloMosaic.Lib.ReduceAll
import Idealize.ShloMosaic.Lib.ValueIdx

noncomputable section

namespace Cert.Attn

open Idealize.ShloMosaic Idealize.SL.Sem

/-- The rank-0 shape has one index. -/
instance subsingleton_scalar_idx : Subsingleton Cert.Pre_finite_inputs.S_.Idx :=
  ⟨fun _ _ => funext fun d => d.elim0⟩

/-- The f32 word `0x7F800000` (sign 0, exponent all ones, fraction 0) denotes `+∞`. -/
theorem ofBits_inf : Ideal.ofBits .f32 0x7F800000#32 = ⊤ := by
  simp [Ideal.ofBits, Ideal.ieee]

/-- An extended real whose absolute value is strictly below `+∞` is a real. -/
theorem real_of_abs_lt_top (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- The precondition makes every entry of the input and of the query and key weights a real. -/
theorem finite_of_pre [hK : Cert.KernelIdeal.Facts] [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h0 := congrFun (h c) ValueIdx.ix0
  dsimp only [Cert.Pre_finite_inputs.fn, Cert.Pre_finite_inputs.fn_part1] at h0
  -- the conjunction is nested to the left: ((((a₀ ∧ a₁) ∧ a₂) ∧ a₃) ∧ a₄) ∧ a₅
  obtain ⟨h4, -⟩ := IntOp.andi_eq_one.1 h0
  obtain ⟨h3, -⟩ := IntOp.andi_eq_one.1 h4
  obtain ⟨h2, -⟩ := IntOp.andi_eq_one.1 h3
  obtain ⟨h1, e2⟩ := IntOp.andi_eq_one.1 h2
  obtain ⟨e0, e1⟩ := IntOp.andi_eq_one.1 h1
  exact ⟨fun i => real_of_abs_lt_top _ (Host.reduce_andi_all _ _ _ _ _ e0 i),
    fun i => real_of_abs_lt_top _ (Host.reduce_andi_all _ _ _ _ _ e1 i),
    fun i => real_of_abs_lt_top _ (Host.reduce_andi_all _ _ _ _ _ e2 i)⟩

end Cert.Attn

end
-- ==== Proof.lean ====
/-
  Multi-head attention, the two-call kernel against the plain reference: the certificate's five claims.

  The kernel projects the input once against the three stacked weights (first call, 8 row tiles), reads the projected
  array back as queries, keys and values, and per batch and query tile computes the sixteen heads' softmax-weighted
  contexts into a scratch buffer, multiplies by the output weight and adds the bias (second call, 4 × 4 tiles). At the
  exact instance the result array is `Cert.Attn.specK` of the six arguments, index by index; the reference's is
  `Cert.Attn.specR`. The two differ only in the score — the query scaled by 1/8 before the product against the product
  divided by √64 — and agree wherever the input and the query and key weights are finite, which the precondition says.
  The three frames: each program runs to the end, faults nowhere and leaves its six arguments as launched — the kernel's
  two, at the word-level and at the exact instance, by the same proof read at either instance.
-/
import proofs.«110624_j36009005809779_2_alg».proof.Defs
import proofs.«110624_j36009005809779_2_alg».proof.Proof.Gen.Kernel
import proofs.«110624_j36009005809779_2_alg».proof.Proof.Gen.KernelIdeal
import proofs.«110624_j36009005809779_2_alg».proof.Proof.Gen.ReferenceIdeal
import proofs.«110624_j36009005809779_2_alg».proof.Proof.Gen.Pre_finite_inputs
import proofs.«110624_j36009005809779_2_alg».proof.Proof.Gen.ReferenceIdeal.Run
import proofs.«110624_j36009005809779_2_alg».proof.Proof.Gen.ReferenceIdeal.Read
import proofs.«110624_j36009005809779_2_alg».proof.Proof.BitsMainRun
import proofs.«110624_j36009005809779_2_alg».proof.Proof.MainRun
import proofs.«110624_j36009005809779_2_alg».proof.Proof.KernelValue
import proofs.«110624_j36009005809779_2_alg».proof.Proof.RefSide
import proofs.«110624_j36009005809779_2_alg».proof.Proof.Algebra
import proofs.«110624_j36009005809779_2_alg».proof.Proof.Finite

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Hand.frame m ρ
/-- So does the kernel at the exact instance. -/
theorem frame_ki : Cert.frame_KernelIdeal := fun m ρ _ => Cert.KernelIdeal.Hand.frame m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal Cert.KernelIdeal.Hand in
/-- The kernel's run at the exact instance: the result array is `specK` of the arguments, the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v5) = Cert.Attn.specK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v5 (by decide))).trans (kernel_value m c),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide)),
     (h c _ (mem_uc main_arg5 (by decide))).trans (W4_arg m c main_arg5 (by decide) (by decide) (by decide) (by decide))⟩)
    (run_all m ρ)

/-- From memories agreeing on the arguments both programs run and end with equal results: the kernel's `specK` of the
    arguments, the reference's `specR` of the same, one function where the input and the query and key weights are finite. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.RefValue.run m' ρ')
  obtain ⟨hx, hq, hk⟩ := Cert.Attn.finite_of_pre m hpre c
  rw [(hagree c).1, (hagree c).2.1, (hagree c).2.2.1, (hagree c).2.2.2.1, (hagree c).2.2.2.2.1, (hagree c).2.2.2.2.2]
  exact (Cert.Attn.specK_eq_specR _ _ _ _ _ _ hx hq hk).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
